-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x256 .f32 .bf16
  ∧ IdealRules.truncf_extf.Statement Cert.KernelIdeal.S512x256 .f32 .bf16
  ∧ IdealRules.truncf_extf.Statement Cert.KernelIdeal.S512x256 .f32 .bf16
  ∧ IdealRules.truncf_extf.Statement Cert.KernelIdeal.S512x256 .f32 .bf16
  ∧ IdealRules.truncf_extf.Statement Cert.KernelIdeal.S512x256 .f32 .bf16
  ∧ IdealRules.truncf_extf.Statement Cert.KernelIdeal.S512x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part8 {F : FTy → Type} [FloatOps F] (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  main_v138

def fn_part7 {F : FTy → Type} [FloatOps F] (main_arg25 : FVec F S256x256 .f32) (main_arg26 : FVec F S256 .f32) (main_arg27 : FVec F S256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256 .f32 := Host.absf main_arg27
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_v133 main_v136

def fn_part6 {F : FTy → Type} [FloatOps F] (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg24
  fn_part7 (F := F) main_arg25 main_arg26 main_arg27 main_v118 main_v119

def fn_part5 {F : FTy → Type} [FloatOps F] (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S256 .f32) (main_arg15 : FVec F S256 .f32) (main_arg16 : FVec F S256x256 .f32) (main_arg17 : FVec F S256x256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S256 .f32) (main_arg12 : FVec F S256x256 .f32) (main_arg13 : FVec F S256x256 .f32) (main_arg14 : FVec F S256 .f32) (main_arg15 : FVec F S256 .f32) (main_arg16 : FVec F S256x256 .f32) (main_arg17 : FVec F S256x256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S256 .f32) (main_arg8 : FVec F S256x256 .f32) (main_arg9 : FVec F S256x256 .f32) (main_arg10 : FVec F S256 .f32) (main_arg11 : FVec F S256 .f32) (main_arg12 : FVec F S256x256 .f32) (main_arg13 : FVec F S256x256 .f32) (main_arg14 : FVec F S256 .f32) (main_arg15 : FVec F S256 .f32) (main_arg16 : FVec F S256x256 .f32) (main_arg17 : FVec F S256x256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S256x256 .f32) (main_arg5 : FVec F S256x256 .f32) (main_arg6 : FVec F S256 .f32) (main_arg7 : FVec F S256 .f32) (main_arg8 : FVec F S256x256 .f32) (main_arg9 : FVec F S256x256 .f32) (main_arg10 : FVec F S256 .f32) (main_arg11 : FVec F S256 .f32) (main_arg12 : FVec F S256x256 .f32) (main_arg13 : FVec F S256x256 .f32) (main_arg14 : FVec F S256 .f32) (main_arg15 : FVec F S256 .f32) (main_arg16 : FVec F S256x256 .f32) (main_arg17 : FVec F S256x256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S65536x256 .f32) (main_arg1 : FVec F S65536x256 .f32) (main_arg2 : FVec F S65536x256 .f32) (main_arg3 : FVec F S65536x256 .f32) (main_arg4 : FVec F S256x256 .f32) (main_arg5 : FVec F S256x256 .f32) (main_arg6 : FVec F S256 .f32) (main_arg7 : FVec F S256 .f32) (main_arg8 : FVec F S256x256 .f32) (main_arg9 : FVec F S256x256 .f32) (main_arg10 : FVec F S256 .f32) (main_arg11 : FVec F S256 .f32) (main_arg12 : FVec F S256x256 .f32) (main_arg13 : FVec F S256x256 .f32) (main_arg14 : FVec F S256 .f32) (main_arg15 : FVec F S256 .f32) (main_arg16 : FVec F S256x256 .f32) (main_arg17 : FVec F S256x256 .f32) (main_arg18 : FVec F S256 .f32) (main_arg19 : FVec F S256 .f32) (main_arg20 : FVec F S256x256 .f32) (main_arg21 : FVec F S256x256 .f32) (main_arg22 : FVec F S256 .f32) (main_arg23 : FVec F S256 .f32) (main_arg24 : FVec F S256x256 .f32) (main_arg25 : FVec F S256x256 .f32) (main_arg26 : FVec F S256 .f32) (main_arg27 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S65536x256 : Shape := ⟨2, ![65536, 256]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S2x65536x256 : Shape := ⟨3, ![2, 65536, 256]⟩
abbrev S2x512x256 : Shape := ⟨3, ![2, 512, 256]⟩
abbrev S512x512 : Shape := ⟨2, ![512, 512]⟩
abbrev S1x512x256 : Shape := ⟨3, ![1, 512, 256]⟩

abbrev nBuf : Space → Nat
  | .hbm => 121
  | .vmem => 42
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S256x256, .f32⟩
  | .hbm, ⟨17, _⟩ => ⟨S256x256, .f32⟩
  | .hbm, ⟨18, _⟩ => ⟨S256, .f32⟩
  | .hbm, ⟨19, _⟩ => ⟨S256, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S256, .f32⟩
  | .hbm, ⟨24, _⟩ => ⟨S256x256, .f32⟩
  | .hbm, ⟨25, _⟩ => ⟨S256x256, .f32⟩
  | .hbm, ⟨26, _⟩ => ⟨S256, .f32⟩
  | .hbm, ⟨27, _⟩ => ⟨S256, .f32⟩
  | .hbm, ⟨28, _⟩ => ⟨S256x256, .f32⟩
  | .hbm, ⟨29, _⟩ => ⟨S256x256, .f32⟩
  | .hbm, ⟨30, _⟩ => ⟨S512x256, .f32⟩
  | .hbm, ⟨31, _⟩ => ⟨S256x256, .f32⟩
  | .hbm, ⟨32, _⟩ => ⟨S256x256, .f32⟩
  | .hbm, ⟨33, _⟩ => ⟨S512x256, .f32⟩
  | .hbm, ⟨34, _⟩ => ⟨S512x256, .f32⟩
  | .hbm, ⟨35, _⟩ => ⟨S512x256, .bf16⟩
  | .hbm, ⟨36, _⟩ => ⟨S512x256, .f32⟩
  | .hbm, ⟨37, _⟩ => ⟨S512x256, .f32⟩
  | .hbm, ⟨38, _⟩ => ⟨S512x256, .bf16⟩
  | .hbm, ⟨39, _⟩ => ⟨S512x256, .bf16⟩
  | .hbm, ⟨40, _⟩ => ⟨S512x256, .f32⟩
  | .hbm, ⟨41, _⟩ => ⟨S512x256, .f32⟩
  | .hbm, ⟨42, _⟩ => ⟨S512x256, .bf16⟩
  | .hbm, ⟨43, _⟩ => ⟨S512x256, .bf16⟩
  | .hbm, ⟨44, _⟩ => ⟨S512x256, .f32⟩
  | .hbm, ⟨45, _⟩ => ⟨S512x256, .f32⟩
  | .hbm, ⟨46, _⟩ => ⟨S512x256, .bf16⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S256x256, .f32⟩
  | .hbm, ⟨56, _⟩ => ⟨S256x256, .f32⟩
  | .hbm, ⟨57, _⟩ => ⟨S512x256, .f32⟩
  | .hbm, ⟨58, _⟩ => ⟨S256x256, .f32⟩
  | .hbm, ⟨59, _⟩ => ⟨S256x256, .f32⟩
  | .hbm, ⟨60, _⟩ => ⟨S512x256, .f32⟩
  | .hbm, ⟨61, _⟩ => ⟨S512x256, .f32⟩
  | .hbm, ⟨62, _⟩ => ⟨S512x256, .bf16⟩
  | .hbm, ⟨63, _⟩ => ⟨S512x256, .f32⟩
  | .hbm, ⟨64, _⟩ => ⟨S512x256, .f32⟩
  | .hbm, ⟨65, _⟩ => ⟨S512x256, .bf16⟩
  | .hbm, ⟨66, _⟩ => ⟨S512x256, .bf16⟩
  | .hbm, ⟨67, _⟩ => ⟨S512x256, .f32⟩
  | .hbm, ⟨68, _⟩ => ⟨S512x256, .f32⟩
  | .hbm, ⟨69, _⟩ => ⟨S512x256, .bf16⟩
  | .hbm, ⟨70, _⟩ => ⟨S512x256, .bf16⟩
  | .hbm, ⟨71, _⟩ => ⟨S512x256, .f32⟩
  | .hbm, ⟨72, _⟩ => ⟨S512x256, .f32⟩
  | .hbm, ⟨73, _⟩ => ⟨S512x256, .bf16⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S1x256, .f32⟩
  | .hbm, ⟨82, _⟩ => ⟨S256x256, .f32⟩
  | .hbm, ⟨83, _⟩ => ⟨S256x256, .f32⟩
  | .hbm, ⟨84, _⟩ => ⟨S256x256, .f32⟩
  | .hbm, ⟨85, _⟩ => ⟨S256x256, .bf16⟩
  | .hbm, ⟨86, _⟩ => ⟨S256x256, .f32⟩
  | .hbm, ⟨87, _⟩ => ⟨S256x256, .f32⟩
  | .hbm, ⟨88, _⟩ => ⟨S256x256, .bf16⟩
  | .hbm, ⟨89, _⟩ => ⟨S256x256, .bf16⟩
  | .hbm, ⟨90, _⟩ => ⟨S256x256, .f32⟩
  | .hbm, ⟨91, _⟩ => ⟨S256x256, .f32⟩
  | .hbm, ⟨92, _⟩ => ⟨S256x256, .bf16⟩
  | .hbm, ⟨93, _⟩ => ⟨S256x256, .bf16⟩
  | .hbm, ⟨94, _⟩ => ⟨S256x256, .f32⟩
  | .hbm, ⟨95, _⟩ => ⟨S256x256, .f32⟩
  | .hbm, ⟨96, _⟩ => ⟨S256x256, .bf16⟩
  | .hbm, ⟨97, _⟩ => ⟨S256, .f32⟩
  | .hbm, ⟨98, _⟩ => ⟨S1x256, .f32⟩
  | .hbm, ⟨99, _⟩ => ⟨S256, .f32⟩
  | .hbm, ⟨100, _⟩ => ⟨S1x256, .f32⟩
  | .hbm, ⟨101, _⟩ => ⟨S256x256, .f32⟩
  | .hbm, ⟨102, _⟩ => ⟨S256x256, .f32⟩
  | .hbm, ⟨103, _⟩ => ⟨S256x256, .f32⟩
  | .hbm, ⟨104, _⟩ => ⟨S256x256, .bf16⟩
  | .hbm, ⟨105, _⟩ => ⟨S256x256, .f32⟩
  | .hbm, ⟨106, _⟩ => ⟨S256x256, .f32⟩
  | .hbm, ⟨107, _⟩ => ⟨S256x256, .bf16⟩
  | .hbm, ⟨108, _⟩ => ⟨S256x256, .bf16⟩
  | .hbm, ⟨109, _⟩ => ⟨S256x256, .f32⟩
  | .hbm, ⟨110, _⟩ => ⟨S256x256, .f32⟩
  | .hbm, ⟨111, _⟩ => ⟨S256x256, .bf16⟩
  | .hbm, ⟨112, _⟩ => ⟨S256x256, .bf16⟩
  | .hbm, ⟨113, _⟩ => ⟨S256x256, .f32⟩
  | .hbm, ⟨114, _⟩ => ⟨S256x256, .f32⟩
  | .hbm, ⟨115, _⟩ => ⟨S256x256, .bf16⟩
  | .hbm, ⟨116, _⟩ => ⟨S256, .f32⟩
  | .hbm, ⟨117, _⟩ => ⟨S1x256, .f32⟩
  | .hbm, ⟨118, _⟩ => ⟨S256, .f32⟩
  | .hbm, ⟨119, _⟩ => ⟨S1x256, .f32⟩
  | .hbm, ⟨120, _⟩ => ⟨S2x65536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x256, .f32⟩
  | .local _ .vmem, ⟨15, _⟩ => ⟨S1x256, .f32⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S1x256, .f32⟩
  | .local _ .vmem, ⟨23, _⟩ => ⟨S1x256, .f32⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S1x256, .f32⟩
  | .local _ .vmem, ⟨31, _⟩ => ⟨S1x256, .f32⟩
  | .local _ .vmem, ⟨32, _⟩ => ⟨S256x256, .bf16⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S256x256, .bf16⟩
  | .local _ .vmem, ⟨37, _⟩ => ⟨S256x256, .bf16⟩
  | .local _ .vmem, ⟨38, _⟩ => ⟨S1x256, .f32⟩
  | .local _ .vmem, ⟨39, _⟩ => ⟨S1x256, .f32⟩
  | .local _ .vmem, ⟨40, _⟩ => ⟨S2x512x256, .f32⟩
  | .local _ .vmem, ⟨41, _⟩ => ⟨S2x512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg31_0 : Ref sig .tc := ⟨.vmem, 35, rfl⟩
abbrev cc0_stg32_0 : Ref sig .tc := ⟨.vmem, 36, rfl⟩
abbrev cc0_stg33_0 : Ref sig .tc := ⟨.vmem, 37, rfl⟩
abbrev cc0_stg34_0 : Ref sig .tc := ⟨.vmem, 38, rfl⟩
abbrev cc0_stg35_0 : Ref sig .tc := ⟨.vmem, 39, rfl⟩
abbrev cc0_stg36_0 : Ref sig .tc := ⟨.vmem, 40, rfl⟩
abbrev cc0_stg36_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem31_0 : DmaSem sig := 35
abbrev cc0_sem32_0 : DmaSem sig := 36
abbrev cc0_sem33_0 : DmaSem sig := 37
abbrev cc0_sem34_0 : DmaSem sig := 38
abbrev cc0_sem35_0 : DmaSem sig := 39
abbrev cc0_sem36_0 : DmaSem sig := 40
abbrev cc0_sem36_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x256 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S256x256 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S256x256 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S256x256 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x256 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S256x256 .bf16 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S256x256 .bf16 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 2 → Memref sig .tc .vmem S2x512x256 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

class Facts₀ : Prop where
  transposes_S256x256_S256x256_1_0 : S256x256.Transposes [1, 0] S256x256
  concatenates_S256x256_S256x256_S512x256_d0 : Shape.Concatenates [S256x256, S256x256] S512x256 0
  bitsLt_bf16_f32 : FTy.bits .bf16 < FTy.bits .f32
  shapeCasts_S256_S1x256 : S256.ShapeCasts S1x256
  inb_S512x256_S512x256_0_0 : ∀ a, (![0, 0] : Fin 2 → Nat) a + S512x256.size a ≤ S512x256.size a
  h_S512x256 : 0 < S512x256.numel
  concatenates_S512x256_S512x256_S512x512_d1 : Shape.Concatenates [S512x256, S512x256] S512x512 1
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  shapeCasts_S512x256_S1x512x256 : S512x256.ShapeCasts S1x512x256
  inb_S2x512x256_S1x512x256_1_0_0 : ∀ a, (![1, 0, 0] : Fin 3 → Nat) a + S1x512x256.size a ≤ S2x512x256.size a
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S65536x256.size a
  hwx0_3 : ∀ i : grid0.Coords, EltTy.bits .f32 = 32 ∨ (Rect.block (s := S65536x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .bf16 = 32 ∨ (Rect.block (s := S512x256) S512x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .bf16 = 32 ∨ (Rect.block (s := S512x256) S512x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S512x256.size a
  hwx0_13 : ∀ i : grid0.Coords, EltTy.bits .bf16 = 32 ∨ (Rect.block (s := S512x256) S512x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S512x256.size a
  hwx0_14 : ∀ i : grid0.Coords, EltTy.bits .bf16 = 32 ∨ (Rect.block (s := S512x256) S512x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S512x256.size a
  hwx0_15 : ∀ i : grid0.Coords, EltTy.bits .bf16 = 32 ∨ (Rect.block (s := S512x256) S512x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S512x256.size a
  hwx0_16 : ∀ i : grid0.Coords, EltTy.bits .bf16 = 32 ∨ (Rect.block (s := S512x256) S512x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S512x256.size a
  hwx0_17 : ∀ i : grid0.Coords, EltTy.bits .bf16 = 32 ∨ (Rect.block (s := S512x256) S512x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S256x256.size a
  hwx0_22 : ∀ i : grid0.Coords, EltTy.bits .bf16 = 32 ∨ (Rect.block (s := S256x256) S256x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .bf16 = 32 ∨ (Rect.block (s := S256x256) S256x256.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256x256.size a ≤ S256x256.size a
  hwx0_24 : ∀ i : grid0.Coords, EltTy.bits .bf16 = 32 ∨ (Rect.block (s := S256x256) S256x256.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x256.size a ≤ S256x256.size a
  hwx0_25 : ∀ i : grid0.Coords, EltTy.bits .bf16 = 32 ∨ (Rect.block (s := S256x256) S256x256.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x256.size a ≤ S1x256.size a
  hwx0_27 : ∀ i : grid0.Coords, EltTy.bits .f32 = 32 ∨ (Rect.block (s := S1x256) S1x256.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S256x256.size a ≤ S256x256.size a
  hwx0_28 : ∀ i : grid0.Coords, EltTy.bits .bf16 = 32 ∨ (Rect.block (s := S256x256) S256x256.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S256x256.size a ≤ S256x256.size a
  hwx0_29 : ∀ i : grid0.Coords, EltTy.bits .bf16 = 32 ∨ (Rect.block (s := S256x256) S256x256.size (cc0_transform_29 i) (hinb0_29 i)).WholeWords (EltTy.packing .bf16)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S256x256.size a ≤ S256x256.size a
  hwx0_30 : ∀ i : grid0.Coords, EltTy.bits .bf16 = 32 ∨ (Rect.block (s := S256x256) S256x256.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S256x256.size a ≤ S256x256.size a
  hwx0_31 : ∀ i : grid0.Coords, EltTy.bits .bf16 = 32 ∨ (Rect.block (s := S256x256) S256x256.size (cc0_transform_31 i) (hinb0_31 i)).WholeWords (EltTy.packing .bf16)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S256x256.size a ≤ S256x256.size a
  hwx0_32 : ∀ i : grid0.Coords, EltTy.bits .bf16 = 32 ∨ (Rect.block (s := S256x256) S256x256.size (cc0_transform_32 i) (hinb0_32 i)).WholeWords (EltTy.packing .bf16)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S256x256.size a ≤ S256x256.size a
  hwx0_33 : ∀ i : grid0.Coords, EltTy.bits .bf16 = 32 ∨ (Rect.block (s := S256x256) S256x256.size (cc0_transform_33 i) (hinb0_33 i)).WholeWords (EltTy.packing .bf16)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x256.size a ≤ S1x256.size a
  hwx0_34 : ∀ i : grid0.Coords, EltTy.bits .f32 = 32 ∨ (Rect.block (s := S1x256) S1x256.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S1x256.size a ≤ S1x256.size a
  hwx0_35 : ∀ i : grid0.Coords, EltTy.bits .f32 = 32 ∨ (Rect.block (s := S1x256) S1x256.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S2x512x256.size a ≤ S2x65536x256.size a
  hwx0_36 : ∀ i : grid0.Coords, EltTy.bits .f32 = 32 ∨ (Rect.block (s := S2x65536x256) S2x512x256.size (cc0_transform_36 i) (hinb0_36 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v34) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S512x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S512x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v41) S512x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v42) S512x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v45) S512x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v49) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v53) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v57) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v60) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v61) S256x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v64) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v65) S256x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v68) S256x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v70) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v72) S1x256.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v76) S256x256.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v79) S256x256.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v80) S256x256.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v83) S256x256.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v84) S256x256.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v87) S256x256.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v89) S1x256.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_v91) S1x256.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_v92) S2x512x256.size cc0_transform_36 reads0_36 true false 2 stage0_36 sem0_36
    hrank0 hreads0_36 hinb0_36 nbuf0_36 (Memref.isWhole_whole _) hwx0_36 hstage0_36

abbrev win0 : Fin 37 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | ⟨_ + 37, h⟩ => absurd h (Nat.not_lt.2 (Nat.le_add_left _ _))
abbrev spec0 : Fin 37 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S1x65536x256 : Shape := ⟨3, ![1, 65536, 256]⟩
abbrev S2x65536x256 : Shape := ⟨3, ![2, 65536, 256]⟩

abbrev nBuf : Space → Nat
  | .hbm => 227
  | .vmem => 0
  | .smem => 0
  | _ => 0

abbrev hbmTy0_0 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S256x256, .f32⟩
  | 5 => ⟨S256x256, .f32⟩
  | 6 => ⟨S256, .f32⟩
  | 7 => ⟨S256, .f32⟩
  | 8 => ⟨S256x256, .f32⟩
  | 9 => ⟨S256x256, .f32⟩
  | 10 => ⟨S256, .f32⟩
  | 11 => ⟨S256, .f32⟩
  | 12 => ⟨S256x256, .f32⟩
  | 13 => ⟨S256x256, .f32⟩
  | 14 => ⟨S256, .f32⟩
  | 15 => ⟨S256, .f32⟩
  | 16 => ⟨S256x256, .f32⟩
  | 17 => ⟨S256x256, .f32⟩
  | 18 => ⟨S256, .f32⟩
  | 19 => ⟨S256, .f32⟩
  | 20 => ⟨S256x256, .f32⟩
  | 21 => ⟨S256x256, .f32⟩
  | 22 => ⟨S256, .f32⟩
  | 23 => ⟨S256, .f32⟩
  | 24 => ⟨S256x256, .f32⟩
  | 25 => ⟨S256x256, .f32⟩
  | 26 => ⟨S256, .f32⟩
  | 27 => ⟨S256, .f32⟩
  | 28 => ⟨S256x256, .f32⟩
  | 29 => ⟨S65536x256, .f32⟩
  | 30 => ⟨S1x256, .f32⟩
  | 31 => ⟨S65536x256, .f32⟩
  | 32 => ⟨S65536x256, .f32⟩
  | 33 => ⟨S256x256, .f32⟩
  | 34 => ⟨S65536x256, .f32⟩
  | 35 => ⟨S1x256, .f32⟩
  | 36 => ⟨S65536x256, .f32⟩
  | 37 => ⟨S65536x256, .f32⟩
  | 38 => ⟨S65536x256, .f32⟩
  | 39 => ⟨S256x256, .f32⟩
  | 40 => ⟨S65536x256, .f32⟩
  | 41 => ⟨S1x256, .f32⟩
  | 42 => ⟨S65536x256, .f32⟩
  | 43 => ⟨S65536x256, .f32⟩
  | 44 => ⟨S256x256, .f32⟩
  | 45 => ⟨S65536x256, .f32⟩
  | 46 => ⟨S1x256, .f32⟩
  | 47 => ⟨S65536x256, .f32⟩
  | 48 => ⟨S65536x256, .f32⟩
  | 49 => ⟨S65536x256, .f32⟩
  | 50 => ⟨S256x256, .f32⟩
  | 51 => ⟨S65536x256, .f32⟩
  | 52 => ⟨S1x256, .f32⟩
  | 53 => ⟨S65536x256, .f32⟩
  | 54 => ⟨S65536x256, .f32⟩
  | 55 => ⟨S256x256, .f32⟩
  | 56 => ⟨S65536x256, .f32⟩
  | 57 => ⟨S1x256, .f32⟩
  | 58 => ⟨S65536x256, .f32⟩
  | 59 => ⟨S65536x256, .f32⟩
  | 60 => ⟨S65536x256, .f32⟩
  | 61 => ⟨S256x256, .f32⟩
  | 62 => ⟨S65536x256, .f32⟩
  | 63 => ⟨S1x256, .f32⟩
  | 64 => ⟨S65536x256, .f32⟩
  | 65 => ⟨S65536x256, .f32⟩
  | 66 => ⟨S256x256, .f32⟩
  | 67 => ⟨S65536x256, .f32⟩
  | 68 => ⟨S1x256, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S65536x256, .f32⟩
  | 75 => ⟨S_, .f32⟩
  | 76 => ⟨S65536x256, .f32⟩
  | 77 => ⟨S65536x256, .f32⟩
  | 78 => ⟨S_, .f32⟩
  | 79 => ⟨S65536x256, .f32⟩
  | 80 => ⟨S65536x256, .f32⟩
  | 81 => ⟨S65536x256, .f32⟩
  | 82 => ⟨S65536x256, .f32⟩
  | 83 => ⟨S65536x256, .f32⟩
  | 84 => ⟨S_, .f32⟩
  | 85 => ⟨S65536x256, .f32⟩
  | 86 => ⟨S65536x256, .f32⟩
  | 87 => ⟨S_, .f32⟩
  | 88 => ⟨S65536x256, .f32⟩
  | 89 => ⟨S65536x256, .f32⟩
  | 90 => ⟨S256x256, .f32⟩
  | 91 => ⟨S65536x256, .f32⟩
  | 92 => ⟨S1x256, .f32⟩
  | 93 => ⟨S65536x256, .f32⟩
  | 94 => ⟨S65536x256, .f32⟩
  | 95 => ⟨S256x256, .f32⟩
  | 96 => ⟨S65536x256, .f32⟩
  | 97 => ⟨S1x256, .f32⟩
  | 98 => ⟨S65536x256, .f32⟩
  | 99 => ⟨S65536x256, .f32⟩
  | 100 => ⟨S65536x256, .f32⟩
  | 101 => ⟨S256x256, .f32⟩
  | 102 => ⟨S65536x256, .f32⟩
  | 103 => ⟨S1x256, .f32⟩
  | 104 => ⟨S65536x256, .f32⟩
  | 105 => ⟨S65536x256, .f32⟩
  | 106 => ⟨S256x256, .f32⟩
  | 107 => ⟨S65536x256, .f32⟩
  | 108 => ⟨S1x256, .f32⟩
  | 109 => ⟨S65536x256, .f32⟩
  | 110 => ⟨S65536x256, .f32⟩
  | 111 => ⟨S65536x256, .f32⟩
  | 112 => ⟨S256x256, .f32⟩
  | 113 => ⟨S65536x256, .f32⟩
  | 114 => ⟨S1x256, .f32⟩
  | 115 => ⟨S65536x256, .f32⟩
  | 116 => ⟨S65536x256, .f32⟩
  | 117 => ⟨S256x256, .f32⟩
  | 118 => ⟨S65536x256, .f32⟩
  | 119 => ⟨S1x256, .f32⟩
  | 120 => ⟨S65536x256, .f32⟩
  | 121 => ⟨S65536x256, .f32⟩
  | 122 => ⟨S65536x256, .f32⟩
  | 123 => ⟨S256x256, .f32⟩
  | 124 => ⟨S65536x256, .f32⟩
  | 125 => ⟨S1x256, .f32⟩
  | 126 => ⟨S65536x256, .f32⟩
  | 127 => ⟨S65536x256, .f32⟩
  | _ => ⟨S65536x256, .f32⟩

abbrev hbmTy0_1 (i : Nat) : BufTy := match i % 128 with
  | 0 => ⟨S256x256, .f32⟩
  | 1 => ⟨S65536x256, .f32⟩
  | 2 => ⟨S1x256, .f32⟩
  | 3 => ⟨S65536x256, .f32⟩
  | 4 => ⟨S65536x256, .f32⟩
  | 5 => ⟨S65536x256, .f32⟩
  | 6 => ⟨S65536x256, .f32⟩
  | 7 => ⟨S65536x256, .f32⟩
  | 8 => ⟨S65536x256, .f32⟩
  | 9 => ⟨S_, .f32⟩
  | 10 => ⟨S65536x256, .f32⟩
  | 11 => ⟨S65536x256, .f32⟩
  | 12 => ⟨S_, .f32⟩
  | 13 => ⟨S65536x256, .f32⟩
  | 14 => ⟨S65536x256, .f32⟩
  | 15 => ⟨S65536x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S_, .f32⟩
  | 22 => ⟨S65536x256, .f32⟩
  | 23 => ⟨S65536x256, .f32⟩
  | 24 => ⟨S256x256, .f32⟩
  | 25 => ⟨S65536x256, .f32⟩
  | 26 => ⟨S1x256, .f32⟩
  | 27 => ⟨S65536x256, .f32⟩
  | 28 => ⟨S65536x256, .f32⟩
  | 29 => ⟨S256x256, .f32⟩
  | 30 => ⟨S65536x256, .f32⟩
  | 31 => ⟨S1x256, .f32⟩
  | 32 => ⟨S65536x256, .f32⟩
  | 33 => ⟨S65536x256, .f32⟩
  | 34 => ⟨S65536x256, .f32⟩
  | 35 => ⟨S256x256, .f32⟩
  | 36 => ⟨S65536x256, .f32⟩
  | 37 => ⟨S1x256, .f32⟩
  | 38 => ⟨S65536x256, .f32⟩
  | 39 => ⟨S65536x256, .f32⟩
  | 40 => ⟨S256x256, .f32⟩
  | 41 => ⟨S65536x256, .f32⟩
  | 42 => ⟨S1x256, .f32⟩
  | 43 => ⟨S65536x256, .f32⟩
  | 44 => ⟨S65536x256, .f32⟩
  | 45 => ⟨S65536x256, .f32⟩
  | 46 => ⟨S256x256, .f32⟩
  | 47 => ⟨S65536x256, .f32⟩
  | 48 => ⟨S1x256, .f32⟩
  | 49 => ⟨S65536x256, .f32⟩
  | 50 => ⟨S65536x256, .f32⟩
  | 51 => ⟨S256x256, .f32⟩
  | 52 => ⟨S65536x256, .f32⟩
  | 53 => ⟨S1x256, .f32⟩
  | 54 => ⟨S65536x256, .f32⟩
  | 55 => ⟨S65536x256, .f32⟩
  | 56 => ⟨S65536x256, .f32⟩
  | 57 => ⟨S256x256, .f32⟩
  | 58 => ⟨S65536x256, .f32⟩
  | 59 => ⟨S1x256, .f32⟩
  | 60 => ⟨S65536x256, .f32⟩
  | 61 => ⟨S65536x256, .f32⟩
  | 62 => ⟨S256x256, .f32⟩
  | 63 => ⟨S65536x256, .f32⟩
  | 64 => ⟨S1x256, .f32⟩
  | 65 => ⟨S65536x256, .f32⟩
  | 66 => ⟨S65536x256, .f32⟩
  | 67 => ⟨S65536x256, .f32⟩
  | 68 => ⟨S65536x256, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S65536x256, .f32⟩
  | 75 => ⟨S65536x256, .f32⟩
  | 76 => ⟨S65536x256, .f32⟩
  | 77 => ⟨S65536x256, .f32⟩
  | 78 => ⟨S_, .f32⟩
  | 79 => ⟨S65536x256, .f32⟩
  | 80 => ⟨S65536x256, .f32⟩
  | 81 => ⟨S65536x256, .f32⟩
  | 82 => ⟨S65536x256, .f32⟩
  | 83 => ⟨S65536x256, .f32⟩
  | 84 => ⟨S65536x256, .f32⟩
  | 85 => ⟨S65536x256, .f32⟩
  | 86 => ⟨S65536x256, .f32⟩
  | 87 => ⟨S65536x256, .f32⟩
  | 88 => ⟨S65536x256, .f32⟩
  | 89 => ⟨S65536x256, .f32⟩
  | 90 => ⟨S65536x256, .f32⟩
  | 91 => ⟨S65536x256, .f32⟩
  | 92 => ⟨S65536x256, .f32⟩
  | 93 => ⟨S65536x256, .f32⟩
  | 94 => ⟨S65536x256, .f32⟩
  | 95 => ⟨S65536x256, .f32⟩
  | 96 => ⟨S1x65536x256, .f32⟩
  | 97 => ⟨S1x65536x256, .f32⟩
  | 98 => ⟨S2x65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst : Ref sig .tc := ⟨.hbm, 75, rfl⟩
abbrev main_v47 : Ref sig .tc := ⟨.hbm, 76, rfl⟩
abbrev main_v48 : Ref sig .tc := ⟨.hbm, 77, rfl⟩
abbrev main_cst_0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_1 : Ref sig .tc := ⟨.hbm, 84, rfl⟩
abbrev main_v54 : Ref sig .tc := ⟨.hbm, 85, rfl⟩
abbrev main_v55 : Ref sig .tc := ⟨.hbm, 86, rfl⟩
abbrev main_cst_2 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_3 : Ref sig .tc := ⟨.hbm, 137, rfl⟩
abbrev main_v105 : Ref sig .tc := ⟨.hbm, 138, rfl⟩
abbrev main_v106 : Ref sig .tc := ⟨.hbm, 139, rfl⟩
abbrev main_cst_4 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_5 : Ref sig .tc := ⟨.hbm, 146, rfl⟩
abbrev main_v112 : Ref sig .tc := ⟨.hbm, 147, rfl⟩
abbrev main_v113 : Ref sig .tc := ⟨.hbm, 148, rfl⟩
abbrev main_cst_6 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_7 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S65536x256_S1x65536x256_1_2 : S65536x256.BroadcastsInDim S1x65536x256 (![1, 2] : Fin 2 → Fin S1x65536x256.rank)
  concatenates_S1x65536x256_S1x65536x256_S2x65536x256_d0 : Shape.Concatenates [S1x65536x256, S1x65536x256] S2x65536x256 0
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.FiniteArgs.lean ====
/-
  UNTRUSTED — the precondition "every float input is finite", decoded. The predicate `Cert.Pre_finite_inputs.fn` is a scalar:
  the left-nested "and" of 28 all-reductions, one per argument array x, of the mask |x| < +∞ (|x| = max x (-x), +∞ the f32
  word 0x7F800000 broadcast). If the scalar is 1, every all-reduction is 1 (`IntOp.andi_eq_one`), so every mask entry is 1
  (`Host.reduce_andi_all`), and an extended real with max x (-x) < ⊤ is neither ⊥ nor ⊤: it is a real number.
  `fn` is a chain of nine definitions (`fn`, `fn_part1` … `fn_part8`), each handing the next the scalar accumulated so far
  and whatever array is half-way through its absolute value, comparison and reduction; one lemma per definition, from the
  last to the first.
-/
import proofs.«107637_j19533511262337_2_alg».proof.Defs
import Idealize.ShloMosaic.Lib.ReduceAll
import Idealize.ShloMosaic.Lib.ValueIdx
import Idealize.ShloMosaic.Lib.IdealHost

noncomputable section

namespace Cert.Proof.Finite

open Idealize.ShloMosaic Idealize.SL.Sem
open Idealize.ShloMosaic.ValueIdx (ix0)
open Cert.Pre_finite_inputs

/-- The rank-0 shape has exactly one index. -/
instance subsingleton_scalar_idx : Subsingleton S_.Idx := ⟨fun a b => funext fun d => d.elim0⟩

/-- The f32 word with exponent field all ones and zero fraction denotes +∞. -/
theorem inf_word : Ideal.ofBits .f32 0x7F800000#32 = (⊤ : EReal) := by
  simp [Ideal.ofBits, Ideal.ieee]

/-- The element fact: an extended real whose absolute value max x (-x) is strictly below +∞ is a real number
    (at ⊥ and at ⊤ the absolute value is ⊤, which is not below ⊤). -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Every entry of an array of extended reals is a real number. -/
def AllReal {s : Shape} (x : FVec Ideal s .f32) : Prop := ∃ r : s.Idx → ℝ, x = fun i => ((r i : ℝ) : EReal)

/-- The comparison mask |x| < +∞ of an array, +∞ being a broadcast scalar. -/
theorem allReal_of_mask {s : Shape} (hb : S_.BroadcastsInDim s (![] : Fin 0 → Fin s.rank)) (x : FVec Ideal s .f32)
    (h : ∀ i, cmpf .olt (Host.absf x) (broadcastInDim s ![] hb (constant S_ .f32 0x7F800000#32)) i = 1#1) : AllReal x := by
  have e : ∀ i, ∃ r : ℝ, x i = (r : EReal) := fun i => real_of_abs_lt_inf (x i) (h i)
  choose r hr using e
  exact ⟨r, funext hr⟩

/-- An all-reduction by "and" of a mask to a scalar that came out 1 had a 1 at every index. -/
theorem all_of_reduce {s : Shape} {axes : List (Fin s.rank)} (p : IVec s 1) (init : IVec S_ 1) (hr : s.ReducesTo axes S_)
    (hu : 0 < S_.numel) (h : Host.reduce IntOp.andi p init hr hu ix0 = 1#1) : ∀ i, p i = 1#1 :=
  Host.reduce_andi_all p init hr hu ix0 h

/-- The scalar "and" of two scalars is 1 only when both are. -/
theorem and_split (a b : IVec S_ 1) (h : andi a b ix0 = 1#1) : a ix0 = 1#1 ∧ b ix0 = 1#1 :=
  IntOp.andi_eq_one.1 h

/-- An array whose mask |x| < +∞ all-reduces to 1 holds real numbers only. -/
theorem allReal_of_reduce {s : Shape} {axes : List (Fin s.rank)} (hb : S_.BroadcastsInDim s (![] : Fin 0 → Fin s.rank))
    (x : FVec Ideal s .f32) (init : IVec S_ 1) (hr : s.ReducesTo axes S_) (hu : 0 < S_.numel)
    (h : Host.reduce IntOp.andi (cmpf .olt (Host.absf x) (broadcastInDim s ![] hb (constant S_ .f32 0x7F800000#32))) init hr hu ix0 = 1#1) :
    AllReal x :=
  allReal_of_mask hb x (all_of_reduce _ _ _ _ h)

/-- Part 8 of the predicate: the last "and", of the accumulated scalar with the all-reduction of the last mask. -/
theorem part8 [Facts] (v133 : IVec S_ 1) (v136 : IVec S256 1) (h : fn_part8 (F := Ideal) v133 v136 ix0 = 1#1) :
    v133 ix0 = 1#1 ∧ ∀ i, v136 i = 1#1 := by
  unfold fn_part8 at h
  dsimp only at h
  obtain ⟨h1, h2⟩ := and_split _ _ h
  exact ⟨h1, all_of_reduce _ _ _ _ h2⟩

/-- Part 7: the mask of the absolute values handed in, arguments 25 and 26 whole, argument 27 up to its mask. -/
theorem part7 [Facts] (a25 : FVec Ideal S256x256 .f32) (a26 : FVec Ideal S256 .f32) (a27 : FVec Ideal S256 .f32) (v118 : IVec S_ 1) (v119 : FVec Ideal S256x256 .f32) (h : fn_part7 (F := Ideal) a25 a26 a27 v118 v119 ix0 = 1#1) :
    v118 ix0 = 1#1 ∧ (∀ i, cmpf .olt v119 (broadcastInDim S256x256 ![] Facts.bcast_S_S256x256 (constant S_ .f32 0x7F800000#32)) i = 1#1) ∧ AllReal a25 ∧ AllReal a26 ∧ AllReal a27 := by
  unfold fn_part7 at h
  dsimp only at h
  obtain ⟨hA, hM⟩ := part8 _ _ h
  obtain ⟨hA, h26⟩ := and_split _ _ hA
  obtain ⟨hA, h25⟩ := and_split _ _ hA
  obtain ⟨hA, h24⟩ := and_split _ _ hA
  exact ⟨hA, all_of_reduce _ _ _ _ h24, allReal_of_reduce _ _ _ _ _ h25, allReal_of_reduce _ _ _ _ _ h26, allReal_of_mask _ _ hM⟩

/-- Part 6: the all-reduction of the mask handed in, arguments 21 to 23 whole, argument 24 up to its absolute value. -/
theorem part6 [Facts] (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (v98 : IVec S_ 1) (v101 : IVec S256x256 1) (c_39 : IVec S_ 1) (h : fn_part6 (F := Ideal) a21 a22 a23 a24 a25 a26 a27 v98 v101 c_39 ix0 = 1#1) :
    v98 ix0 = 1#1 ∧ (∀ i, v101 i = 1#1) ∧ AllReal a21 ∧ AllReal a22 ∧ AllReal a23 ∧ AllReal a24 ∧ AllReal a25 ∧ AllReal a26 ∧ AllReal a27 := by
  unfold fn_part6 at h
  dsimp only at h
  obtain ⟨hA, hM, tail⟩ := part7 _ _ _ _ _ h
  obtain ⟨hA, h23⟩ := and_split _ _ hA
  obtain ⟨hA, h22⟩ := and_split _ _ hA
  obtain ⟨hA, h21⟩ := and_split _ _ hA
  obtain ⟨hA, h20⟩ := and_split _ _ hA
  exact ⟨hA, all_of_reduce _ _ _ _ h20, allReal_of_reduce _ _ _ _ _ h21, allReal_of_reduce _ _ _ _ _ h22, allReal_of_reduce _ _ _ _ _ h23, allReal_of_mask _ _ hM, tail⟩

/-- Part 5: the comparison of the absolute values handed in with the broadcast of the scalar handed in, arguments 18 and 19
    whole, argument 20 up to its mask. -/
theorem part5 [Facts] (a18 : FVec Ideal S256 .f32) (a19 : FVec Ideal S256 .f32) (a20 : FVec Ideal S256x256 .f32) (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (v83 : IVec S_ 1) (v84 : FVec Ideal S256x256 .f32) (cst_32 : FVec Ideal S_ .f32) (h : fn_part5 (F := Ideal) a18 a19 a20 a21 a22 a23 a24 a25 a26 a27 v83 v84 cst_32 ix0 = 1#1) :
    v83 ix0 = 1#1 ∧ (∀ i, cmpf .olt v84 (broadcastInDim S256x256 ![] Facts.bcast_S_S256x256 cst_32) i = 1#1) ∧ AllReal a18 ∧ AllReal a19 ∧ AllReal a20 ∧ AllReal a21 ∧ AllReal a22 ∧ AllReal a23 ∧ AllReal a24 ∧ AllReal a25 ∧ AllReal a26 ∧ AllReal a27 := by
  unfold fn_part5 at h
  dsimp only at h
  obtain ⟨hA, hM, tail⟩ := part6 _ _ _ _ _ _ _ _ _ _ h
  obtain ⟨hA, h19⟩ := and_split _ _ hA
  obtain ⟨hA, h18⟩ := and_split _ _ hA
  obtain ⟨hA, h17⟩ := and_split _ _ hA
  exact ⟨hA, all_of_reduce _ _ _ _ h17, allReal_of_reduce _ _ _ _ _ h18, allReal_of_reduce _ _ _ _ _ h19, allReal_of_mask _ _ hM, tail⟩

/-- Part 4: the "and" of the two scalars handed in, arguments 14 to 16 whole, argument 17 up to its absolute value. -/
theorem part4 [Facts] (a14 : FVec Ideal S256 .f32) (a15 : FVec Ideal S256 .f32) (a16 : FVec Ideal S256x256 .f32) (a17 : FVec Ideal S256x256 .f32) (a18 : FVec Ideal S256 .f32) (a19 : FVec Ideal S256 .f32) (a20 : FVec Ideal S256x256 .f32) (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (v63 : IVec S_ 1) (v67 : IVec S_ 1) (h : fn_part4 (F := Ideal) a14 a15 a16 a17 a18 a19 a20 a21 a22 a23 a24 a25 a26 a27 v63 v67 ix0 = 1#1) :
    v63 ix0 = 1#1 ∧ v67 ix0 = 1#1 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 := by
  unfold fn_part4 at h
  dsimp only at h
  obtain ⟨hA, hM, tail⟩ := part5 _ _ _ _ _ _ _ _ _ _ _ _ _ h
  obtain ⟨hA, h16⟩ := and_split _ _ hA
  obtain ⟨hA, h15⟩ := and_split _ _ hA
  obtain ⟨hA, h14⟩ := and_split _ _ hA
  obtain ⟨h63, h67⟩ := and_split _ _ hA
  exact ⟨h63, h67, allReal_of_reduce _ _ _ _ _ h14, allReal_of_reduce _ _ _ _ _ h15, allReal_of_reduce _ _ _ _ _ h16, allReal_of_mask _ _ hM, tail⟩

/-- Part 3: the comparison of the two arrays handed in, arguments 11 and 12 whole, argument 13 up to its all-reduction. -/
theorem part3 [Facts] (a11 : FVec Ideal S256 .f32) (a12 : FVec Ideal S256x256 .f32) (a13 : FVec Ideal S256x256 .f32) (a14 : FVec Ideal S256 .f32) (a15 : FVec Ideal S256 .f32) (a16 : FVec Ideal S256x256 .f32) (a17 : FVec Ideal S256x256 .f32) (a18 : FVec Ideal S256 .f32) (a19 : FVec Ideal S256 .f32) (a20 : FVec Ideal S256x256 .f32) (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (v48 : IVec S_ 1) (v49 : FVec Ideal S256 .f32) (v50 : FVec Ideal S256 .f32) (h : fn_part3 (F := Ideal) a11 a12 a13 a14 a15 a16 a17 a18 a19 a20 a21 a22 a23 a24 a25 a26 a27 v48 v49 v50 ix0 = 1#1) :
    v48 ix0 = 1#1 ∧ (∀ i, cmpf .olt v49 v50 i = 1#1) ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 := by
  unfold fn_part3 at h
  dsimp only at h
  obtain ⟨hA, h13, tail⟩ := part4 _ _ _ _ _ _ _ _ _ _ _ _ _ _ _ _ h
  obtain ⟨hA, h12⟩ := and_split _ _ hA
  obtain ⟨hA, h11⟩ := and_split _ _ hA
  obtain ⟨hA, h10⟩ := and_split _ _ hA
  exact ⟨hA, all_of_reduce _ _ _ _ h10, allReal_of_reduce _ _ _ _ _ h11, allReal_of_reduce _ _ _ _ _ h12, allReal_of_reduce _ _ _ _ _ h13, tail⟩

/-- Part 2: arguments 7 to 9 whole, argument 10 up to the broadcast of +∞. -/
theorem part2 [Facts] (a7 : FVec Ideal S256 .f32) (a8 : FVec Ideal S256x256 .f32) (a9 : FVec Ideal S256x256 .f32) (a10 : FVec Ideal S256 .f32) (a11 : FVec Ideal S256 .f32) (a12 : FVec Ideal S256x256 .f32) (a13 : FVec Ideal S256x256 .f32) (a14 : FVec Ideal S256 .f32) (a15 : FVec Ideal S256 .f32) (a16 : FVec Ideal S256x256 .f32) (a17 : FVec Ideal S256x256 .f32) (a18 : FVec Ideal S256 .f32) (a19 : FVec Ideal S256 .f32) (a20 : FVec Ideal S256x256 .f32) (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (v33 : IVec S_ 1) (h : fn_part2 (F := Ideal) a7 a8 a9 a10 a11 a12 a13 a14 a15 a16 a17 a18 a19 a20 a21 a22 a23 a24 a25 a26 a27 v33 ix0 = 1#1) :
    v33 ix0 = 1#1 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 := by
  unfold fn_part2 at h
  dsimp only at h
  obtain ⟨hA, hM, tail⟩ := part3 _ _ _ _ _ _ _ _ _ _ _ _ _ _ _ _ _ _ _ _ h
  obtain ⟨hA, h9⟩ := and_split _ _ hA
  obtain ⟨hA, h8⟩ := and_split _ _ hA
  obtain ⟨hA, h7⟩ := and_split _ _ hA
  exact ⟨hA, allReal_of_reduce _ _ _ _ _ h7, allReal_of_reduce _ _ _ _ _ h8, allReal_of_reduce _ _ _ _ _ h9, allReal_of_mask _ _ hM, tail⟩

/-- Part 1: the all-reduction of the mask handed in, arguments 4 to 6 whole. -/
theorem part1 [Facts] (a4 : FVec Ideal S256x256 .f32) (a5 : FVec Ideal S256x256 .f32) (a6 : FVec Ideal S256 .f32) (a7 : FVec Ideal S256 .f32) (a8 : FVec Ideal S256x256 .f32) (a9 : FVec Ideal S256x256 .f32) (a10 : FVec Ideal S256 .f32) (a11 : FVec Ideal S256 .f32) (a12 : FVec Ideal S256x256 .f32) (a13 : FVec Ideal S256x256 .f32) (a14 : FVec Ideal S256 .f32) (a15 : FVec Ideal S256 .f32) (a16 : FVec Ideal S256x256 .f32) (a17 : FVec Ideal S256x256 .f32) (a18 : FVec Ideal S256 .f32) (a19 : FVec Ideal S256 .f32) (a20 : FVec Ideal S256x256 .f32) (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (v13 : IVec S_ 1) (v16 : IVec S65536x256 1) (h : fn_part1 (F := Ideal) a4 a5 a6 a7 a8 a9 a10 a11 a12 a13 a14 a15 a16 a17 a18 a19 a20 a21 a22 a23 a24 a25 a26 a27 v13 v16 ix0 = 1#1) :
    v13 ix0 = 1#1 ∧ (∀ i, v16 i = 1#1) ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 := by
  unfold fn_part1 at h
  dsimp only at h
  obtain ⟨hA, tail⟩ := part2 _ _ _ _ _ _ _ _ _ _ _ _ _ _ _ _ _ _ _ _ _ _ h
  obtain ⟨hA, h6⟩ := and_split _ _ hA
  obtain ⟨hA, h5⟩ := and_split _ _ hA
  obtain ⟨hA, h4⟩ := and_split _ _ hA
  obtain ⟨hA, h3⟩ := and_split _ _ hA
  exact ⟨hA, all_of_reduce _ _ _ _ h3, allReal_of_reduce _ _ _ _ _ h4, allReal_of_reduce _ _ _ _ _ h5, allReal_of_reduce _ _ _ _ _ h6, tail⟩

/-- The whole predicate: if it is 1 at the one scalar index, every entry of each of the 28 arrays is a real number. -/
theorem fn_allReal [Facts] (a0 : FVec Ideal S65536x256 .f32) (a1 : FVec Ideal S65536x256 .f32) (a2 : FVec Ideal S65536x256 .f32) (a3 : FVec Ideal S65536x256 .f32) (a4 : FVec Ideal S256x256 .f32) (a5 : FVec Ideal S256x256 .f32) (a6 : FVec Ideal S256 .f32) (a7 : FVec Ideal S256 .f32) (a8 : FVec Ideal S256x256 .f32) (a9 : FVec Ideal S256x256 .f32) (a10 : FVec Ideal S256 .f32) (a11 : FVec Ideal S256 .f32) (a12 : FVec Ideal S256x256 .f32) (a13 : FVec Ideal S256x256 .f32) (a14 : FVec Ideal S256 .f32) (a15 : FVec Ideal S256 .f32) (a16 : FVec Ideal S256x256 .f32) (a17 : FVec Ideal S256x256 .f32) (a18 : FVec Ideal S256 .f32) (a19 : FVec Ideal S256 .f32) (a20 : FVec Ideal S256x256 .f32) (a21 : FVec Ideal S256x256 .f32) (a22 : FVec Ideal S256 .f32) (a23 : FVec Ideal S256 .f32) (a24 : FVec Ideal S256x256 .f32) (a25 : FVec Ideal S256x256 .f32) (a26 : FVec Ideal S256 .f32) (a27 : FVec Ideal S256 .f32) (h : fn (F := Ideal) a0 a1 a2 a3 a4 a5 a6 a7 a8 a9 a10 a11 a12 a13 a14 a15 a16 a17 a18 a19 a20 a21 a22 a23 a24 a25 a26 a27 ix0 = 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 := by
  unfold fn at h
  dsimp only at h
  obtain ⟨hA, hM, tail⟩ := part1 _ _ _ _ _ _ _ _ _ _ _ _ _ _ _ _ _ _ _ _ _ _ _ _ _ _ h
  obtain ⟨hA, h2⟩ := and_split _ _ hA
  obtain ⟨h0, h1⟩ := and_split _ _ hA
  exact ⟨allReal_of_reduce _ _ _ _ _ h0, allReal_of_reduce _ _ _ _ _ h1, allReal_of_reduce _ _ _ _ _ h2, allReal_of_mask _ _ hM, tail⟩

/-- THE PRECONDITION DECODED: on every device, each of the kernel's 28 argument arrays holds real numbers only
    (the predicate is a scalar, read at its one index). -/
theorem args_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∃ r : Cert.KernelIdeal.S65536x256.Idx → ℝ, m ((c.tc : Thread Cert.KernelIdeal.nD Cert.KernelIdeal.τ).loc Cert.KernelIdeal.main_arg0) = fun i => ((r i : ℝ) : EReal))
  ∧ (∃ r : Cert.KernelIdeal.S65536x256.Idx → ℝ, m ((c.tc : Thread Cert.KernelIdeal.nD Cert.KernelIdeal.τ).loc Cert.KernelIdeal.main_arg1) = fun i => ((r i : ℝ) : EReal))
  ∧ (∃ r : Cert.KernelIdeal.S65536x256.Idx → ℝ, m ((c.tc : Thread Cert.KernelIdeal.nD Cert.KernelIdeal.τ).loc Cert.KernelIdeal.main_arg2) = fun i => ((r i : ℝ) : EReal))
  ∧ (∃ r : Cert.KernelIdeal.S65536x256.Idx → ℝ, m ((c.tc : Thread Cert.KernelIdeal.nD Cert.KernelIdeal.τ).loc Cert.KernelIdeal.main_arg3) = fun i => ((r i : ℝ) : EReal))
  ∧ (∃ r : Cert.KernelIdeal.S256x256.Idx → ℝ, m ((c.tc : Thread Cert.KernelIdeal.nD Cert.KernelIdeal.τ).loc Cert.KernelIdeal.main_arg4) = fun i => ((r i : ℝ) : EReal))
  ∧ (∃ r : Cert.KernelIdeal.S256x256.Idx → ℝ, m ((c.tc : Thread Cert.KernelIdeal.nD Cert.KernelIdeal.τ).loc Cert.KernelIdeal.main_arg5) = fun i => ((r i : ℝ) : EReal))
  ∧ (∃ r : Cert.KernelIdeal.S256.Idx → ℝ, m ((c.tc : Thread Cert.KernelIdeal.nD Cert.KernelIdeal.τ).loc Cert.KernelIdeal.main_arg6) = fun i => ((r i : ℝ) : EReal))
  ∧ (∃ r : Cert.KernelIdeal.S256.Idx → ℝ, m ((c.tc : Thread Cert.KernelIdeal.nD Cert.KernelIdeal.τ).loc Cert.KernelIdeal.main_arg7) = fun i => ((r i : ℝ) : EReal))
  ∧ (∃ r : Cert.KernelIdeal.S256x256.Idx → ℝ, m ((c.tc : Thread Cert.KernelIdeal.nD Cert.KernelIdeal.τ).loc Cert.KernelIdeal.main_arg8) = fun i => ((r i : ℝ) : EReal))
  ∧ (∃ r : Cert.KernelIdeal.S256x256.Idx → ℝ, m ((c.tc : Thread Cert.KernelIdeal.nD Cert.KernelIdeal.τ).loc Cert.KernelIdeal.main_arg9) = fun i => ((r i : ℝ) : EReal))
  ∧ (∃ r : Cert.KernelIdeal.S256.Idx → ℝ, m ((c.tc : Thread Cert.KernelIdeal.nD Cert.KernelIdeal.τ).loc Cert.KernelIdeal.main_arg10) = fun i => ((r i : ℝ) : EReal))
  ∧ (∃ r : Cert.KernelIdeal.S256.Idx → ℝ, m ((c.tc : Thread Cert.KernelIdeal.nD Cert.KernelIdeal.τ).loc Cert.KernelIdeal.main_arg11) = fun i => ((r i : ℝ) : EReal))
  ∧ (∃ r : Cert.KernelIdeal.S256x256.Idx → ℝ, m ((c.tc : Thread Cert.KernelIdeal.nD Cert.KernelIdeal.τ).loc Cert.KernelIdeal.main_arg12) = fun i => ((r i : ℝ) : EReal))
  ∧ (∃ r : Cert.KernelIdeal.S256x256.Idx → ℝ, m ((c.tc : Thread Cert.KernelIdeal.nD Cert.KernelIdeal.τ).loc Cert.KernelIdeal.main_arg13) = fun i => ((r i : ℝ) : EReal))
  ∧ (∃ r : Cert.KernelIdeal.S256.Idx → ℝ, m ((c.tc : Thread Cert.KernelIdeal.nD Cert.KernelIdeal.τ).loc Cert.KernelIdeal.main_arg14) = fun i => ((r i : ℝ) : EReal))
  ∧ (∃ r : Cert.KernelIdeal.S256.Idx → ℝ, m ((c.tc : Thread Cert.KernelIdeal.nD Cert.KernelIdeal.τ).loc Cert.KernelIdeal.main_arg15) = fun i => ((r i : ℝ) : EReal))
  ∧ (∃ r : Cert.KernelIdeal.S256x256.Idx → ℝ, m ((c.tc : Thread Cert.KernelIdeal.nD Cert.KernelIdeal.τ).loc Cert.KernelIdeal.main_arg16) = fun i => ((r i : ℝ) : EReal))
  ∧ (∃ r : Cert.KernelIdeal.S256x256.Idx → ℝ, m ((c.tc : Thread Cert.KernelIdeal.nD Cert.KernelIdeal.τ).loc Cert.KernelIdeal.main_arg17) = fun i => ((r i : ℝ) : EReal))
  ∧ (∃ r : Cert.KernelIdeal.S256.Idx → ℝ, m ((c.tc : Thread Cert.KernelIdeal.nD Cert.KernelIdeal.τ).loc Cert.KernelIdeal.main_arg18) = fun i => ((r i : ℝ) : EReal))
  ∧ (∃ r : Cert.KernelIdeal.S256.Idx → ℝ, m ((c.tc : Thread Cert.KernelIdeal.nD Cert.KernelIdeal.τ).loc Cert.KernelIdeal.main_arg19) = fun i => ((r i : ℝ) : EReal))
  ∧ (∃ r : Cert.KernelIdeal.S256x256.Idx → ℝ, m ((c.tc : Thread Cert.KernelIdeal.nD Cert.KernelIdeal.τ).loc Cert.KernelIdeal.main_arg20) = fun i => ((r i : ℝ) : EReal))
  ∧ (∃ r : Cert.KernelIdeal.S256x256.Idx → ℝ, m ((c.tc : Thread Cert.KernelIdeal.nD Cert.KernelIdeal.τ).loc Cert.KernelIdeal.main_arg21) = fun i => ((r i : ℝ) : EReal))
  ∧ (∃ r : Cert.KernelIdeal.S256.Idx → ℝ, m ((c.tc : Thread Cert.KernelIdeal.nD Cert.KernelIdeal.τ).loc Cert.KernelIdeal.main_arg22) = fun i => ((r i : ℝ) : EReal))
  ∧ (∃ r : Cert.KernelIdeal.S256.Idx → ℝ, m ((c.tc : Thread Cert.KernelIdeal.nD Cert.KernelIdeal.τ).loc Cert.KernelIdeal.main_arg23) = fun i => ((r i : ℝ) : EReal))
  ∧ (∃ r : Cert.KernelIdeal.S256x256.Idx → ℝ, m ((c.tc : Thread Cert.KernelIdeal.nD Cert.KernelIdeal.τ).loc Cert.KernelIdeal.main_arg24) = fun i => ((r i : ℝ) : EReal))
  ∧ (∃ r : Cert.KernelIdeal.S256x256.Idx → ℝ, m ((c.tc : Thread Cert.KernelIdeal.nD Cert.KernelIdeal.τ).loc Cert.KernelIdeal.main_arg25) = fun i => ((r i : ℝ) : EReal))
  ∧ (∃ r : Cert.KernelIdeal.S256.Idx → ℝ, m ((c.tc : Thread Cert.KernelIdeal.nD Cert.KernelIdeal.τ).loc Cert.KernelIdeal.main_arg26) = fun i => ((r i : ℝ) : EReal))
  ∧ (∃ r : Cert.KernelIdeal.S256.Idx → ℝ, m ((c.tc : Thread Cert.KernelIdeal.nD Cert.KernelIdeal.τ).loc Cert.KernelIdeal.main_arg27) = fun i => ((r i : ℝ) : EReal)) :=
  fn_allReal _ _ _ _ _ _ _ _ _ _ _ _ _ _ _ _ _ _ _ _ _ _ _ _ _ _ _ _ (congrFun (h c) ix0)

end Cert.Proof.Finite

end
-- ==== Proof.CellSpec.lean ====
/-
  The complex GRU cell, entry by entry, as ONE function of its 28 real argument arrays.

  Inputs: the batch of complex inputs `x = xr + i·xi` and old states `h = hr + i·hi` (`[65536, 256]` each) and six complex
  affine maps `w1, r1, w2, r2, w3, r3`, each given by two `[256, 256]` weight matrices `(Wr, Wi)` and two bias vectors `(br, bi)`.
  A complex affine map applied to `(xr, xi)` has real part `(xr·Wrᵀ + br) - (xi·Wiᵀ + bi)` and imaginary part
  `(xi·Wrᵀ + br) + (xr·Wiᵀ + bi)` (`cRe`, `cIm` below; `lin` is one real affine map `x·Wᵀ + b` at a row and a column).
  The cell: reset gate `r = σ(w1 x + r1 h)`, update gate `z = σ(w2 x + r2 h)`, candidate `n = tanh(w3 x + r ⊙ (r3 h))`,
  new state `(1 - z) ⊙ n + z ⊙ h`; `σ` and `tanh` act on real and imaginary parts separately, `⊙` is the complex product
  entry by entry. The result stacks the real plane (leading index 0) on the imaginary plane (leading index 1).

  The eight pre-activations are real numbers (finite sums of products of reals); the logistic function and tanh are taken in the
  extended reals at (the images of) those reals, and the closing arithmetic is the extended reals'.
-/
import Idealize.ShloMosaic.Lib.ValueIdx
import Idealize.ShloMosaic.PureOps.Ideal

open Idealize.ShloMosaic Idealize.ShloMosaic.ValueIdx

noncomputable section

namespace Cert.CellSpec

abbrev Arr2 (a b : Nat) : Type := (⟨2, ![a, b]⟩ : Shape).Idx → ℝ
abbrev Arr1 (a : Nat) : Type := (⟨1, ![a]⟩ : Shape).Idx → ℝ

/-- One real affine map at row `r`, column `j`: `(x·Wᵀ + b) (r, j) = ∑ k, x (r, k) · W (j, k) + b j`. -/
def lin (X : Arr2 65536 256) (W : Arr2 256 256) (B : Arr1 256) (r : Fin 65536) (j : Fin 256) : ℝ :=
  (∑ k : Fin 256, X (ix2 r k) * W (ix2 j k)) + B (ix1 j)

/-- Real part of a complex affine map of `(Xr, Xi)`. -/
def cRe (Xr Xi : Arr2 65536 256) (Wr Wi : Arr2 256 256) (Br Bi : Arr1 256) (r : Fin 65536) (j : Fin 256) : ℝ :=
  lin Xr Wr Br r j - lin Xi Wi Bi r j

/-- Imaginary part of a complex affine map of `(Xr, Xi)`. -/
def cIm (Xr Xi : Arr2 65536 256) (Wr Wi : Arr2 256 256) (Br Bi : Arr1 256) (r : Fin 65536) (j : Fin 256) : ℝ :=
  lin Xi Wr Br r j + lin Xr Wi Bi r j

/-- The new state's real part at one entry, from the eight pre-activations (reset gate, update gate, the candidate's
    input side and state side; real and imaginary parts) and the old state's entry. -/
def outRe (p1r p1i p2r p2i x3r x3i g3r g3i hr hi : EReal) : EReal :=
  ((1 - Ideal.logistic p2r) * Ideal.tanh (x3r + (Ideal.logistic p1r * g3r - Ideal.logistic p1i * g3i))
      - (-Ideal.logistic p2i) * Ideal.tanh (x3i + (Ideal.logistic p1r * g3i + Ideal.logistic p1i * g3r)))
    + (Ideal.logistic p2r * hr - Ideal.logistic p2i * hi)

/-- The new state's imaginary part at one entry. -/
def outIm (p1r p1i p2r p2i x3r x3i g3r g3i hr hi : EReal) : EReal :=
  ((1 - Ideal.logistic p2r) * Ideal.tanh (x3i + (Ideal.logistic p1r * g3i + Ideal.logistic p1i * g3r))
      + (-Ideal.logistic p2i) * Ideal.tanh (x3r + (Ideal.logistic p1r * g3r - Ideal.logistic p1i * g3i)))
    + (Ideal.logistic p2r * hi + Ideal.logistic p2i * hr)

/-- The cell's result array `[2, 65536, 256]` of the 28 real argument arrays, in the order of the programs' arguments:
    `xr xi hr hi`, then for each of `w1 r1 w2 r2 w3 r3` its `Wr Wi br bi`. -/
def cell (xr xi hr hi : Arr2 65536 256)
    (w1Wr w1Wi : Arr2 256 256) (w1br w1bi : Arr1 256) (r1Wr r1Wi : Arr2 256 256) (r1br r1bi : Arr1 256)
    (w2Wr w2Wi : Arr2 256 256) (w2br w2bi : Arr1 256) (r2Wr r2Wi : Arr2 256 256) (r2br r2bi : Arr1 256)
    (w3Wr w3Wi : Arr2 256 256) (w3br w3bi : Arr1 256) (r3Wr r3Wi : Arr2 256 256) (r3br r3bi : Arr1 256) :
    (⟨3, ![2, 65536, 256]⟩ : Shape).Idx → EReal := fun y =>
  let r : Fin 65536 := y 1
  let j : Fin 256 := y 2
  let p1r : EReal := ((cRe xr xi w1Wr w1Wi w1br w1bi r j + cRe hr hi r1Wr r1Wi r1br r1bi r j : ℝ) : EReal)
  let p1i : EReal := ((cIm xr xi w1Wr w1Wi w1br w1bi r j + cIm hr hi r1Wr r1Wi r1br r1bi r j : ℝ) : EReal)
  let p2r : EReal := ((cRe xr xi w2Wr w2Wi w2br w2bi r j + cRe hr hi r2Wr r2Wi r2br r2bi r j : ℝ) : EReal)
  let p2i : EReal := ((cIm xr xi w2Wr w2Wi w2br w2bi r j + cIm hr hi r2Wr r2Wi r2br r2bi r j : ℝ) : EReal)
  let x3r : EReal := ((cRe xr xi w3Wr w3Wi w3br w3bi r j : ℝ) : EReal)
  let x3i : EReal := ((cIm xr xi w3Wr w3Wi w3br w3bi r j : ℝ) : EReal)
  let g3r : EReal := ((cRe hr hi r3Wr r3Wi r3br r3bi r j : ℝ) : EReal)
  let g3i : EReal := ((cIm hr hi r3Wr r3Wi r3br r3bi r j : ℝ) : EReal)
  if (y 0).val = 0 then outRe p1r p1i p2r p2i x3r x3i g3r g3i ((hr (ix2 r j) : ℝ) : EReal) ((hi (ix2 r j) : ℝ) : EReal)
  else outIm p1r p1i p2r p2i x3r x3i g3r g3i ((hr (ix2 r j) : ℝ) : EReal) ((hi (ix2 r j) : ℝ) : EReal)

end Cert.CellSpec

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.RefValue.lean ====
/-
  The reference program's result, when its 28 argument arrays hold real numbers, is the complex GRU cell of those arrays
  (`Cert.CellSpec.cell`), entry by entry.

  The run states the result buffer as one term of the launch contents: two [65536, 256] planes, each given a leading unit axis,
  stacked along it. Every plane is built from one shape of sub-term, x·Wᵀ + b (a product with the transposed weight matrix plus
  the bias broadcast along the rows: `linT`), combined into the real and imaginary parts of complex affine maps (`cReT`, `cImT`),
  the logistic function spelled 1 / (1 + exp (-z)) (`sigmT`), tanh, and entrywise sums, differences and products.

  Order of the argument: (1) on real arrays, x·Wᵀ + b is the real affine map entry by entry (the matrix product of real arrays is
  the real matrix product, the transpose and the broadcasts only move entries), hence so are the complex affine maps;
  (2) each named intermediate array of the run, read at (r, j), is the logistic function or tanh at the image of a real
  pre-activation, or that image itself; (3) the stacked result read at (s, r, j) is the first plane at (r, j) for s = 0 and
  the second for s = 1, which are the specification's two closing formulas at those values.
-/
import proofs.«107637_j19533511262337_2_alg».proof.Proof.Gen.ReferenceIdeal.Run
import proofs.«107637_j19533511262337_2_alg».proof.Proof.CellSpec
import proofs.«107637_j19533511262337_2_alg».proof.Proof.LibRealLift
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo
open Cert.CellSpec Cert.LibRealLift

/-- The dimension numbers of the program's matrix product are the plain ones. -/
theorem dot_eq_plain : dot_S65536x256_S256x256_S65536x256_1_0_0_1_n_n = DotDims.plain 65536 256 256 := rfl

/-! ## The program's building blocks, on arbitrary arrays -/

/-- One real affine map x·Wᵀ + b as the host program spells it: the product with the transposed weights, plus the bias
    broadcast along the rows. -/
def linT (X : FVec Ideal S65536x256 .f32) (W : FVec Ideal S256x256 .f32) (B : FVec Ideal S256 .f32) : FVec Ideal S65536x256 .f32 :=
  addf (Host.dotGeneral dot_S65536x256_S256x256_S65536x256_1_0_0_1_n_n none X (transpose S256x256 [1, 0] W transposes_S256x256_S256x256_1_0))
    (broadcastInDim S65536x256 ![0, 1] bcast_S1x256_S65536x256_0_1 (broadcastInDim S1x256 ![1] bcast_S256_S1x256_1 B))

/-- Real part of a complex affine map of (Xr, Xi). -/
def cReT (Xr Xi : FVec Ideal S65536x256 .f32) (Wr Wi : FVec Ideal S256x256 .f32) (Br Bi : FVec Ideal S256 .f32) : FVec Ideal S65536x256 .f32 :=
  subf (linT Xr Wr Br) (linT Xi Wi Bi)

/-- Imaginary part of a complex affine map of (Xr, Xi). -/
def cImT (Xr Xi : FVec Ideal S65536x256 .f32) (Wr Wi : FVec Ideal S256x256 .f32) (Br Bi : FVec Ideal S256 .f32) : FVec Ideal S65536x256 .f32 :=
  addf (linT Xi Wr Br) (linT Xr Wi Bi)

/-- The logistic function spelled 1 / (1 + exp (-z)), the ones being the broadcast f32 word of 1. -/
def sigmT (z : FVec Ideal S65536x256 .f32) : FVec Ideal S65536x256 .f32 :=
  Host.divf (broadcastInDim S65536x256 ![] bcast_S_S65536x256 (constant S_ .f32 0x3F800000#32))
    (addf (broadcastInDim S65536x256 ![] bcast_S_S65536x256 (constant S_ .f32 0x3F800000#32)) (Host.exp (Host.negf z)))

/-- The transpose of a real matrix is real. -/
theorem transpose_cv (W : Arr2 256 256) :
    transpose S256x256 [1, 0] (cv W : FVec Ideal S256x256 .f32) transposes_S256x256_S256x256_1_0
      = (cv (fun i => W (ix2 (i 1) (i 0))) : FVec Ideal S256x256 .f32) := by
  funext i
  obtain ⟨p, q, rfl⟩ : ∃ (p : Fin 256) (q : Fin 256), i = ix2 p q := ⟨i 0, i 1, eq_ix2 i⟩
  exact transpose_ix2_apply (cv W : FVec Ideal S256x256 .f32) transposes_S256x256_S256x256_1_0 p q

/-- A bias vector broadcast along the rows is real. -/
theorem bias_cv (B : Arr1 256) :
    broadcastInDim S65536x256 ![0, 1] bcast_S1x256_S65536x256_0_1 (broadcastInDim S1x256 ![1] bcast_S256_S1x256_1 (cv B : FVec Ideal S256 .f32))
      = (cv (fun i => B (ix1 (i 1))) : FVec Ideal S65536x256 .f32) := by
  funext i
  obtain ⟨p, q, rfl⟩ : ∃ (p : Fin 65536) (q : Fin 256), i = ix2 p q := ⟨i 0, i 1, eq_ix2 i⟩
  rw [broadcastInDim_apply _ _ _ _ (ix2 (0 : Fin 1) q) (fun a => by fin_cases a <;> rfl)]
  rw [broadcastInDim_apply _ _ _ _ (ix1 q) (fun a => by fin_cases a; rfl)]
  rfl

/-- The affine map of real arrays is the real affine map, entry by entry. -/
theorem linT_cv (X : Arr2 65536 256) (W : Arr2 256 256) (B : Arr1 256) :
    linT (cv X) (cv W) (cv B) = cv (fun i => lin X W B (i 0) (i 1)) := by
  unfold linT
  rw [transpose_cv, bias_cv, dot_eq_plain, dotGeneral_plain_cv, addf_cv]
  rfl

theorem cReT_cv (Xr Xi : Arr2 65536 256) (Wr Wi : Arr2 256 256) (Br Bi : Arr1 256) :
    cReT (cv Xr) (cv Xi) (cv Wr) (cv Wi) (cv Br) (cv Bi) = cv (fun i => cRe Xr Xi Wr Wi Br Bi (i 0) (i 1)) := by
  unfold cReT
  rw [linT_cv, linT_cv, subf_cv]
  rfl

theorem cImT_cv (Xr Xi : Arr2 65536 256) (Wr Wi : Arr2 256 256) (Br Bi : Arr1 256) :
    cImT (cv Xr) (cv Xi) (cv Wr) (cv Wi) (cv Br) (cv Bi) = cv (fun i => cIm Xr Xi Wr Wi Br Bi (i 0) (i 1)) := by
  unfold cImT
  rw [linT_cv, linT_cv, addf_cv]
  rfl

/-- The same, for arrays known to be real through equations. -/
theorem cReT_of_cv {xr xi : FVec Ideal S65536x256 .f32} {wr wi : FVec Ideal S256x256 .f32} {br bi : FVec Ideal S256 .f32}
    {Xr Xi : Arr2 65536 256} {Wr Wi : Arr2 256 256} {Br Bi : Arr1 256}
    (h1 : xr = cv Xr) (h2 : xi = cv Xi) (h3 : wr = cv Wr) (h4 : wi = cv Wi) (h5 : br = cv Br) (h6 : bi = cv Bi) :
    cReT xr xi wr wi br bi = cv (fun i => cRe Xr Xi Wr Wi Br Bi (i 0) (i 1)) := by
  subst h1 h2 h3 h4 h5 h6; exact cReT_cv _ _ _ _ _ _

theorem cImT_of_cv {xr xi : FVec Ideal S65536x256 .f32} {wr wi : FVec Ideal S256x256 .f32} {br bi : FVec Ideal S256 .f32}
    {Xr Xi : Arr2 65536 256} {Wr Wi : Arr2 256 256} {Br Bi : Arr1 256}
    (h1 : xr = cv Xr) (h2 : xi = cv Xi) (h3 : wr = cv Wr) (h4 : wi = cv Wi) (h5 : br = cv Br) (h6 : bi = cv Bi) :
    cImT xr xi wr wi br bi = cv (fun i => cIm Xr Xi Wr Wi Br Bi (i 0) (i 1)) := by
  subst h1 h2 h3 h4 h5 h6; exact cImT_cv _ _ _ _ _ _

/-- The broadcast f32 word of 1 reads 1 everywhere. -/
theorem one_apply (i : S65536x256.Idx) :
    broadcastInDim S65536x256 ![] bcast_S_S65536x256 (constant (F := Ideal) S_ .f32 0x3F800000#32) i = (1 : EReal) := by
  rw [broadcastInDim_scalar_apply, constant_apply, Ideal.ofBits_one_f32]

/-- 1 / (1 + exp (-z)) is the logistic function, entry by entry. -/
theorem sigmT_apply (z : FVec Ideal S65536x256 .f32) (i : S65536x256.Idx) : sigmT z i = Ideal.logistic (z i) := by
  show Ideal.div (broadcastInDim S65536x256 ![] bcast_S_S65536x256 (constant (F := Ideal) S_ .f32 0x3F800000#32) i)
      (broadcastInDim S65536x256 ![] bcast_S_S65536x256 (constant (F := Ideal) S_ .f32 0x3F800000#32) i + Ideal.exp (-(z i)))
    = Ideal.div 1 (1 + Ideal.exp (-(z i)))
  rw [one_apply]

/-! ## The named buffers of the run, through the building blocks (by unfolding) -/

section Named
variable (V0 : Valuation τ sig (Elt Ideal))

theorem res50_eq : res_main_v50 V0 = sigmT (addf (cReT (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7))) (cReT (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)))) := rfl
theorem res57_eq : res_main_v57 V0 = sigmT (addf (cImT (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7))) (cImT (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)))) := rfl
theorem res108_eq : res_main_v108 V0 = sigmT (addf (cReT (V0 (Proc.devRef .tc main_arg0)) (V0 (Proc.devRef .tc main_arg1)) (V0 (Proc.devRef .tc main_arg12)) (V0 (Proc.devRef .tc main_arg13)) (V0 (Proc.devRef .tc main_arg14)) (V0 (Proc.devRef .tc main_arg15))) (cReT (V0 (Proc.devRef .tc main_arg2)) (V0 (Proc.devRef .tc main_arg3)) (V0 (Proc.devRef .tc main_arg16)) (V0 (Proc.devRef .tc main_arg17)) (V0 (Proc.devRef .tc main_arg18)) (V0 (Proc.devRef .tc main_arg19)))) := rfl
theorem res115_eq : res_main_v115 V0 = sigmT (addf (cImT (V0 (Proc.devRef .tc main_arg0)) (V0 (Proc.devRef .tc main_arg1)) (V0 (Proc.devRef .tc main_arg12)) (V0 (Proc.devRef .tc main_arg13)) (V0 (Proc.devRef .tc main_arg14)) (V0 (Proc.devRef .tc main_arg15))) (cImT (V0 (Proc.devRef .tc main_arg2)) (V0 (Proc.devRef .tc main_arg3)) (V0 (Proc.devRef .tc main_arg16)) (V0 (Proc.devRef .tc main_arg17)) (V0 (Proc.devRef .tc main_arg18)) (V0 (Proc.devRef .tc main_arg19)))) := rfl
theorem res148_eq : res_main_v148 V0 = (cReT (V0 (Proc.devRef .tc main_arg2)) (V0 (Proc.devRef .tc main_arg3)) (V0 (Proc.devRef .tc main_arg24)) (V0 (Proc.devRef .tc main_arg25)) (V0 (Proc.devRef .tc main_arg26)) (V0 (Proc.devRef .tc main_arg27))) := rfl
theorem res159_eq : res_main_v159 V0 = (cImT (V0 (Proc.devRef .tc main_arg2)) (V0 (Proc.devRef .tc main_arg3)) (V0 (Proc.devRef .tc main_arg24)) (V0 (Proc.devRef .tc main_arg25)) (V0 (Proc.devRef .tc main_arg26)) (V0 (Proc.devRef .tc main_arg27))) := rfl

end Named

/-! ## The 28 argument buffers real -/

/-- The hypothesis of this file: each of the 28 argument buffers of a valuation is (the image of) a real array. -/
structure RealArgs (V0 : Valuation τ sig (Elt Ideal)) where
  X0 : Arr2 65536 256
  X1 : Arr2 65536 256
  X2 : Arr2 65536 256
  X3 : Arr2 65536 256
  X4 : Arr2 256 256
  X5 : Arr2 256 256
  X6 : Arr1 256
  X7 : Arr1 256
  X8 : Arr2 256 256
  X9 : Arr2 256 256
  X10 : Arr1 256
  X11 : Arr1 256
  X12 : Arr2 256 256
  X13 : Arr2 256 256
  X14 : Arr1 256
  X15 : Arr1 256
  X16 : Arr2 256 256
  X17 : Arr2 256 256
  X18 : Arr1 256
  X19 : Arr1 256
  X20 : Arr2 256 256
  X21 : Arr2 256 256
  X22 : Arr1 256
  X23 : Arr1 256
  X24 : Arr2 256 256
  X25 : Arr2 256 256
  X26 : Arr1 256
  X27 : Arr1 256
  h0 : V0 (Proc.devRef .tc main_arg0) = (cv X0 : FVec Ideal S65536x256 .f32)
  h1 : V0 (Proc.devRef .tc main_arg1) = (cv X1 : FVec Ideal S65536x256 .f32)
  h2 : V0 (Proc.devRef .tc main_arg2) = (cv X2 : FVec Ideal S65536x256 .f32)
  h3 : V0 (Proc.devRef .tc main_arg3) = (cv X3 : FVec Ideal S65536x256 .f32)
  h4 : V0 (Proc.devRef .tc main_arg4) = (cv X4 : FVec Ideal S256x256 .f32)
  h5 : V0 (Proc.devRef .tc main_arg5) = (cv X5 : FVec Ideal S256x256 .f32)
  h6 : V0 (Proc.devRef .tc main_arg6) = (cv X6 : FVec Ideal S256 .f32)
  h7 : V0 (Proc.devRef .tc main_arg7) = (cv X7 : FVec Ideal S256 .f32)
  h8 : V0 (Proc.devRef .tc main_arg8) = (cv X8 : FVec Ideal S256x256 .f32)
  h9 : V0 (Proc.devRef .tc main_arg9) = (cv X9 : FVec Ideal S256x256 .f32)
  h10 : V0 (Proc.devRef .tc main_arg10) = (cv X10 : FVec Ideal S256 .f32)
  h11 : V0 (Proc.devRef .tc main_arg11) = (cv X11 : FVec Ideal S256 .f32)
  h12 : V0 (Proc.devRef .tc main_arg12) = (cv X12 : FVec Ideal S256x256 .f32)
  h13 : V0 (Proc.devRef .tc main_arg13) = (cv X13 : FVec Ideal S256x256 .f32)
  h14 : V0 (Proc.devRef .tc main_arg14) = (cv X14 : FVec Ideal S256 .f32)
  h15 : V0 (Proc.devRef .tc main_arg15) = (cv X15 : FVec Ideal S256 .f32)
  h16 : V0 (Proc.devRef .tc main_arg16) = (cv X16 : FVec Ideal S256x256 .f32)
  h17 : V0 (Proc.devRef .tc main_arg17) = (cv X17 : FVec Ideal S256x256 .f32)
  h18 : V0 (Proc.devRef .tc main_arg18) = (cv X18 : FVec Ideal S256 .f32)
  h19 : V0 (Proc.devRef .tc main_arg19) = (cv X19 : FVec Ideal S256 .f32)
  h20 : V0 (Proc.devRef .tc main_arg20) = (cv X20 : FVec Ideal S256x256 .f32)
  h21 : V0 (Proc.devRef .tc main_arg21) = (cv X21 : FVec Ideal S256x256 .f32)
  h22 : V0 (Proc.devRef .tc main_arg22) = (cv X22 : FVec Ideal S256 .f32)
  h23 : V0 (Proc.devRef .tc main_arg23) = (cv X23 : FVec Ideal S256 .f32)
  h24 : V0 (Proc.devRef .tc main_arg24) = (cv X24 : FVec Ideal S256x256 .f32)
  h25 : V0 (Proc.devRef .tc main_arg25) = (cv X25 : FVec Ideal S256x256 .f32)
  h26 : V0 (Proc.devRef .tc main_arg26) = (cv X26 : FVec Ideal S256 .f32)
  h27 : V0 (Proc.devRef .tc main_arg27) = (cv X27 : FVec Ideal S256 .f32)

namespace RealArgs

variable {V0 : Valuation τ sig (Elt Ideal)} (A : RealArgs V0)

/-- The eight pre-activations, as real numbers at row r, column j. -/
def p1r (r : Fin 65536) (j : Fin 256) : ℝ := cRe A.X0 A.X1 A.X4 A.X5 A.X6 A.X7 r j + cRe A.X2 A.X3 A.X8 A.X9 A.X10 A.X11 r j
def p1i (r : Fin 65536) (j : Fin 256) : ℝ := cIm A.X0 A.X1 A.X4 A.X5 A.X6 A.X7 r j + cIm A.X2 A.X3 A.X8 A.X9 A.X10 A.X11 r j
def p2r (r : Fin 65536) (j : Fin 256) : ℝ := cRe A.X0 A.X1 A.X12 A.X13 A.X14 A.X15 r j + cRe A.X2 A.X3 A.X16 A.X17 A.X18 A.X19 r j
def p2i (r : Fin 65536) (j : Fin 256) : ℝ := cIm A.X0 A.X1 A.X12 A.X13 A.X14 A.X15 r j + cIm A.X2 A.X3 A.X16 A.X17 A.X18 A.X19 r j
def x3r (r : Fin 65536) (j : Fin 256) : ℝ := cRe A.X0 A.X1 A.X20 A.X21 A.X22 A.X23 r j
def x3i (r : Fin 65536) (j : Fin 256) : ℝ := cIm A.X0 A.X1 A.X20 A.X21 A.X22 A.X23 r j
def g3r (r : Fin 65536) (j : Fin 256) : ℝ := cRe A.X2 A.X3 A.X24 A.X25 A.X26 A.X27 r j
def g3i (r : Fin 65536) (j : Fin 256) : ℝ := cIm A.X2 A.X3 A.X24 A.X25 A.X26 A.X27 r j

/-- The reset gate's real part is the logistic function at the real pre-activation. -/
theorem v50_apply (r : Fin 65536) (j : Fin 256) : res_main_v50 V0 (ix2 r j) = Ideal.logistic ((A.p1r r j : ℝ) : EReal) := by
  rw [res50_eq, cReT_of_cv A.h0 A.h1 A.h4 A.h5 A.h6 A.h7, cReT_of_cv A.h2 A.h3 A.h8 A.h9 A.h10 A.h11, addf_cv, sigmT_apply]
  all_goals rfl

theorem v57_apply (r : Fin 65536) (j : Fin 256) : res_main_v57 V0 (ix2 r j) = Ideal.logistic ((A.p1i r j : ℝ) : EReal) := by
  rw [res57_eq, cImT_of_cv A.h0 A.h1 A.h4 A.h5 A.h6 A.h7, cImT_of_cv A.h2 A.h3 A.h8 A.h9 A.h10 A.h11, addf_cv, sigmT_apply]
  all_goals rfl

theorem v108_apply (r : Fin 65536) (j : Fin 256) : res_main_v108 V0 (ix2 r j) = Ideal.logistic ((A.p2r r j : ℝ) : EReal) := by
  rw [res108_eq, cReT_of_cv A.h0 A.h1 A.h12 A.h13 A.h14 A.h15, cReT_of_cv A.h2 A.h3 A.h16 A.h17 A.h18 A.h19, addf_cv, sigmT_apply]
  all_goals rfl

theorem v115_apply (r : Fin 65536) (j : Fin 256) : res_main_v115 V0 (ix2 r j) = Ideal.logistic ((A.p2i r j : ℝ) : EReal) := by
  rw [res115_eq, cImT_of_cv A.h0 A.h1 A.h12 A.h13 A.h14 A.h15, cImT_of_cv A.h2 A.h3 A.h16 A.h17 A.h18 A.h19, addf_cv, sigmT_apply]
  all_goals rfl

theorem v148_apply (r : Fin 65536) (j : Fin 256) : res_main_v148 V0 (ix2 r j) = ((A.g3r r j : ℝ) : EReal) := by
  rw [res148_eq, cReT_of_cv A.h2 A.h3 A.h24 A.h25 A.h26 A.h27]
  all_goals rfl

theorem v159_apply (r : Fin 65536) (j : Fin 256) : res_main_v159 V0 (ix2 r j) = ((A.g3i r j : ℝ) : EReal) := by
  rw [res159_eq, cImT_of_cv A.h2 A.h3 A.h24 A.h25 A.h26 A.h27]
  all_goals rfl

/-- The candidate's real part. -/
theorem v167_apply (r : Fin 65536) (j : Fin 256) :
    res_main_v167 V0 (ix2 r j) = Ideal.tanh (((A.x3r r j : ℝ) : EReal)
      + (Ideal.logistic ((A.p1r r j : ℝ) : EReal) * ((A.g3r r j : ℝ) : EReal) - Ideal.logistic ((A.p1i r j : ℝ) : EReal) * ((A.g3i r j : ℝ) : EReal))) := by
  have e : res_main_v167 V0 (ix2 r j) = (fun (a b c d e : EReal) => Ideal.tanh (a + (b * c - d * e)))
      ((cReT (V0 (Proc.devRef .tc main_arg0)) (V0 (Proc.devRef .tc main_arg1)) (V0 (Proc.devRef .tc main_arg20)) (V0 (Proc.devRef .tc main_arg21)) (V0 (Proc.devRef .tc main_arg22)) (V0 (Proc.devRef .tc main_arg23))) (ix2 r j)) (res_main_v50 V0 (ix2 r j)) (res_main_v148 V0 (ix2 r j)) (res_main_v57 V0 (ix2 r j)) (res_main_v159 V0 (ix2 r j)) := rfl
  rw [e, A.v50_apply, A.v57_apply, A.v148_apply, A.v159_apply, cReT_of_cv A.h0 A.h1 A.h20 A.h21 A.h22 A.h23]
  all_goals rfl

/-- The candidate's imaginary part. -/
theorem v169_apply (r : Fin 65536) (j : Fin 256) :
    res_main_v169 V0 (ix2 r j) = Ideal.tanh (((A.x3i r j : ℝ) : EReal)
      + (Ideal.logistic ((A.p1r r j : ℝ) : EReal) * ((A.g3i r j : ℝ) : EReal) + Ideal.logistic ((A.p1i r j : ℝ) : EReal) * ((A.g3r r j : ℝ) : EReal))) := by
  have e : res_main_v169 V0 (ix2 r j) = (fun (a b c d e : EReal) => Ideal.tanh (a + (b * c + d * e)))
      ((cImT (V0 (Proc.devRef .tc main_arg0)) (V0 (Proc.devRef .tc main_arg1)) (V0 (Proc.devRef .tc main_arg20)) (V0 (Proc.devRef .tc main_arg21)) (V0 (Proc.devRef .tc main_arg22)) (V0 (Proc.devRef .tc main_arg23))) (ix2 r j)) (res_main_v50 V0 (ix2 r j)) (res_main_v159 V0 (ix2 r j)) (res_main_v57 V0 (ix2 r j)) (res_main_v148 V0 (ix2 r j)) := rfl
  rw [e, A.v50_apply, A.v57_apply, A.v148_apply, A.v159_apply, cImT_of_cv A.h0 A.h1 A.h20 A.h21 A.h22 A.h23]
  all_goals rfl

theorem v171_apply (r : Fin 65536) (j : Fin 256) : res_main_v171 V0 (ix2 r j) = 1 - Ideal.logistic ((A.p2r r j : ℝ) : EReal) := by
  have e : res_main_v171 V0 (ix2 r j) = (fun (a b : EReal) => a - b)
      (broadcastInDim S65536x256 ![] bcast_S_S65536x256 (constant (F := Ideal) S_ .f32 0x3F800000#32) (ix2 r j)) (res_main_v108 V0 (ix2 r j)) := rfl
  rw [e, one_apply, A.v108_apply]
  all_goals rfl

theorem v172_apply (r : Fin 65536) (j : Fin 256) : res_main_v172 V0 (ix2 r j) = -Ideal.logistic ((A.p2i r j : ℝ) : EReal) := by
  have e : res_main_v172 V0 (ix2 r j) = (fun (a : EReal) => -a) (res_main_v115 V0 (ix2 r j)) := rfl
  rw [e, A.v115_apply]
  all_goals rfl

end RealArgs

/-! ## The result: two planes stacked on a new leading axis -/

/-- The stack of two [65536, 256] planes, each given a leading unit axis, read in the first plane. -/
theorem stack_left (RE IM : FVec Ideal S65536x256 .f32) (s : Fin 2) (r : Fin 65536) (j : Fin 256) (hs : s.val = 0) :
    concatenate S2x65536x256 0 [⟨S1x65536x256, broadcastInDim S1x65536x256 ![1, 2] bcast_S65536x256_S1x65536x256_1_2 RE⟩,
        ⟨S1x65536x256, broadcastInDim S1x65536x256 ![1, 2] bcast_S65536x256_S1x65536x256_1_2 IM⟩]
      concatenates_S1x65536x256_S1x65536x256_S2x65536x256_d0 (ix3 s r j) = RE (ix2 r j) := by
  rw [concatenate_pair_apply_left (t := S2x65536x256) (s₁ := S1x65536x256) (s₂ := S1x65536x256) _ _ _ _ (ix3 s r j) rfl (ix3 (0 : Fin 1) r j)
    (fun b => by fin_cases b; exacts [hs.symm, rfl, rfl])]
  exact broadcastInDim_apply _ _ _ (ix3 (0 : Fin 1) r j) (ix2 r j) (fun a => by fin_cases a <;> rfl)

/-- The same stack read in the second plane. -/
theorem stack_right (RE IM : FVec Ideal S65536x256 .f32) (s : Fin 2) (r : Fin 65536) (j : Fin 256) (hs : s.val = 1) :
    concatenate S2x65536x256 0 [⟨S1x65536x256, broadcastInDim S1x65536x256 ![1, 2] bcast_S65536x256_S1x65536x256_1_2 RE⟩,
        ⟨S1x65536x256, broadcastInDim S1x65536x256 ![1, 2] bcast_S65536x256_S1x65536x256_1_2 IM⟩]
      concatenates_S1x65536x256_S1x65536x256_S2x65536x256_d0 (ix3 s r j) = IM (ix2 r j) := by
  rw [concatenate_pair_apply_right (t := S2x65536x256) (s₁ := S1x65536x256) (s₂ := S1x65536x256) _ _ _ _ (ix3 s r j) rfl rfl (ix3 (0 : Fin 1) r j)
    (fun b hb => by fin_cases b; exacts [absurd rfl hb, rfl, rfl]) (by show (0 : ℕ) + 1 = s.val; omega)]
  exact broadcastInDim_apply _ _ _ (ix3 (0 : Fin 1) r j) (ix2 r j) (fun a => by fin_cases a <;> rfl)

/-- The real plane of the run's result. -/
def reT (V0 : Valuation τ sig (Elt Ideal)) : FVec Ideal S65536x256 .f32 :=
  addf (subf (mulf (res_main_v171 V0) (res_main_v167 V0)) (mulf (res_main_v172 V0) (res_main_v169 V0))) (subf (mulf (res_main_v108 V0) (V0 (Proc.devRef .tc main_arg2))) (mulf (res_main_v115 V0) (V0 (Proc.devRef .tc main_arg3))))

/-- The imaginary plane of the run's result. -/
def imT (V0 : Valuation τ sig (Elt Ideal)) : FVec Ideal S65536x256 .f32 :=
  addf (addf (mulf (res_main_v171 V0) (res_main_v169 V0)) (mulf (res_main_v172 V0) (res_main_v167 V0))) (addf (mulf (res_main_v108 V0) (V0 (Proc.devRef .tc main_arg3))) (mulf (res_main_v115 V0) (V0 (Proc.devRef .tc main_arg2))))

/-- The run's result term, named. -/
def refTerm (V0 : Valuation τ sig (Elt Ideal)) : FVec Ideal S2x65536x256 .f32 :=
  concatenate S2x65536x256 0 [⟨S1x65536x256, broadcastInDim S1x65536x256 ![1, 2] bcast_S65536x256_S1x65536x256_1_2 (reT V0)⟩,
        ⟨S1x65536x256, broadcastInDim S1x65536x256 ![1, 2] bcast_S65536x256_S1x65536x256_1_2 (imT V0)⟩]
      concatenates_S1x65536x256_S1x65536x256_S2x65536x256_d0

/-- The term the run's post states for the result buffer is `refTerm` (by unfolding). -/
theorem refTerm_eq (V0 : Valuation τ sig (Elt Ideal)) :
    concatenate S2x65536x256 0 [⟨S1x65536x256, (broadcastInDim S1x65536x256 ![1, 2] bcast_S65536x256_S1x65536x256_1_2 (addf (subf (mulf (res_main_v171 V0) (res_main_v167 V0)) (mulf (res_main_v172 V0) (res_main_v169 V0))) (subf (mulf (res_main_v108 V0) (V0 (Proc.devRef .tc main_arg2))) (mulf (res_main_v115 V0) (V0 (Proc.devRef .tc main_arg3))))))⟩, ⟨S1x65536x256, (broadcastInDim S1x65536x256 ![1, 2] bcast_S65536x256_S1x65536x256_1_2 (addf (addf (mulf (res_main_v171 V0) (res_main_v169 V0)) (mulf (res_main_v172 V0) (res_main_v167 V0))) (addf (mulf (res_main_v108 V0) (V0 (Proc.devRef .tc main_arg3))) (mulf (res_main_v115 V0) (V0 (Proc.devRef .tc main_arg2))))))⟩] concatenates_S1x65536x256_S1x65536x256_S2x65536x256_d0 = refTerm V0 := rfl

namespace RealArgs

variable {V0 : Valuation τ sig (Elt Ideal)} (A : RealArgs V0)

theorem reT_apply (r : Fin 65536) (j : Fin 256) : reT V0 (ix2 r j) = outRe ((A.p1r r j : ℝ) : EReal) ((A.p1i r j : ℝ) : EReal) ((A.p2r r j : ℝ) : EReal) ((A.p2i r j : ℝ) : EReal) ((A.x3r r j : ℝ) : EReal) ((A.x3i r j : ℝ) : EReal) ((A.g3r r j : ℝ) : EReal) ((A.g3i r j : ℝ) : EReal) ((A.X2 (ix2 r j) : ℝ) : EReal) ((A.X3 (ix2 r j) : ℝ) : EReal) := by
  have e : reT V0 (ix2 r j) = (fun (a b c d e f g h : EReal) => (a * b - c * d) + (e * g - f * h))
      (res_main_v171 V0 (ix2 r j)) (res_main_v167 V0 (ix2 r j)) (res_main_v172 V0 (ix2 r j)) (res_main_v169 V0 (ix2 r j)) (res_main_v108 V0 (ix2 r j)) (res_main_v115 V0 (ix2 r j)) ((V0 (Proc.devRef .tc main_arg2)) (ix2 r j)) ((V0 (Proc.devRef .tc main_arg3)) (ix2 r j)) := rfl
  rw [e, A.v171_apply, A.v167_apply, A.v172_apply, A.v169_apply, A.v108_apply, A.v115_apply, A.h2, A.h3]
  all_goals rfl

theorem imT_apply (r : Fin 65536) (j : Fin 256) : imT V0 (ix2 r j) = outIm ((A.p1r r j : ℝ) : EReal) ((A.p1i r j : ℝ) : EReal) ((A.p2r r j : ℝ) : EReal) ((A.p2i r j : ℝ) : EReal) ((A.x3r r j : ℝ) : EReal) ((A.x3i r j : ℝ) : EReal) ((A.g3r r j : ℝ) : EReal) ((A.g3i r j : ℝ) : EReal) ((A.X2 (ix2 r j) : ℝ) : EReal) ((A.X3 (ix2 r j) : ℝ) : EReal) := by
  have e : imT V0 (ix2 r j) = (fun (a b c d e f g h : EReal) => (a * d + c * b) + (e * h + f * g))
      (res_main_v171 V0 (ix2 r j)) (res_main_v167 V0 (ix2 r j)) (res_main_v172 V0 (ix2 r j)) (res_main_v169 V0 (ix2 r j)) (res_main_v108 V0 (ix2 r j)) (res_main_v115 V0 (ix2 r j)) ((V0 (Proc.devRef .tc main_arg2)) (ix2 r j)) ((V0 (Proc.devRef .tc main_arg3)) (ix2 r j)) := rfl
  rw [e, A.v171_apply, A.v167_apply, A.v172_apply, A.v169_apply, A.v108_apply, A.v115_apply, A.h2, A.h3]
  all_goals rfl

/-- The specification on the real plane. -/
theorem cell_re (s : Fin 2) (r : Fin 65536) (j : Fin 256) (hs : s.val = 0) :
    cell A.X0 A.X1 A.X2 A.X3 A.X4 A.X5 A.X6 A.X7 A.X8 A.X9 A.X10 A.X11 A.X12 A.X13 A.X14 A.X15 A.X16 A.X17 A.X18 A.X19 A.X20 A.X21 A.X22 A.X23 A.X24 A.X25 A.X26 A.X27 (ix3 s r j) = outRe ((A.p1r r j : ℝ) : EReal) ((A.p1i r j : ℝ) : EReal) ((A.p2r r j : ℝ) : EReal) ((A.p2i r j : ℝ) : EReal) ((A.x3r r j : ℝ) : EReal) ((A.x3i r j : ℝ) : EReal) ((A.g3r r j : ℝ) : EReal) ((A.g3i r j : ℝ) : EReal) ((A.X2 (ix2 r j) : ℝ) : EReal) ((A.X3 (ix2 r j) : ℝ) : EReal) := by
  unfold cell
  dsimp only
  split
  · rfl
  · next h => exact absurd hs h

/-- The specification on the imaginary plane. -/
theorem cell_im (s : Fin 2) (r : Fin 65536) (j : Fin 256) (hs : s.val = 1) :
    cell A.X0 A.X1 A.X2 A.X3 A.X4 A.X5 A.X6 A.X7 A.X8 A.X9 A.X10 A.X11 A.X12 A.X13 A.X14 A.X15 A.X16 A.X17 A.X18 A.X19 A.X20 A.X21 A.X22 A.X23 A.X24 A.X25 A.X26 A.X27 (ix3 s r j) = outIm ((A.p1r r j : ℝ) : EReal) ((A.p1i r j : ℝ) : EReal) ((A.p2r r j : ℝ) : EReal) ((A.p2i r j : ℝ) : EReal) ((A.x3r r j : ℝ) : EReal) ((A.x3i r j : ℝ) : EReal) ((A.g3r r j : ℝ) : EReal) ((A.g3i r j : ℝ) : EReal) ((A.X2 (ix2 r j) : ℝ) : EReal) ((A.X3 (ix2 r j) : ℝ) : EReal) := by
  unfold cell
  dsimp only
  split
  · next h => exact absurd (hs.symm.trans h) (by decide)
  · rfl

/-- The run's result is the cell of the 28 real arrays. -/
theorem refTerm_cell : refTerm V0 = cell A.X0 A.X1 A.X2 A.X3 A.X4 A.X5 A.X6 A.X7 A.X8 A.X9 A.X10 A.X11 A.X12 A.X13 A.X14 A.X15 A.X16 A.X17 A.X18 A.X19 A.X20 A.X21 A.X22 A.X23 A.X24 A.X25 A.X26 A.X27 := by
  funext y
  obtain ⟨s, r, j, rfl⟩ : ∃ (s : Fin 2) (r : Fin 65536) (j : Fin 256), y = ix3 s r j := ⟨y 0, y 1, y 2, eq_ix3 y⟩
  have hlt := s.isLt
  rcases (show s.val = 0 ∨ s.val = 1 by omega) with hs | hs
  · exact (stack_left _ _ s r j hs).trans ((A.reT_apply r j).trans (A.cell_re s r j hs).symm)
  · exact (stack_right _ _ s r j hs).trans ((A.imT_apply r j).trans (A.cell_im s r j hs).symm)

end RealArgs

/-- THE REFERENCE'S VALUE: when the 28 argument buffers are real arrays, the term the run's post states for the result
    buffer is the cell of those arrays. -/
theorem result_eq (V0 : Valuation τ sig (Elt Ideal))
    (X0 : Arr2 65536 256) (X1 : Arr2 65536 256) (X2 : Arr2 65536 256) (X3 : Arr2 65536 256) (X4 : Arr2 256 256) (X5 : Arr2 256 256) (X6 : Arr1 256) (X7 : Arr1 256) (X8 : Arr2 256 256) (X9 : Arr2 256 256) (X10 : Arr1 256) (X11 : Arr1 256) (X12 : Arr2 256 256) (X13 : Arr2 256 256) (X14 : Arr1 256) (X15 : Arr1 256) (X16 : Arr2 256 256) (X17 : Arr2 256 256) (X18 : Arr1 256) (X19 : Arr1 256) (X20 : Arr2 256 256) (X21 : Arr2 256 256) (X22 : Arr1 256) (X23 : Arr1 256) (X24 : Arr2 256 256) (X25 : Arr2 256 256) (X26 : Arr1 256) (X27 : Arr1 256)
    (h0 : V0 (Proc.devRef .tc main_arg0) = (cv X0 : FVec Ideal S65536x256 .f32))
    (h1 : V0 (Proc.devRef .tc main_arg1) = (cv X1 : FVec Ideal S65536x256 .f32))
    (h2 : V0 (Proc.devRef .tc main_arg2) = (cv X2 : FVec Ideal S65536x256 .f32))
    (h3 : V0 (Proc.devRef .tc main_arg3) = (cv X3 : FVec Ideal S65536x256 .f32))
    (h4 : V0 (Proc.devRef .tc main_arg4) = (cv X4 : FVec Ideal S256x256 .f32))
    (h5 : V0 (Proc.devRef .tc main_arg5) = (cv X5 : FVec Ideal S256x256 .f32))
    (h6 : V0 (Proc.devRef .tc main_arg6) = (cv X6 : FVec Ideal S256 .f32))
    (h7 : V0 (Proc.devRef .tc main_arg7) = (cv X7 : FVec Ideal S256 .f32))
    (h8 : V0 (Proc.devRef .tc main_arg8) = (cv X8 : FVec Ideal S256x256 .f32))
    (h9 : V0 (Proc.devRef .tc main_arg9) = (cv X9 : FVec Ideal S256x256 .f32))
    (h10 : V0 (Proc.devRef .tc main_arg10) = (cv X10 : FVec Ideal S256 .f32))
    (h11 : V0 (Proc.devRef .tc main_arg11) = (cv X11 : FVec Ideal S256 .f32))
    (h12 : V0 (Proc.devRef .tc main_arg12) = (cv X12 : FVec Ideal S256x256 .f32))
    (h13 : V0 (Proc.devRef .tc main_arg13) = (cv X13 : FVec Ideal S256x256 .f32))
    (h14 : V0 (Proc.devRef .tc main_arg14) = (cv X14 : FVec Ideal S256 .f32))
    (h15 : V0 (Proc.devRef .tc main_arg15) = (cv X15 : FVec Ideal S256 .f32))
    (h16 : V0 (Proc.devRef .tc main_arg16) = (cv X16 : FVec Ideal S256x256 .f32))
    (h17 : V0 (Proc.devRef .tc main_arg17) = (cv X17 : FVec Ideal S256x256 .f32))
    (h18 : V0 (Proc.devRef .tc main_arg18) = (cv X18 : FVec Ideal S256 .f32))
    (h19 : V0 (Proc.devRef .tc main_arg19) = (cv X19 : FVec Ideal S256 .f32))
    (h20 : V0 (Proc.devRef .tc main_arg20) = (cv X20 : FVec Ideal S256x256 .f32))
    (h21 : V0 (Proc.devRef .tc main_arg21) = (cv X21 : FVec Ideal S256x256 .f32))
    (h22 : V0 (Proc.devRef .tc main_arg22) = (cv X22 : FVec Ideal S256 .f32))
    (h23 : V0 (Proc.devRef .tc main_arg23) = (cv X23 : FVec Ideal S256 .f32))
    (h24 : V0 (Proc.devRef .tc main_arg24) = (cv X24 : FVec Ideal S256x256 .f32))
    (h25 : V0 (Proc.devRef .tc main_arg25) = (cv X25 : FVec Ideal S256x256 .f32))
    (h26 : V0 (Proc.devRef .tc main_arg26) = (cv X26 : FVec Ideal S256 .f32))
    (h27 : V0 (Proc.devRef .tc main_arg27) = (cv X27 : FVec Ideal S256 .f32)) :
    concatenate S2x65536x256 0 [⟨S1x65536x256, (broadcastInDim S1x65536x256 ![1, 2] bcast_S65536x256_S1x65536x256_1_2 (addf (subf (mulf (res_main_v171 V0) (res_main_v167 V0)) (mulf (res_main_v172 V0) (res_main_v169 V0))) (subf (mulf (res_main_v108 V0) (V0 (Proc.devRef .tc main_arg2))) (mulf (res_main_v115 V0) (V0 (Proc.devRef .tc main_arg3))))))⟩, ⟨S1x65536x256, (broadcastInDim S1x65536x256 ![1, 2] bcast_S65536x256_S1x65536x256_1_2 (addf (addf (mulf (res_main_v171 V0) (res_main_v169 V0)) (mulf (res_main_v172 V0) (res_main_v167 V0))) (addf (mulf (res_main_v108 V0) (V0 (Proc.devRef .tc main_arg3))) (mulf (res_main_v115 V0) (V0 (Proc.devRef .tc main_arg2))))))⟩] concatenates_S1x65536x256_S1x65536x256_S2x65536x256_d0
      = cell X0 X1 X2 X3 X4 X5 X6 X7 X8 X9 X10 X11 X12 X13 X14 X15 X16 X17 X18 X19 X20 X21 X22 X23 X24 X25 X26 X27 :=
  (RealArgs.mk X0 X1 X2 X3 X4 X5 X6 X7 X8 X9 X10 X11 X12 X13 X14 X15 X16 X17 X18 X19 X20 X21 X22 X23 X24 X25 X26 X27 h0 h1 h2 h3 h4 h5 h6 h7 h8 h9 h10 h11 h12 h13 h14 h15 h16 h17 h18 h19 h20 h21 h22 h23 h24 h25 h26 h27 : RealArgs V0).refTerm_cell

end Cert.ReferenceIdeal.RefValue

end
-- ==== Proof.LibLayoutLift.lean ====
/-
  Layout operations on arrays of reals (seen as arrays of extended reals): each re-lays entries and changes none,
  so it sends the array of a real function to the array of the re-indexed real function.

  `catC a b` sets two `[M, 256]` arrays side by side (`[M, 512]`: column `k < 256` from `a`, column `k ≥ 256` is column
  `k - 256` of `b`); `catR a b` stacks two `[256, N]` arrays (`[512, N]`) the same way along the rows; `tr` transposes a
  matrix. A matrix product against a stacked pair splits: `(a | b) · (u over v) = a·u + b·v`.
-/
import proofs.«107637_j19533511262337_2_alg».proof.Proof.LibRealLift
import Idealize.ShloMosaic.Lib.Pipeline.Value
import Idealize.ShloMosaic.Lib.ValueLayout

open Idealize.ShloMosaic Idealize.ShloMosaic.ValueIdx

noncomputable section

namespace Cert.LibLayoutLift

open Cert.LibRealLift

abbrev Arr2 (a b : Nat) : Type := (⟨2, ![a, b]⟩ : Shape).Idx → ℝ

/-- Two `[M, 256]` arrays side by side. -/
def catC {M : Nat} (a b : Arr2 M 256) : Arr2 M 512 := fun i =>
  if h : (i 1).val < 256 then a (ix2 (i 0) ⟨(i 1).val, h⟩) else b (ix2 (i 0) ⟨(i 1).val - 256, by have h5 : (i 1).val < 512 := (i 1).isLt; omega⟩)

/-- Two `[256, N]` arrays stacked. -/
def catR {N : Nat} (a b : Arr2 256 N) : Arr2 512 N := fun i =>
  if h : (i 0).val < 256 then a (ix2 ⟨(i 0).val, h⟩ (i 1)) else b (ix2 ⟨(i 0).val - 256, by have h5 : (i 0).val < 512 := (i 0).isLt; omega⟩ (i 1))

/-- The transposed matrix. -/
def tr {A B : Nat} (a : Arr2 A B) : Arr2 B A := fun i => a (ix2 (i 1) (i 0))

variable {φ : FTy}

theorem concat_cols_cv {M : Nat} (a b : Arr2 M 256)
    (h : Shape.Concatenates [(⟨2, ![M, 256]⟩ : Shape), ⟨2, ![M, 256]⟩] ⟨2, ![M, 512]⟩ 1) :
    concatenate ⟨2, ![M, 512]⟩ 1 [⟨⟨2, ![M, 256]⟩, (cv a : FVec Ideal _ φ)⟩, ⟨⟨2, ![M, 256]⟩, (cv b : FVec Ideal _ φ)⟩] h = cv (catC a b) := by
  funext i
  obtain ⟨p, k, rfl⟩ : ∃ (p : Fin M) (k : Fin 512), i = ix2 p k := ⟨i 0, i 1, eq_ix2 i⟩
  by_cases hk : k.val < 256
  · rw [concatenate_pair_apply_left (1 : Fin 2) (cv a : FVec Ideal _ φ) (cv b : FVec Ideal _ φ) h (ix2 p k) rfl
      (ix2 p (⟨k.val, hk⟩ : Fin 256) : (⟨2, ![M, 256]⟩ : Shape).Idx)
      (fun b => match b with | ⟨0, _⟩ => rfl | ⟨1, _⟩ => rfl)]
    show ((a (ix2 p ⟨k.val, hk⟩) : ℝ) : EReal) = ((catC a b (ix2 p k) : ℝ) : EReal)
    unfold catC
    rw [dif_pos (show ((ix2 p k : (⟨2, ![M, 512]⟩ : Shape).Idx) 1).val < 256 from hk)]
    rfl
  · have hk2 : k.val - 256 < 256 := by have := k.isLt; omega
    rw [concatenate_pair_apply_right (1 : Fin 2) (cv a : FVec Ideal _ φ) (cv b : FVec Ideal _ φ) h (ix2 p k) rfl rfl
      (ix2 p (⟨k.val - 256, hk2⟩ : Fin 256) : (⟨2, ![M, 256]⟩ : Shape).Idx)
      (fun b hb => match b, hb with | ⟨0, _⟩, _ => rfl | ⟨1, _⟩, hb => absurd rfl hb)
      (by show (k.val - 256) + 256 = k.val; omega)]
    show ((b (ix2 p ⟨k.val - 256, hk2⟩) : ℝ) : EReal) = ((catC a b (ix2 p k) : ℝ) : EReal)
    unfold catC
    rw [dif_neg (show ¬ ((ix2 p k : (⟨2, ![M, 512]⟩ : Shape).Idx) 1).val < 256 from hk)]
    rfl

theorem concat_rows_cv {N : Nat} (a b : Arr2 256 N)
    (h : Shape.Concatenates [(⟨2, ![256, N]⟩ : Shape), ⟨2, ![256, N]⟩] ⟨2, ![512, N]⟩ 0) :
    concatenate ⟨2, ![512, N]⟩ 0 [⟨⟨2, ![256, N]⟩, (cv a : FVec Ideal _ φ)⟩, ⟨⟨2, ![256, N]⟩, (cv b : FVec Ideal _ φ)⟩] h = cv (catR a b) := by
  funext i
  obtain ⟨k, j, rfl⟩ : ∃ (k : Fin 512) (j : Fin N), i = ix2 k j := ⟨i 0, i 1, eq_ix2 i⟩
  by_cases hk : k.val < 256
  · rw [concatenate_pair_apply_left (0 : Fin 2) (cv a : FVec Ideal _ φ) (cv b : FVec Ideal _ φ) h (ix2 k j) rfl
      (ix2 (⟨k.val, hk⟩ : Fin 256) j : (⟨2, ![256, N]⟩ : Shape).Idx)
      (fun b => match b with | ⟨0, _⟩ => rfl | ⟨1, _⟩ => rfl)]
    show ((a (ix2 ⟨k.val, hk⟩ j) : ℝ) : EReal) = ((catR a b (ix2 k j) : ℝ) : EReal)
    unfold catR
    rw [dif_pos (show ((ix2 k j : (⟨2, ![512, N]⟩ : Shape).Idx) 0).val < 256 from hk)]
    rfl
  · have hk2 : k.val - 256 < 256 := by have := k.isLt; omega
    rw [concatenate_pair_apply_right (0 : Fin 2) (cv a : FVec Ideal _ φ) (cv b : FVec Ideal _ φ) h (ix2 k j) rfl rfl
      (ix2 (⟨k.val - 256, hk2⟩ : Fin 256) j : (⟨2, ![256, N]⟩ : Shape).Idx)
      (fun b hb => match b, hb with | ⟨0, _⟩, hb => absurd rfl hb | ⟨1, _⟩, _ => rfl)
      (by show (k.val - 256) + 256 = k.val; omega)]
    show ((b (ix2 ⟨k.val - 256, hk2⟩ j) : ℝ) : EReal) = ((catR a b (ix2 k j) : ℝ) : EReal)
    unfold catR
    rw [dif_neg (show ¬ ((ix2 k j : (⟨2, ![512, N]⟩ : Shape).Idx) 0).val < 256 from hk)]
    rfl

theorem transpose_cv {A B : Nat} (a : Arr2 A B) (h : (⟨2, ![A, B]⟩ : Shape).Transposes [1, 0] ⟨2, ![B, A]⟩) :
    transpose ⟨2, ![B, A]⟩ [1, 0] (cv a : FVec Ideal _ φ) h = cv (tr a) := by
  funext i
  obtain ⟨j, k, rfl⟩ : ∃ (j : Fin B) (k : Fin A), i = ix2 j k := ⟨i 0, i 1, eq_ix2 i⟩
  rw [transpose_ix2_apply]
  rfl

/-- One row `[1, N]` broadcast down `M` rows. -/
theorem broadcast_row_cv {M N : Nat} (a : Arr2 1 N) (h : (⟨2, ![1, N]⟩ : Shape).Broadcasts ⟨2, ![M, N]⟩) :
    broadcastTo ⟨2, ![M, N]⟩ (cv a : FVec Ideal _ φ) h = cv (fun i => a (ix2 (0 : Fin 1) (i 1))) := by
  funext i
  obtain ⟨p, j, rfl⟩ : ∃ (p : Fin M) (j : Fin N), i = ix2 p j := ⟨i 0, i 1, eq_ix2 i⟩
  rw [broadcastTo_1b_ab_apply]
  rfl

/-- A shape cast between equal shapes changes nothing. -/
theorem shapeCast_same_cv {s : Shape} (a : s.Idx → ℝ) (h : s.ShapeCasts s) :
    shapeCast s (cv a : FVec Ideal s φ) h = cv a := by
  funext i
  exact shapeCast_apply _ h i i rfl

/-! ## A product against a stacked pair splits -/

theorem sum_fin512 (f : Fin 512 → ℝ) :
    (∑ k : Fin 512, f k) = (∑ k : Fin 256, f ⟨k.val, by have := k.isLt; omega⟩) + ∑ k : Fin 256, f ⟨k.val + 256, by have := k.isLt; omega⟩ := by
  have e := Fin.sum_univ_add (a := 256) (b := 256) (fun k : Fin (256 + 256) => f ⟨k.val, by have := k.isLt; omega⟩)
  rw [show (∑ k : Fin 512, f k) = ∑ k : Fin (256 + 256), f ⟨k.val, by have := k.isLt; omega⟩ from rfl, e]
  refine congrArg₂ (· + ·) ?_ ?_
  · exact Finset.sum_congr rfl fun k _ => congrArg f (Fin.ext rfl)
  · exact Finset.sum_congr rfl fun k _ => congrArg f (Fin.ext (by show 256 + k.val = k.val + 256; omega))

/-- `(a | b) · (u over v) = a·u + b·v`, entry by entry. -/
theorem mm_cat {M N : Nat} (a b : Arr2 M 256) (u v : Arr2 256 N) (p : Fin M) (j : Fin N) :
    mm M 512 N (catC a b) (catR u v) (ix2 p j) = mm M 256 N a u (ix2 p j) + mm M 256 N b v (ix2 p j) := by
  unfold mm
  rw [sum_fin512]
  refine congrArg₂ (· + ·) ?_ ?_
  · refine Finset.sum_congr rfl fun k _ => ?_
    have hk : k.val < 256 := k.isLt
    show catC a b (ix2 p ⟨k.val, _⟩) * catR u v (ix2 ⟨k.val, _⟩ j) = a (ix2 p k) * u (ix2 k j)
    unfold catC catR
    rw [dif_pos (show ((ix2 p (⟨k.val, by omega⟩ : Fin 512) : (⟨2, ![M, 512]⟩ : Shape).Idx) 1).val < 256 from hk),
      dif_pos (show ((ix2 (⟨k.val, by omega⟩ : Fin 512) j : (⟨2, ![512, N]⟩ : Shape).Idx) 0).val < 256 from hk)]
    rfl
  · refine Finset.sum_congr rfl fun k _ => ?_
    have hk : ¬ (k.val + 256 < 256) := by omega
    show catC a b (ix2 p ⟨k.val + 256, _⟩) * catR u v (ix2 ⟨k.val + 256, _⟩ j) = b (ix2 p k) * v (ix2 k j)
    unfold catC catR
    rw [dif_neg (show ¬ ((ix2 p (⟨k.val + 256, by have := k.isLt; omega⟩ : Fin 512) : (⟨2, ![M, 512]⟩ : Shape).Idx) 1).val < 256 from hk),
      dif_neg (show ¬ ((ix2 (⟨k.val + 256, by have := k.isLt; omega⟩ : Fin 512) j : (⟨2, ![512, N]⟩ : Shape).Idx) 0).val < 256 from hk)]
    have e : (⟨k.val + 256 - 256, by have := k.isLt; omega⟩ : Fin 256) = k := Fin.ext (by simp)
    show b (ix2 p ⟨k.val + 256 - 256, _⟩) * v (ix2 ⟨k.val + 256 - 256, _⟩ j) = b (ix2 p k) * v (ix2 k j)
    rw [e]

end Cert.LibLayoutLift

end
-- ==== Proof.KernelBody.lean ====
/-
  The kernel's body on blocks of real numbers.

  One grid point works on 512 rows. Its activations are the blocks `X0 … X3` (rows of `xr, xi, hr, hi`); for the reset and
  update gates it sets `(xr | hr)` and `(xi | hi)` side by side (`[512, 512]`) and multiplies by weight matrices stacked the
  matching way; for the candidate it multiplies `x` and `h` separately. Every real matrix product `a · w` is computed as
  three partial products `a·w + a·w' + a'·w` where `a' = a - a` and `w'` are the residuals of a split into a leading part
  and a remainder: at the ideal instance the leading part is the number itself and the residuals are zero, so the three
  collapse to `a · w`. A complex product uses three real products: with `m1 = ar·Wr`, `m2 = ai·Wi`, `m3 = (ar + ai)·Ws`
  its real part is `m1 - m2` and its imaginary part `m3 - m1 - m2`, each plus a bias row.

  This module evaluates the body's named pieces at blocks of reals: each pre-activation is the array of a real function, and
  the two stored planes are `outRe` / `outIm` (CellSpec) of the eight pre-activations and the old state, entry by entry.
-/
import proofs.«107637_j19533511262337_2_alg».proof.Proof.Gen.KernelIdeal.Skeleton
import proofs.«107637_j19533511262337_2_alg».proof.Proof.LibLayoutLift
import proofs.«107637_j19533511262337_2_alg».proof.Proof.CellSpec
import Idealize.ShloMosaic.Lib.IdealHost

open Idealize.ShloMosaic Idealize.ShloMosaic.ValueIdx

noncomputable section

namespace Cert.KernelIdeal.Body

open Cert.KernelIdeal Cert.KernelIdeal.Gen Cert.LibRealLift Cert.LibLayoutLift

/-- A real array seen as an f32 array of extended reals, and as a bf16 one (the same function: at the ideal instance a float of
    any format is an extended real). -/
abbrev cf {s : Shape} (r : s.Idx → ℝ) : FVec Ideal s .f32 := cv r
abbrev cb {s : Shape} (r : s.Idx → ℝ) : FVec Ideal s .bf16 := cv r

/-- The zero array. -/
abbrev zA {a b : Nat} : Arr2 a b := fun _ => 0

theorem D512_eq : dot_S512x512_S512x256_S512x256_1_0_0_1_n_n = DotDims.plain 512 512 256 := rfl
theorem D256_eq : dot_S512x256_S256x256_S512x256_1_0_0_1_n_n = DotDims.plain 512 256 256 := rfl

/-- The three partial products of a split-precision product, the residuals being zero: the product itself. -/
theorem three_pass (M K N : Nat) {φ₁ φ₂ : FTy} (a : Arr2 M K) (w : Arr2 K N) :
    addf (addf (matmul (DotDims.plain M K N) none (cv a : FVec Ideal _ φ₁) (cv w : FVec Ideal _ φ₂) (constant (F := Ideal) ⟨2, ![M, N]⟩ .f32 0x00000000#32))
               (matmul (DotDims.plain M K N) none (cv a : FVec Ideal _ φ₁) (cv zA : FVec Ideal _ φ₂) (constant (F := Ideal) ⟨2, ![M, N]⟩ .f32 0x00000000#32)))
         (matmul (DotDims.plain M K N) none (cv zA : FVec Ideal _ φ₁) (cv w : FVec Ideal _ φ₂) (constant (F := Ideal) ⟨2, ![M, N]⟩ .f32 0x00000000#32))
      = cv (mm M K N a w) := by
  rw [matmul_plain_cv, matmul_plain_cv, matmul_plain_cv, mm_zero_right, mm_zero_left, addf_cv, addf_cv]
  exact congrArg cv (funext fun i => by simp)

/-! ## The activations: concatenated, added, split -/

variable (X0 X1 X2 X3 : Arr2 512 256)

theorem pay9_cv : k0_pay9 (F := Ideal) (cf X0) (cf X2) = cv (catC X0 X2) := by
  unfold k0_pay9; exact concat_cols_cv X0 X2 _
theorem pay10_cv : k0_pay10 (F := Ideal) (cf X1) (cf X3) = cv (catC X1 X3) := by
  unfold k0_pay10; exact concat_cols_cv X1 X3 _
theorem pay11_cv : k0_pay11 (F := Ideal) (cf X0) (cf X1) (cf X2) (cf X3) = cv (fun i => catC X0 X2 i + catC X1 X3 i) := by
  unfold k0_pay11; rw [pay9_cv, pay10_cv, addf_cv]
theorem pay12_cv : k0_pay12 (F := Ideal) (cf X0) (cf X2) = cv (catC X0 X2) := by
  unfold k0_pay12; rw [pay9_cv]; rfl
theorem pay13_cv : k0_pay13 (F := Ideal) (cf X0) (cf X2) = cv zA := by
  unfold k0_pay13; rw [pay9_cv]; dsimp only; rw [subf_cv_self]; rfl
theorem pay14_cv : k0_pay14 (F := Ideal) (cf X1) (cf X3) = cv (catC X1 X3) := by
  unfold k0_pay14; rw [pay10_cv]; rfl
theorem pay15_cv : k0_pay15 (F := Ideal) (cf X1) (cf X3) = cv zA := by
  unfold k0_pay15; rw [pay10_cv]; dsimp only; rw [subf_cv_self]; rfl
theorem pay16_cv : k0_pay16 (F := Ideal) (cf X0) (cf X1) (cf X2) (cf X3) = cv (fun i => catC X0 X2 i + catC X1 X3 i) := by
  unfold k0_pay16; rw [pay11_cv]; rfl
theorem pay17_cv : k0_pay17 (F := Ideal) (cf X0) (cf X1) (cf X2) (cf X3) = cv zA := by
  unfold k0_pay17; rw [pay11_cv]; dsimp only; rw [subf_cv_self]; rfl

theorem pay40_cv : k0_pay40 (F := Ideal) (cf X0) = cv X0 := rfl
theorem pay41_cv : k0_pay41 (F := Ideal) (cf X0) = cv zA := by
  unfold k0_pay41; dsimp only; rw [subf_cv_self]; rfl
theorem pay42_cv : k0_pay42 (F := Ideal) (cf X1) = cv X1 := rfl
theorem pay43_cv : k0_pay43 (F := Ideal) (cf X1) = cv zA := by
  unfold k0_pay43; dsimp only; rw [subf_cv_self]; rfl
theorem pay44_cv : k0_pay44 (F := Ideal) (cf X0) (cf X1) = cv (fun i => X0 i + X1 i) := by
  unfold k0_pay44; rw [addf_cv]
theorem pay45_cv : k0_pay45 (F := Ideal) (cf X0) (cf X1) = cv (fun i => X0 i + X1 i) := by
  unfold k0_pay45; rw [pay44_cv]; rfl
theorem pay46_cv : k0_pay46 (F := Ideal) (cf X0) (cf X1) = cv zA := by
  unfold k0_pay46; rw [pay44_cv]; dsimp only; rw [subf_cv_self]; rfl
theorem pay53_cv : k0_pay53 (F := Ideal) (cf X2) = cv X2 := rfl
theorem pay54_cv : k0_pay54 (F := Ideal) (cf X2) = cv zA := by
  unfold k0_pay54; dsimp only; rw [subf_cv_self]; rfl
theorem pay55_cv : k0_pay55 (F := Ideal) (cf X3) = cv X3 := rfl
theorem pay56_cv : k0_pay56 (F := Ideal) (cf X3) = cv X3 := rfl
theorem pay57_cv : k0_pay57 (F := Ideal) (cf X2) (cf X3) = cv (fun i => X2 i + X3 i) := by
  unfold k0_pay57; rw [addf_cv]
theorem pay58_cv : k0_pay58 (F := Ideal) (cf X2) (cf X3) = cv zA := by
  unfold k0_pay58; rw [pay57_cv]; dsimp only; rw [subf_cv_self]; rfl

/-! ## Weights and biases: loaded, passed through an identity cast -/

theorem pay18_cv (w : Arr2 512 256) : k0_pay18 (F := Ideal) (cb w) = cv w := by unfold k0_pay18; exact shapeCast_same_cv w _
theorem pay19_cv (w : Arr2 512 256) : k0_pay19 (F := Ideal) (cb w) = cv w := by unfold k0_pay19; exact shapeCast_same_cv w _
theorem pay20_cv (w : Arr2 512 256) : k0_pay20 (F := Ideal) (cb w) = cv w := by unfold k0_pay20; exact shapeCast_same_cv w _
theorem pay21_cv (w : Arr2 512 256) : k0_pay21 (F := Ideal) (cb w) = cv w := by unfold k0_pay21; exact shapeCast_same_cv w _
theorem pay22_cv (w : Arr2 512 256) : k0_pay22 (F := Ideal) (cb w) = cv w := by unfold k0_pay22; exact shapeCast_same_cv w _
theorem pay23_cv (w : Arr2 512 256) : k0_pay23 (F := Ideal) (cb w) = cv w := by unfold k0_pay23; exact shapeCast_same_cv w _
theorem pay24_cv (b : Arr2 1 256) : k0_pay24 (F := Ideal) (cf b) = cv b := by unfold k0_pay24; exact shapeCast_same_cv b _
theorem pay25_cv (b : Arr2 1 256) : k0_pay25 (F := Ideal) (cf b) = cv b := by unfold k0_pay25; exact shapeCast_same_cv b _
theorem pay30_cv (w : Arr2 512 256) : k0_pay30 (F := Ideal) (cb w) = cv w := by unfold k0_pay30; exact shapeCast_same_cv w _
theorem pay31_cv (w : Arr2 512 256) : k0_pay31 (F := Ideal) (cb w) = cv w := by unfold k0_pay31; exact shapeCast_same_cv w _
theorem pay32_cv (w : Arr2 512 256) : k0_pay32 (F := Ideal) (cb w) = cv w := by unfold k0_pay32; exact shapeCast_same_cv w _
theorem pay33_cv (w : Arr2 512 256) : k0_pay33 (F := Ideal) (cb w) = cv w := by unfold k0_pay33; exact shapeCast_same_cv w _
theorem pay34_cv (w : Arr2 512 256) : k0_pay34 (F := Ideal) (cb w) = cv w := by unfold k0_pay34; exact shapeCast_same_cv w _
theorem pay35_cv (w : Arr2 512 256) : k0_pay35 (F := Ideal) (cb w) = cv w := by unfold k0_pay35; exact shapeCast_same_cv w _
theorem pay47_cv (w : Arr2 256 256) : k0_pay47 (F := Ideal) (cb w) = cv w := by unfold k0_pay47; exact shapeCast_same_cv w _
theorem pay48_cv (w : Arr2 256 256) : k0_pay48 (F := Ideal) (cb w) = cv w := by unfold k0_pay48; exact shapeCast_same_cv w _
theorem pay59_cv (w : Arr2 256 256) : k0_pay59 (F := Ideal) (cb w) = cv w := by unfold k0_pay59; exact shapeCast_same_cv w _
theorem pay60_cv (b : Arr2 1 256) : k0_pay60 (F := Ideal) (cf b) = cv b := by unfold k0_pay60; exact shapeCast_same_cv b _
theorem pay61_cv (b : Arr2 1 256) : k0_pay61 (F := Ideal) (cf b) = cv b := by unfold k0_pay61; exact shapeCast_same_cv b _

/-! ## The split-precision products -/

theorem pay26_cv (a : Arr2 512 512) (w : Arr2 512 256) : k0_pay26 (F := Ideal) (cv a) (cv zA) (cv w) (cv zA) = cv (mm 512 512 256 a w) := by
  unfold k0_pay26; dsimp only; rw [D512_eq]; exact three_pass 512 512 256 a w
theorem pay27_cv (a : Arr2 512 512) (w : Arr2 512 256) : k0_pay27 (F := Ideal) (cv a) (cv zA) (cv w) (cv zA) = cv (mm 512 512 256 a w) := by
  unfold k0_pay27; dsimp only; rw [D512_eq]; exact three_pass 512 512 256 a w
theorem pay36_cv (a : Arr2 512 512) (w : Arr2 512 256) : k0_pay36 (F := Ideal) (cv a) (cv zA) (cv w) (cv zA) = cv (mm 512 512 256 a w) := by
  unfold k0_pay36; dsimp only; rw [D512_eq]; exact three_pass 512 512 256 a w
theorem pay37_cv (a : Arr2 512 512) (w : Arr2 512 256) : k0_pay37 (F := Ideal) (cv a) (cv zA) (cv w) (cv zA) = cv (mm 512 512 256 a w) := by
  unfold k0_pay37; dsimp only; rw [D512_eq]; exact three_pass 512 512 256 a w
theorem pay49_cv (a : Arr2 512 256) (w : Arr2 256 256) : k0_pay49 (F := Ideal) (cv a) (cv zA) (cv w) (cv zA) = cv (mm 512 256 256 a w) := by
  unfold k0_pay49; dsimp only; rw [D256_eq]; exact three_pass 512 256 256 a w
theorem pay50_cv (a : Arr2 512 256) (w : Arr2 256 256) : k0_pay50 (F := Ideal) (cv a) (cv zA) (cb w) (cb zA) = cv (mm 512 256 256 a w) := by
  unfold k0_pay50; dsimp only; rw [shapeCast_same_cv, shapeCast_same_cv, D256_eq]; exact three_pass 512 256 256 a w
theorem pay62_cv (a : Arr2 512 256) (w : Arr2 256 256) : k0_pay62 (F := Ideal) (cv a) (cv zA) (cb w) (cb zA) = cv (mm 512 256 256 a w) := by
  unfold k0_pay62; dsimp only; rw [shapeCast_same_cv, shapeCast_same_cv, D256_eq]; exact three_pass 512 256 256 a w
theorem pay63_cv (a : Arr2 512 256) (w : Arr2 256 256) : k0_pay63 (F := Ideal) (cf a) (cv a) (cv a) (cb w) (cb zA) = cv (mm 512 256 256 a w) := by
  unfold k0_pay63; dsimp only; rw [shapeCast_same_cv, shapeCast_same_cv, subf_cv_self, D256_eq]; exact three_pass 512 256 256 a w

/-! ## The complex products: real part `m1 - m2 + bias`, imaginary part `m3 - m1 - m2 + bias` -/

theorem pay28_cv (ar ai : Arr2 512 512) (u v : Arr2 512 256) (b : Arr2 1 256) :
    k0_pay28 (F := Ideal) (cv ar) (cv zA) (cv ai) (cv zA) (cv u) (cv zA) (cv v) (cv zA) (cv b)
      = logistic (cv (fun i => (mm 512 512 256 ar u i - mm 512 512 256 ai v i) + b (ix2 (0 : Fin 1) (i 1)))) := by
  unfold k0_pay28; dsimp only; rw [pay26_cv, pay27_cv, subf_cv, broadcast_row_cv, addf_cv]

theorem pay29_cv (ar ai asum : Arr2 512 512) (u v s : Arr2 512 256) (b : Arr2 1 256) :
    k0_pay29 (F := Ideal) (cv ar) (cv zA) (cv ai) (cv zA) (cv asum) (cv zA) (cv u) (cv zA) (cv v) (cv zA) (cv s) (cv zA) (cv b)
      = logistic (cv (fun i => ((mm 512 512 256 asum s i - mm 512 512 256 ar u i) - mm 512 512 256 ai v i) + b (ix2 (0 : Fin 1) (i 1)))) := by
  unfold k0_pay29; dsimp only; rw [pay26_cv, pay27_cv, D512_eq, three_pass 512 512 256 asum s, subf_cv, subf_cv, broadcast_row_cv, addf_cv]

theorem pay38_cv (ar ai : Arr2 512 512) (u v : Arr2 512 256) (b : Arr2 1 256) :
    k0_pay38 (F := Ideal) (cv ar) (cv zA) (cv ai) (cv zA) (cv u) (cv zA) (cv v) (cv zA) (cf b)
      = logistic (cv (fun i => (mm 512 512 256 ar u i - mm 512 512 256 ai v i) + b (ix2 (0 : Fin 1) (i 1)))) := by
  unfold k0_pay38; dsimp only; rw [pay36_cv, pay37_cv, shapeCast_same_cv, subf_cv, broadcast_row_cv, addf_cv]

theorem pay39_cv (ar ai asum : Arr2 512 512) (u v s : Arr2 512 256) (b : Arr2 1 256) :
    k0_pay39 (F := Ideal) (cv ar) (cv zA) (cv ai) (cv zA) (cv asum) (cv zA) (cv u) (cv zA) (cv v) (cv zA) (cv s) (cv zA) (cf b)
      = logistic (cv (fun i => ((mm 512 512 256 asum s i - mm 512 512 256 ar u i) - mm 512 512 256 ai v i) + b (ix2 (0 : Fin 1) (i 1)))) := by
  unfold k0_pay39; dsimp only; rw [pay36_cv, pay37_cv, shapeCast_same_cv, D512_eq, three_pass 512 512 256 asum s, subf_cv, subf_cv, broadcast_row_cv, addf_cv]

theorem pay51_cv (xr xi : Arr2 512 256) (u v : Arr2 256 256) (b : Arr2 1 256) :
    k0_pay51 (F := Ideal) (cv xr) (cv zA) (cv xi) (cv zA) (cv u) (cv zA) (cb v) (cb zA) (cf b)
      = cv (fun i => (mm 512 256 256 xr u i - mm 512 256 256 xi v i) + b (ix2 (0 : Fin 1) (i 1))) := by
  unfold k0_pay51; dsimp only; rw [pay49_cv, pay50_cv, shapeCast_same_cv, subf_cv, broadcast_row_cv, addf_cv]

theorem pay52_cv (xr xi xs : Arr2 512 256) (u v s : Arr2 256 256) (b : Arr2 1 256) :
    k0_pay52 (F := Ideal) (cv xr) (cv zA) (cv xi) (cv zA) (cv xs) (cv zA) (cv u) (cv zA) (cb v) (cb zA) (cb s) (cb zA) (cf b)
      = cv (fun i => ((mm 512 256 256 xs s i - mm 512 256 256 xr u i) - mm 512 256 256 xi v i) + b (ix2 (0 : Fin 1) (i 1))) := by
  unfold k0_pay52; dsimp only
  rw [pay49_cv, pay50_cv, shapeCast_same_cv s, shapeCast_same_cv (zA : Arr2 256 256), shapeCast_same_cv b, D256_eq, three_pass 512 256 256 xs s, subf_cv, subf_cv, broadcast_row_cv, addf_cv]

theorem pay1_cv (b : Arr2 1 256) (m1 m2 : Arr2 512 256) :
    k0_pay1 (F := Ideal) (cv b) (cv m1) (cv m2) = cv (fun i => (m1 i - m2 i) + b (ix2 (0 : Fin 1) (i 1))) := by
  unfold k0_pay1; dsimp only; rw [subf_cv, broadcast_row_cv, addf_cv]

/-- The state side's third product arrives as two of its partial products already added (`m3`); the third has a zero
    factor. -/
theorem pay2_cv (s : Arr2 256 256) (b : Arr2 1 256) (m1 m2 m3 : Arr2 512 256) :
    k0_pay2 (F := Ideal) (cv zA) (cv s) (cv b) (cv m1) (cv m2) (cv m3) = cv (fun i => ((m3 i - m1 i) - m2 i) + b (ix2 (0 : Fin 1) (i 1))) := by
  unfold k0_pay2; dsimp only
  rw [D256_eq, matmul_plain_cv, mm_zero_left, addf_cv, subf_cv, subf_cv, broadcast_row_cv, addf_cv]
  exact congrArg cv (funext fun i => by simp)

/-- The first two partial products of the state side's third product. -/
theorem pay64_cv (x2 x3 : Arr2 512 256) (s : Arr2 256 256) :
    k0_pay64 (F := Ideal) (cf x2) (cf x3) (cb s) (cb zA) = cv (mm 512 256 256 (fun i => x2 i + x3 i) s) := by
  unfold k0_pay64; dsimp only
  rw [pay57_cv, pay59_cv, shapeCast_same_cv, D256_eq]
  show addf (matmul (DotDims.plain 512 256 256) none (cv _) (cv s) _) (matmul (DotDims.plain 512 256 256) none (cv _) (cv zA) _) = _
  rw [matmul_plain_cv, matmul_plain_cv, mm_zero_right, addf_cv]
  exact congrArg cv (funext fun i => by simp)

/-! ## The pre-activations as real functions of real blocks -/

/-- Real part of a complex product plus bias row: `ar·u - ai·v + b`. -/
def reP {M K : Nat} (ar ai : Arr2 M K) (u v : Arr2 K 256) (b : Arr2 1 256) : Arr2 M 256 :=
  fun i => (mm M K 256 ar u i - mm M K 256 ai v i) + b (ix2 (0 : Fin 1) (i 1))

/-- Imaginary part in the three-product form plus bias row: `asum·s - ar·u - ai·v + b`. -/
def imP {M K : Nat} (ar ai asum : Arr2 M K) (u v s : Arr2 K 256) (b : Arr2 1 256) : Arr2 M 256 :=
  fun i => ((mm M K 256 asum s i - mm M K 256 ar u i) - mm M K 256 ai v i) + b (ix2 (0 : Fin 1) (i 1))

/-! ## The two stored planes, entry by entry -/

theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl
theorem one_word : (Scalar.ofBits (F := Ideal) .f32 0x3F800000#32) = (1 : EReal) := Ideal.ofBits_one_f32
theorem zero_word : (Scalar.ofBits (F := Ideal) .f32 0x00000000#32) = (0 : EReal) := Ideal.ofBits_zero_f32

open Cert.CellSpec (outRe outIm) in
/-- The real plane's payload at an entry: the new state's real part, from the gates' pre-activations. -/
theorem pay7_apply (x2 x3 p1r p1i p2r p2i x3r x3i g3r g3i : Arr2 512 256)
    (v162 : FVec Ideal S512x256 .bf16) (v172 : FVec Ideal S256x256 .bf16) (v176 v178 : FVec Ideal S1x256 .f32)
    (v183 v188 v191 : FVec Ideal S512x256 .f32)
    (h1 : k0_pay1 (F := Ideal) v176 v183 v188 = cv g3r) (h2 : k0_pay2 (F := Ideal) v162 v172 v178 v183 v188 v191 = cv g3i)
    (u : Fin 1) (p : Fin 512) (j : Fin 256) :
    k0_pay7 (F := Ideal) (cf x2) (cf x3) (logistic (cv p1r)) (logistic (cv p1i)) (logistic (cv p2r)) (logistic (cv p2i)) (cv x3r) (cv x3i)
        v162 v172 v176 v178 v183 v188 v191 (ix3 u p j)
      = outRe ((p1r (ix2 p j) : ℝ) : EReal) ((p1i (ix2 p j) : ℝ) : EReal) ((p2r (ix2 p j) : ℝ) : EReal) ((p2i (ix2 p j) : ℝ) : EReal)
          ((x3r (ix2 p j) : ℝ) : EReal) ((x3i (ix2 p j) : ℝ) : EReal) ((g3r (ix2 p j) : ℝ) : EReal) ((g3i (ix2 p j) : ℝ) : EReal)
          ((x2 (ix2 p j) : ℝ) : EReal) ((x3 (ix2 p j) : ℝ) : EReal) := by
  unfold k0_pay7 k0_pay3 k0_pay4 k0_pay5 k0_pay6
  dsimp only
  rw [h1, h2, shapeCast_ab_1ab_apply]
  unfold outRe
  simp only [addf_apply, subf_apply, mulf_apply, broadcast_apply, logistic_at, tanh_at, cv_apply, one_word, zero_word, zero_sub]

open Cert.CellSpec (outRe outIm) in
/-- The imaginary plane's payload at an entry. -/
theorem pay8_apply (x2 x3 p1r p1i p2r p2i x3r x3i g3r g3i : Arr2 512 256)
    (v162 : FVec Ideal S512x256 .bf16) (v172 : FVec Ideal S256x256 .bf16) (v176 v178 : FVec Ideal S1x256 .f32)
    (v183 v188 v191 : FVec Ideal S512x256 .f32)
    (h1 : k0_pay1 (F := Ideal) v176 v183 v188 = cv g3r) (h2 : k0_pay2 (F := Ideal) v162 v172 v178 v183 v188 v191 = cv g3i)
    (u : Fin 1) (p : Fin 512) (j : Fin 256) :
    k0_pay8 (F := Ideal) (cf x2) (cf x3) (logistic (cv p1r)) (logistic (cv p1i)) (logistic (cv p2r)) (logistic (cv p2i)) (cv x3r) (cv x3i)
        v162 v172 v176 v178 v183 v188 v191 (ix3 u p j)
      = outIm ((p1r (ix2 p j) : ℝ) : EReal) ((p1i (ix2 p j) : ℝ) : EReal) ((p2r (ix2 p j) : ℝ) : EReal) ((p2i (ix2 p j) : ℝ) : EReal)
          ((x3r (ix2 p j) : ℝ) : EReal) ((x3i (ix2 p j) : ℝ) : EReal) ((g3r (ix2 p j) : ℝ) : EReal) ((g3i (ix2 p j) : ℝ) : EReal)
          ((x2 (ix2 p j) : ℝ) : EReal) ((x3 (ix2 p j) : ℝ) : EReal) := by
  unfold k0_pay8 k0_pay3 k0_pay4 k0_pay5 k0_pay6
  dsimp only
  rw [h1, h2, shapeCast_ab_1ab_apply]
  unfold outIm
  simp only [addf_apply, subf_apply, mulf_apply, broadcast_apply, logistic_at, tanh_at, cv_apply, one_word, zero_word, zero_sub]

end Cert.KernelIdeal.Body

end
-- ==== Proof.BlockVsCell.lean ====
/-
  A grid point's pre-activations are the cell's, at the rows the point owns.

  Grid point `t` owns rows `512·t … 512·t + 511`. Its activation blocks are those rows of `xr, xi, hr, hi`; the weight arrays it
  sees are transposed (so that `x·Wᵀ` is a plain product) and, for the two gates, the input-side and state-side matrices stacked
  (so that `(x | h)·(W over R) = x·Wᵀ + h·Rᵀ`); the bias rows are the sums or differences the three-product form needs.
  Four identities of real numbers: the real and imaginary parts of a fused (input + state) complex affine map, and of a single
  one. The imaginary parts use `(a + b)·(u + v) - a·u - b·v = a·v + b·u`.
-/
import proofs.«107637_j19533511262337_2_alg».proof.Proof.KernelBody
import proofs.«107637_j19533511262337_2_alg».proof.Proof.CellSpec

open Idealize.ShloMosaic Idealize.ShloMosaic.ValueIdx

noncomputable section

namespace Cert.BlockVsCell

open Cert.LibRealLift Cert.LibLayoutLift Cert.KernelIdeal.Body
open Cert.CellSpec (lin cRe cIm Arr1)

/-- Row `p` of grid point `t`'s block, as a row of the whole batch. -/
def rowOf (t : Fin 128) (p : Fin 512) : Fin 65536 := ⟨512 * t.val + p.val, by have := t.isLt; have := p.isLt; omega⟩

/-- The rows of `X` that grid point `t` owns. -/
def blkR (t : Fin 128) (X : Arr2 65536 256) : Arr2 512 256 := fun i => X (ix2 (rowOf t (i 0)) (i 1))

/-- A block's product with a transposed weight matrix is the affine map's sum over the input features. -/
theorem mm_blk_tr (t : Fin 128) (X : Arr2 65536 256) (W : Arr2 256 256) (B : Arr1 256) (p : Fin 512) (j : Fin 256) :
    mm 512 256 256 (blkR t X) (tr W) (ix2 p j) + B (ix1 j) = lin X W B (rowOf t p) j := rfl

variable (t : Fin 128) (Xr Xi Hr Hi : Arr2 65536 256) (Wr Wi Rr Ri : Arr2 256 256) (wbr wbi rbr rbi : Arr1 256) (p : Fin 512) (j : Fin 256)

/-- Real part, input and state sides fused. -/
theorem fused_re :
    reP (catC (blkR t Xr) (blkR t Hr)) (catC (blkR t Xi) (blkR t Hi)) (catR (tr Wr) (tr Rr)) (catR (tr Wi) (tr Ri))
        (fun i => (wbr (ix1 (i 1)) + rbr (ix1 (i 1))) - (wbi (ix1 (i 1)) + rbi (ix1 (i 1)))) (ix2 p j)
      = cRe Xr Xi Wr Wi wbr wbi (rowOf t p) j + cRe Hr Hi Rr Ri rbr rbi (rowOf t p) j := by
  unfold reP cRe
  rw [mm_cat, mm_cat, ← mm_blk_tr t Xr Wr wbr p j, ← mm_blk_tr t Xi Wi wbi p j, ← mm_blk_tr t Hr Rr rbr p j, ← mm_blk_tr t Hi Ri rbi p j]
  show _ + ((wbr (ix1 j) + rbr (ix1 j)) - (wbi (ix1 j) + rbi (ix1 j))) = _
  ring

/-- Imaginary part, input and state sides fused, in the three-product form. -/
theorem fused_im :
    imP (catC (blkR t Xr) (blkR t Hr)) (catC (blkR t Xi) (blkR t Hi))
        (fun q => catC (blkR t Xr) (blkR t Hr) q + catC (blkR t Xi) (blkR t Hi) q)
        (catR (tr Wr) (tr Rr)) (catR (tr Wi) (tr Ri)) (fun q => catR (tr Wr) (tr Rr) q + catR (tr Wi) (tr Ri) q)
        (fun i => (wbr (ix1 (i 1)) + rbr (ix1 (i 1))) + (wbi (ix1 (i 1)) + rbi (ix1 (i 1)))) (ix2 p j)
      = cIm Xr Xi Wr Wi wbr wbi (rowOf t p) j + cIm Hr Hi Rr Ri rbr rbi (rowOf t p) j := by
  unfold imP cIm
  rw [mm_cross, mm_cat, mm_cat, ← mm_blk_tr t Xi Wr wbr p j, ← mm_blk_tr t Xr Wi wbi p j, ← mm_blk_tr t Hi Rr rbr p j, ← mm_blk_tr t Hr Ri rbi p j]
  show _ + ((wbr (ix1 j) + rbr (ix1 j)) + (wbi (ix1 j) + rbi (ix1 j))) = _
  ring

/-- Real part of a single complex affine map. -/
theorem plain_re :
    reP (blkR t Xr) (blkR t Xi) (tr Wr) (tr Wi) (fun i => wbr (ix1 (i 1)) - wbi (ix1 (i 1))) (ix2 p j)
      = cRe Xr Xi Wr Wi wbr wbi (rowOf t p) j := by
  unfold reP cRe
  rw [← mm_blk_tr t Xr Wr wbr p j, ← mm_blk_tr t Xi Wi wbi p j]
  show _ + (wbr (ix1 j) - wbi (ix1 j)) = _
  ring

/-- Imaginary part of a single complex affine map, in the three-product form. -/
theorem plain_im :
    imP (blkR t Xr) (blkR t Xi) (fun q => blkR t Xr q + blkR t Xi q) (tr Wr) (tr Wi) (fun q => tr Wr q + tr Wi q)
        (fun i => wbr (ix1 (i 1)) + wbi (ix1 (i 1))) (ix2 p j)
      = cIm Xr Xi Wr Wi wbr wbi (rowOf t p) j := by
  unfold imP cIm
  rw [mm_cross, ← mm_blk_tr t Xi Wr wbr p j, ← mm_blk_tr t Xr Wi wbi p j]
  show _ + (wbr (ix1 j) + wbi (ix1 j)) = _
  ring

end Cert.BlockVsCell

end
-- ==== Proof.KernelWindowsA.lean ====
/-
  The windows of the one launch, read at a grid point (part 1: the four activation windows and the reset gate's weights).
  Grid point `t` (of 128) sees of each activation array the block of rows `512·t … 512·t + 511`, and of each weight or bias
  array (prepared on the host before the launch) the whole array, at every point.
-/
import proofs.«107637_j19533511262337_2_alg».proof.Proof.KernelIdealValueP
import proofs.«107637_j19533511262337_2_alg».proof.Proof.BlockVsCell

set_option maxRecDepth 16384

open Idealize.ShloMosaic Idealize.ShloMosaic.ValueIdx

noncomputable section

namespace Cert.KernelIdeal.Windows

open Cert.KernelIdeal Cert.KernelIdeal.Gen Cert.KernelIdeal.GenP Idealize.ShloMosaic.TcCoe Idealize.SL.Sem
open Cert.LibRealLift Cert.LibLayoutLift Cert.KernelIdeal.Body Cert.BlockVsCell
open Idealize.ShloMosaic.Pipeline (Dat)

variable (m : (ℓ : Loc nD τ sig) → Buf (Elt Ideal) ℓ)

/-! ## The activations: rows `512·t …` -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk_0 (X : Arr2 65536 256) (c : Dev nD) (h : m ((c : Thread nD τ).loc main_arg0) = (cv X : FVec Ideal S65536x256 .f32))
    (t : Fin cfg0.N) : (iblk m c 0 t : Vec Ideal S512x256 .f32) = cf (blkR t X) := by
  funext y
  show V m c main_arg0 (((cfg0.win 0).blk t).view.emb y) = ((X (ix2 (rowOf t (y 0)) (y 1)) : ℝ) : EReal)
  rw [V_main_arg0, h]
  refine congrArg (fun i => ((X i : ℝ) : EReal)) (funext fun a => Fin.ext ?_)
  obtain ⟨e0, e1⟩ := idx_w0 t
  match a with
  | ⟨0, _⟩ => show win0_0.index t (0 : Fin 2) * 512 + 1 * (y 0).val = 512 * t.val + (y 0).val; omega
  | ⟨1, _⟩ => show win0_0.index t (1 : Fin 2) * 256 + 1 * (y 1).val = (y 1).val; omega

theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk_1 (X : Arr2 65536 256) (c : Dev nD) (h : m ((c : Thread nD τ).loc main_arg1) = (cv X : FVec Ideal S65536x256 .f32))
    (t : Fin cfg0.N) : (iblk m c 1 t : Vec Ideal S512x256 .f32) = cf (blkR t X) := by
  funext y
  show V m c main_arg1 (((cfg0.win 1).blk t).view.emb y) = ((X (ix2 (rowOf t (y 0)) (y 1)) : ℝ) : EReal)
  rw [V_main_arg1, h]
  refine congrArg (fun i => ((X i : ℝ) : EReal)) (funext fun a => Fin.ext ?_)
  obtain ⟨e0, e1⟩ := idx_w1 t
  match a with
  | ⟨0, _⟩ => show win0_1.index t (0 : Fin 2) * 512 + 1 * (y 0).val = 512 * t.val + (y 0).val; omega
  | ⟨1, _⟩ => show win0_1.index t (1 : Fin 2) * 256 + 1 * (y 1).val = (y 1).val; omega

theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem iblk_2 (X : Arr2 65536 256) (c : Dev nD) (h : m ((c : Thread nD τ).loc main_arg2) = (cv X : FVec Ideal S65536x256 .f32))
    (t : Fin cfg0.N) : (iblk m c 2 t : Vec Ideal S512x256 .f32) = cf (blkR t X) := by
  funext y
  show V m c main_arg2 (((cfg0.win 2).blk t).view.emb y) = ((X (ix2 (rowOf t (y 0)) (y 1)) : ℝ) : EReal)
  rw [V_main_arg2, h]
  refine congrArg (fun i => ((X i : ℝ) : EReal)) (funext fun a => Fin.ext ?_)
  obtain ⟨e0, e1⟩ := idx_w2 t
  match a with
  | ⟨0, _⟩ => show win0_2.index t (0 : Fin 2) * 512 + 1 * (y 0).val = 512 * t.val + (y 0).val; omega
  | ⟨1, _⟩ => show win0_2.index t (1 : Fin 2) * 256 + 1 * (y 1).val = (y 1).val; omega

theorem idx_w3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem iblk_3 (X : Arr2 65536 256) (c : Dev nD) (h : m ((c : Thread nD τ).loc main_arg3) = (cv X : FVec Ideal S65536x256 .f32))
    (t : Fin cfg0.N) : (iblk m c 3 t : Vec Ideal S512x256 .f32) = cf (blkR t X) := by
  funext y
  show V m c main_arg3 (((cfg0.win 3).blk t).view.emb y) = ((X (ix2 (rowOf t (y 0)) (y 1)) : ℝ) : EReal)
  rw [V_main_arg3, h]
  refine congrArg (fun i => ((X i : ℝ) : EReal)) (funext fun a => Fin.ext ?_)
  obtain ⟨e0, e1⟩ := idx_w3 t
  match a with
  | ⟨0, _⟩ => show win0_3.index t (0 : Fin 2) * 512 + 1 * (y 0).val = 512 * t.val + (y 0).val; omega
  | ⟨1, _⟩ => show win0_3.index t (1 : Fin 2) * 256 + 1 * (y 1).val = (y 1).val; omega

/-! ## The weights and biases: the whole array at every point -/

theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem iblk_4 (c : Dev nD) (t : Fin cfg0.N) : (iblk m c 4 t : Vec Ideal S512x256 .bf16) = V m c main_v7 := by
  funext y
  show V m c main_v7 (((cfg0.win 4).blk t).view.emb y) = V m c main_v7 y
  refine congrArg _ (funext fun a => Fin.ext ?_)
  obtain ⟨e0, e1⟩ := idx_w4 t
  match a with
  | ⟨0, _⟩ => show win0_4.index t (0 : Fin 2) * 512 + 1 * (y 0).val = (y 0).val; omega
  | ⟨1, _⟩ => show win0_4.index t (1 : Fin 2) * 256 + 1 * (y 1).val = (y 1).val; omega

theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem iblk_5 (c : Dev nD) (t : Fin cfg0.N) : (iblk m c 5 t : Vec Ideal S512x256 .bf16) = V m c main_v10 := by
  funext y
  show V m c main_v10 (((cfg0.win 5).blk t).view.emb y) = V m c main_v10 y
  refine congrArg _ (funext fun a => Fin.ext ?_)
  obtain ⟨e0, e1⟩ := idx_w5 t
  match a with
  | ⟨0, _⟩ => show win0_5.index t (0 : Fin 2) * 512 + 1 * (y 0).val = (y 0).val; omega
  | ⟨1, _⟩ => show win0_5.index t (1 : Fin 2) * 256 + 1 * (y 1).val = (y 1).val; omega

theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem iblk_6 (c : Dev nD) (t : Fin cfg0.N) : (iblk m c 6 t : Vec Ideal S512x256 .bf16) = V m c main_v11 := by
  funext y
  show V m c main_v11 (((cfg0.win 6).blk t).view.emb y) = V m c main_v11 y
  refine congrArg _ (funext fun a => Fin.ext ?_)
  obtain ⟨e0, e1⟩ := idx_w6 t
  match a with
  | ⟨0, _⟩ => show win0_6.index t (0 : Fin 2) * 512 + 1 * (y 0).val = (y 0).val; omega
  | ⟨1, _⟩ => show win0_6.index t (1 : Fin 2) * 256 + 1 * (y 1).val = (y 1).val; omega

theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem iblk_7 (c : Dev nD) (t : Fin cfg0.N) : (iblk m c 7 t : Vec Ideal S512x256 .bf16) = V m c main_v14 := by
  funext y
  show V m c main_v14 (((cfg0.win 7).blk t).view.emb y) = V m c main_v14 y
  refine congrArg _ (funext fun a => Fin.ext ?_)
  obtain ⟨e0, e1⟩ := idx_w7 t
  match a with
  | ⟨0, _⟩ => show win0_7.index t (0 : Fin 2) * 512 + 1 * (y 0).val = (y 0).val; omega
  | ⟨1, _⟩ => show win0_7.index t (1 : Fin 2) * 256 + 1 * (y 1).val = (y 1).val; omega

theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem iblk_8 (c : Dev nD) (t : Fin cfg0.N) : (iblk m c 8 t : Vec Ideal S512x256 .bf16) = V m c main_v15 := by
  funext y
  show V m c main_v15 (((cfg0.win 8).blk t).view.emb y) = V m c main_v15 y
  refine congrArg _ (funext fun a => Fin.ext ?_)
  obtain ⟨e0, e1⟩ := idx_w8 t
  match a with
  | ⟨0, _⟩ => show win0_8.index t (0 : Fin 2) * 512 + 1 * (y 0).val = (y 0).val; omega
  | ⟨1, _⟩ => show win0_8.index t (1 : Fin 2) * 256 + 1 * (y 1).val = (y 1).val; omega

theorem idx_w9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem iblk_9 (c : Dev nD) (t : Fin cfg0.N) : (iblk m c 9 t : Vec Ideal S512x256 .bf16) = V m c main_v18 := by
  funext y
  show V m c main_v18 (((cfg0.win 9).blk t).view.emb y) = V m c main_v18 y
  refine congrArg _ (funext fun a => Fin.ext ?_)
  obtain ⟨e0, e1⟩ := idx_w9 t
  match a with
  | ⟨0, _⟩ => show win0_9.index t (0 : Fin 2) * 512 + 1 * (y 0).val = (y 0).val; omega
  | ⟨1, _⟩ => show win0_9.index t (1 : Fin 2) * 256 + 1 * (y 1).val = (y 1).val; omega

theorem idx_w10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem iblk_10 (c : Dev nD) (t : Fin cfg0.N) : (iblk m c 10 t : Vec Ideal S1x256 .f32) = V m c main_v22 := by
  funext y
  show V m c main_v22 (((cfg0.win 10).blk t).view.emb y) = V m c main_v22 y
  refine congrArg _ (funext fun a => Fin.ext ?_)
  obtain ⟨e0, e1⟩ := idx_w10 t
  match a with
  | ⟨0, _⟩ => show win0_10.index t (0 : Fin 2) * 1 + 1 * (y 0).val = (y 0).val; omega
  | ⟨1, _⟩ => show win0_10.index t (1 : Fin 2) * 256 + 1 * (y 1).val = (y 1).val; omega

theorem idx_w11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

theorem iblk_11 (c : Dev nD) (t : Fin cfg0.N) : (iblk m c 11 t : Vec Ideal S1x256 .f32) = V m c main_v26 := by
  funext y
  show V m c main_v26 (((cfg0.win 11).blk t).view.emb y) = V m c main_v26 y
  refine congrArg _ (funext fun a => Fin.ext ?_)
  obtain ⟨e0, e1⟩ := idx_w11 t
  match a with
  | ⟨0, _⟩ => show win0_11.index t (0 : Fin 2) * 1 + 1 * (y 0).val = (y 0).val; omega
  | ⟨1, _⟩ => show win0_11.index t (1 : Fin 2) * 256 + 1 * (y 1).val = (y 1).val; omega

end Cert.KernelIdeal.Windows

end
-- ==== Proof.KernelWindowsB.lean ====
/-
  The windows of the one launch, read at a grid point (part 2: the update gate's weights and the candidate's input side):
  each weight or bias array is seen whole at every point.
-/
import proofs.«107637_j19533511262337_2_alg».proof.Proof.KernelIdealValueP
import proofs.«107637_j19533511262337_2_alg».proof.Proof.BlockVsCell

set_option maxRecDepth 16384

open Idealize.ShloMosaic Idealize.ShloMosaic.ValueIdx

noncomputable section

namespace Cert.KernelIdeal.Windows

open Cert.KernelIdeal Cert.KernelIdeal.Gen Cert.KernelIdeal.GenP Idealize.ShloMosaic.TcCoe Idealize.SL.Sem
open Cert.LibRealLift Cert.LibLayoutLift Cert.KernelIdeal.Body Cert.BlockVsCell
open Idealize.ShloMosaic.Pipeline (Dat)

variable (m : (ℓ : Loc nD τ sig) → Buf (Elt Ideal) ℓ)

theorem idx_w12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

theorem iblk_12 (c : Dev nD) (t : Fin cfg0.N) : (iblk m c 12 t : Vec Ideal S512x256 .bf16) = V m c main_v34 := by
  funext y
  show V m c main_v34 (((cfg0.win 12).blk t).view.emb y) = V m c main_v34 y
  refine congrArg _ (funext fun a => Fin.ext ?_)
  obtain ⟨e0, e1⟩ := idx_w12 t
  match a with
  | ⟨0, _⟩ => show win0_12.index t (0 : Fin 2) * 512 + 1 * (y 0).val = (y 0).val; omega
  | ⟨1, _⟩ => show win0_12.index t (1 : Fin 2) * 256 + 1 * (y 1).val = (y 1).val; omega

theorem idx_w13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem iblk_13 (c : Dev nD) (t : Fin cfg0.N) : (iblk m c 13 t : Vec Ideal S512x256 .bf16) = V m c main_v37 := by
  funext y
  show V m c main_v37 (((cfg0.win 13).blk t).view.emb y) = V m c main_v37 y
  refine congrArg _ (funext fun a => Fin.ext ?_)
  obtain ⟨e0, e1⟩ := idx_w13 t
  match a with
  | ⟨0, _⟩ => show win0_13.index t (0 : Fin 2) * 512 + 1 * (y 0).val = (y 0).val; omega
  | ⟨1, _⟩ => show win0_13.index t (1 : Fin 2) * 256 + 1 * (y 1).val = (y 1).val; omega

theorem idx_w14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

theorem iblk_14 (c : Dev nD) (t : Fin cfg0.N) : (iblk m c 14 t : Vec Ideal S512x256 .bf16) = V m c main_v38 := by
  funext y
  show V m c main_v38 (((cfg0.win 14).blk t).view.emb y) = V m c main_v38 y
  refine congrArg _ (funext fun a => Fin.ext ?_)
  obtain ⟨e0, e1⟩ := idx_w14 t
  match a with
  | ⟨0, _⟩ => show win0_14.index t (0 : Fin 2) * 512 + 1 * (y 0).val = (y 0).val; omega
  | ⟨1, _⟩ => show win0_14.index t (1 : Fin 2) * 256 + 1 * (y 1).val = (y 1).val; omega

theorem idx_w15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

theorem iblk_15 (c : Dev nD) (t : Fin cfg0.N) : (iblk m c 15 t : Vec Ideal S512x256 .bf16) = V m c main_v41 := by
  funext y
  show V m c main_v41 (((cfg0.win 15).blk t).view.emb y) = V m c main_v41 y
  refine congrArg _ (funext fun a => Fin.ext ?_)
  obtain ⟨e0, e1⟩ := idx_w15 t
  match a with
  | ⟨0, _⟩ => show win0_15.index t (0 : Fin 2) * 512 + 1 * (y 0).val = (y 0).val; omega
  | ⟨1, _⟩ => show win0_15.index t (1 : Fin 2) * 256 + 1 * (y 1).val = (y 1).val; omega

theorem idx_w16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem iblk_16 (c : Dev nD) (t : Fin cfg0.N) : (iblk m c 16 t : Vec Ideal S512x256 .bf16) = V m c main_v42 := by
  funext y
  show V m c main_v42 (((cfg0.win 16).blk t).view.emb y) = V m c main_v42 y
  refine congrArg _ (funext fun a => Fin.ext ?_)
  obtain ⟨e0, e1⟩ := idx_w16 t
  match a with
  | ⟨0, _⟩ => show win0_16.index t (0 : Fin 2) * 512 + 1 * (y 0).val = (y 0).val; omega
  | ⟨1, _⟩ => show win0_16.index t (1 : Fin 2) * 256 + 1 * (y 1).val = (y 1).val; omega

theorem idx_w17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem iblk_17 (c : Dev nD) (t : Fin cfg0.N) : (iblk m c 17 t : Vec Ideal S512x256 .bf16) = V m c main_v45 := by
  funext y
  show V m c main_v45 (((cfg0.win 17).blk t).view.emb y) = V m c main_v45 y
  refine congrArg _ (funext fun a => Fin.ext ?_)
  obtain ⟨e0, e1⟩ := idx_w17 t
  match a with
  | ⟨0, _⟩ => show win0_17.index t (0 : Fin 2) * 512 + 1 * (y 0).val = (y 0).val; omega
  | ⟨1, _⟩ => show win0_17.index t (1 : Fin 2) * 256 + 1 * (y 1).val = (y 1).val; omega

theorem idx_w18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)

theorem iblk_18 (c : Dev nD) (t : Fin cfg0.N) : (iblk m c 18 t : Vec Ideal S1x256 .f32) = V m c main_v49 := by
  funext y
  show V m c main_v49 (((cfg0.win 18).blk t).view.emb y) = V m c main_v49 y
  refine congrArg _ (funext fun a => Fin.ext ?_)
  obtain ⟨e0, e1⟩ := idx_w18 t
  match a with
  | ⟨0, _⟩ => show win0_18.index t (0 : Fin 2) * 1 + 1 * (y 0).val = (y 0).val; omega
  | ⟨1, _⟩ => show win0_18.index t (1 : Fin 2) * 256 + 1 * (y 1).val = (y 1).val; omega

theorem idx_w19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)

theorem iblk_19 (c : Dev nD) (t : Fin cfg0.N) : (iblk m c 19 t : Vec Ideal S1x256 .f32) = V m c main_v53 := by
  funext y
  show V m c main_v53 (((cfg0.win 19).blk t).view.emb y) = V m c main_v53 y
  refine congrArg _ (funext fun a => Fin.ext ?_)
  obtain ⟨e0, e1⟩ := idx_w19 t
  match a with
  | ⟨0, _⟩ => show win0_19.index t (0 : Fin 2) * 1 + 1 * (y 0).val = (y 0).val; omega
  | ⟨1, _⟩ => show win0_19.index t (1 : Fin 2) * 256 + 1 * (y 1).val = (y 1).val; omega

theorem idx_w20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)

theorem iblk_20 (c : Dev nD) (t : Fin cfg0.N) : (iblk m c 20 t : Vec Ideal S256x256 .bf16) = V m c main_v57 := by
  funext y
  show V m c main_v57 (((cfg0.win 20).blk t).view.emb y) = V m c main_v57 y
  refine congrArg _ (funext fun a => Fin.ext ?_)
  obtain ⟨e0, e1⟩ := idx_w20 t
  match a with
  | ⟨0, _⟩ => show win0_20.index t (0 : Fin 2) * 256 + 1 * (y 0).val = (y 0).val; omega
  | ⟨1, _⟩ => show win0_20.index t (1 : Fin 2) * 256 + 1 * (y 1).val = (y 1).val; omega

theorem idx_w21 : ∀ t : Fin cfg0.N, win0_21.index t (0 : Fin 2) = 0 ∧ win0_21.index t (1 : Fin 2) = 0 :=
  (by decide +kernel : ∀ t : Fin grid0.N, win0_21.index t (0 : Fin 2) = 0 ∧ win0_21.index t (1 : Fin 2) = 0)

theorem iblk_21 (c : Dev nD) (t : Fin cfg0.N) : (iblk m c 21 t : Vec Ideal S256x256 .bf16) = V m c main_v60 := by
  funext y
  show V m c main_v60 (((cfg0.win 21).blk t).view.emb y) = V m c main_v60 y
  refine congrArg _ (funext fun a => Fin.ext ?_)
  obtain ⟨e0, e1⟩ := idx_w21 t
  match a with
  | ⟨0, _⟩ => show win0_21.index t (0 : Fin 2) * 256 + 1 * (y 0).val = (y 0).val; omega
  | ⟨1, _⟩ => show win0_21.index t (1 : Fin 2) * 256 + 1 * (y 1).val = (y 1).val; omega

theorem idx_w22 : ∀ t : Fin cfg0.N, win0_22.index t (0 : Fin 2) = 0 ∧ win0_22.index t (1 : Fin 2) = 0 :=
  (by decide +kernel : ∀ t : Fin grid0.N, win0_22.index t (0 : Fin 2) = 0 ∧ win0_22.index t (1 : Fin 2) = 0)

theorem iblk_22 (c : Dev nD) (t : Fin cfg0.N) : (iblk m c 22 t : Vec Ideal S256x256 .bf16) = V m c main_v61 := by
  funext y
  show V m c main_v61 (((cfg0.win 22).blk t).view.emb y) = V m c main_v61 y
  refine congrArg _ (funext fun a => Fin.ext ?_)
  obtain ⟨e0, e1⟩ := idx_w22 t
  match a with
  | ⟨0, _⟩ => show win0_22.index t (0 : Fin 2) * 256 + 1 * (y 0).val = (y 0).val; omega
  | ⟨1, _⟩ => show win0_22.index t (1 : Fin 2) * 256 + 1 * (y 1).val = (y 1).val; omega

theorem idx_w23 : ∀ t : Fin cfg0.N, win0_23.index t (0 : Fin 2) = 0 ∧ win0_23.index t (1 : Fin 2) = 0 :=
  (by decide +kernel : ∀ t : Fin grid0.N, win0_23.index t (0 : Fin 2) = 0 ∧ win0_23.index t (1 : Fin 2) = 0)

theorem iblk_23 (c : Dev nD) (t : Fin cfg0.N) : (iblk m c 23 t : Vec Ideal S256x256 .bf16) = V m c main_v64 := by
  funext y
  show V m c main_v64 (((cfg0.win 23).blk t).view.emb y) = V m c main_v64 y
  refine congrArg _ (funext fun a => Fin.ext ?_)
  obtain ⟨e0, e1⟩ := idx_w23 t
  match a with
  | ⟨0, _⟩ => show win0_23.index t (0 : Fin 2) * 256 + 1 * (y 0).val = (y 0).val; omega
  | ⟨1, _⟩ => show win0_23.index t (1 : Fin 2) * 256 + 1 * (y 1).val = (y 1).val; omega

end Cert.KernelIdeal.Windows

end
-- ==== Proof.KernelWindowsC.lean ====
/-
  The windows of the one launch, read at a grid point (part 3: the candidate's input-side and state-side weights):
  each weight or bias array is seen whole at every point.
-/
import proofs.«107637_j19533511262337_2_alg».proof.Proof.KernelIdealValueP
import proofs.«107637_j19533511262337_2_alg».proof.Proof.BlockVsCell

set_option maxRecDepth 16384

open Idealize.ShloMosaic Idealize.ShloMosaic.ValueIdx

noncomputable section

namespace Cert.KernelIdeal.Windows

open Cert.KernelIdeal Cert.KernelIdeal.Gen Cert.KernelIdeal.GenP Idealize.ShloMosaic.TcCoe Idealize.SL.Sem
open Cert.LibRealLift Cert.LibLayoutLift Cert.KernelIdeal.Body Cert.BlockVsCell
open Idealize.ShloMosaic.Pipeline (Dat)

variable (m : (ℓ : Loc nD τ sig) → Buf (Elt Ideal) ℓ)

theorem idx_w24 : ∀ t : Fin cfg0.N, win0_24.index t (0 : Fin 2) = 0 ∧ win0_24.index t (1 : Fin 2) = 0 :=
  (by decide +kernel : ∀ t : Fin grid0.N, win0_24.index t (0 : Fin 2) = 0 ∧ win0_24.index t (1 : Fin 2) = 0)

theorem iblk_24 (c : Dev nD) (t : Fin cfg0.N) : (iblk m c 24 t : Vec Ideal S256x256 .bf16) = V m c main_v65 := by
  funext y
  show V m c main_v65 (((cfg0.win 24).blk t).view.emb y) = V m c main_v65 y
  refine congrArg _ (funext fun a => Fin.ext ?_)
  obtain ⟨e0, e1⟩ := idx_w24 t
  match a with
  | ⟨0, _⟩ => show win0_24.index t (0 : Fin 2) * 256 + 1 * (y 0).val = (y 0).val; omega
  | ⟨1, _⟩ => show win0_24.index t (1 : Fin 2) * 256 + 1 * (y 1).val = (y 1).val; omega

theorem idx_w25 : ∀ t : Fin cfg0.N, win0_25.index t (0 : Fin 2) = 0 ∧ win0_25.index t (1 : Fin 2) = 0 :=
  (by decide +kernel : ∀ t : Fin grid0.N, win0_25.index t (0 : Fin 2) = 0 ∧ win0_25.index t (1 : Fin 2) = 0)

theorem iblk_25 (c : Dev nD) (t : Fin cfg0.N) : (iblk m c 25 t : Vec Ideal S256x256 .bf16) = V m c main_v68 := by
  funext y
  show V m c main_v68 (((cfg0.win 25).blk t).view.emb y) = V m c main_v68 y
  refine congrArg _ (funext fun a => Fin.ext ?_)
  obtain ⟨e0, e1⟩ := idx_w25 t
  match a with
  | ⟨0, _⟩ => show win0_25.index t (0 : Fin 2) * 256 + 1 * (y 0).val = (y 0).val; omega
  | ⟨1, _⟩ => show win0_25.index t (1 : Fin 2) * 256 + 1 * (y 1).val = (y 1).val; omega

theorem idx_w26 : ∀ t : Fin cfg0.N, win0_26.index t (0 : Fin 2) = 0 ∧ win0_26.index t (1 : Fin 2) = 0 :=
  (by decide +kernel : ∀ t : Fin grid0.N, win0_26.index t (0 : Fin 2) = 0 ∧ win0_26.index t (1 : Fin 2) = 0)

theorem iblk_26 (c : Dev nD) (t : Fin cfg0.N) : (iblk m c 26 t : Vec Ideal S1x256 .f32) = V m c main_v70 := by
  funext y
  show V m c main_v70 (((cfg0.win 26).blk t).view.emb y) = V m c main_v70 y
  refine congrArg _ (funext fun a => Fin.ext ?_)
  obtain ⟨e0, e1⟩ := idx_w26 t
  match a with
  | ⟨0, _⟩ => show win0_26.index t (0 : Fin 2) * 1 + 1 * (y 0).val = (y 0).val; omega
  | ⟨1, _⟩ => show win0_26.index t (1 : Fin 2) * 256 + 1 * (y 1).val = (y 1).val; omega

theorem idx_w27 : ∀ t : Fin cfg0.N, win0_27.index t (0 : Fin 2) = 0 ∧ win0_27.index t (1 : Fin 2) = 0 :=
  (by decide +kernel : ∀ t : Fin grid0.N, win0_27.index t (0 : Fin 2) = 0 ∧ win0_27.index t (1 : Fin 2) = 0)

theorem iblk_27 (c : Dev nD) (t : Fin cfg0.N) : (iblk m c 27 t : Vec Ideal S1x256 .f32) = V m c main_v72 := by
  funext y
  show V m c main_v72 (((cfg0.win 27).blk t).view.emb y) = V m c main_v72 y
  refine congrArg _ (funext fun a => Fin.ext ?_)
  obtain ⟨e0, e1⟩ := idx_w27 t
  match a with
  | ⟨0, _⟩ => show win0_27.index t (0 : Fin 2) * 1 + 1 * (y 0).val = (y 0).val; omega
  | ⟨1, _⟩ => show win0_27.index t (1 : Fin 2) * 256 + 1 * (y 1).val = (y 1).val; omega

theorem idx_w28 : ∀ t : Fin cfg0.N, win0_28.index t (0 : Fin 2) = 0 ∧ win0_28.index t (1 : Fin 2) = 0 :=
  (by decide +kernel : ∀ t : Fin grid0.N, win0_28.index t (0 : Fin 2) = 0 ∧ win0_28.index t (1 : Fin 2) = 0)

theorem iblk_28 (c : Dev nD) (t : Fin cfg0.N) : (iblk m c 28 t : Vec Ideal S256x256 .bf16) = V m c main_v76 := by
  funext y
  show V m c main_v76 (((cfg0.win 28).blk t).view.emb y) = V m c main_v76 y
  refine congrArg _ (funext fun a => Fin.ext ?_)
  obtain ⟨e0, e1⟩ := idx_w28 t
  match a with
  | ⟨0, _⟩ => show win0_28.index t (0 : Fin 2) * 256 + 1 * (y 0).val = (y 0).val; omega
  | ⟨1, _⟩ => show win0_28.index t (1 : Fin 2) * 256 + 1 * (y 1).val = (y 1).val; omega

theorem idx_w29 : ∀ t : Fin cfg0.N, win0_29.index t (0 : Fin 2) = 0 ∧ win0_29.index t (1 : Fin 2) = 0 :=
  (by decide +kernel : ∀ t : Fin grid0.N, win0_29.index t (0 : Fin 2) = 0 ∧ win0_29.index t (1 : Fin 2) = 0)

theorem iblk_29 (c : Dev nD) (t : Fin cfg0.N) : (iblk m c 29 t : Vec Ideal S256x256 .bf16) = V m c main_v79 := by
  funext y
  show V m c main_v79 (((cfg0.win 29).blk t).view.emb y) = V m c main_v79 y
  refine congrArg _ (funext fun a => Fin.ext ?_)
  obtain ⟨e0, e1⟩ := idx_w29 t
  match a with
  | ⟨0, _⟩ => show win0_29.index t (0 : Fin 2) * 256 + 1 * (y 0).val = (y 0).val; omega
  | ⟨1, _⟩ => show win0_29.index t (1 : Fin 2) * 256 + 1 * (y 1).val = (y 1).val; omega

theorem idx_w30 : ∀ t : Fin cfg0.N, win0_30.index t (0 : Fin 2) = 0 ∧ win0_30.index t (1 : Fin 2) = 0 :=
  (by decide +kernel : ∀ t : Fin grid0.N, win0_30.index t (0 : Fin 2) = 0 ∧ win0_30.index t (1 : Fin 2) = 0)

theorem iblk_30 (c : Dev nD) (t : Fin cfg0.N) : (iblk m c 30 t : Vec Ideal S256x256 .bf16) = V m c main_v80 := by
  funext y
  show V m c main_v80 (((cfg0.win 30).blk t).view.emb y) = V m c main_v80 y
  refine congrArg _ (funext fun a => Fin.ext ?_)
  obtain ⟨e0, e1⟩ := idx_w30 t
  match a with
  | ⟨0, _⟩ => show win0_30.index t (0 : Fin 2) * 256 + 1 * (y 0).val = (y 0).val; omega
  | ⟨1, _⟩ => show win0_30.index t (1 : Fin 2) * 256 + 1 * (y 1).val = (y 1).val; omega

theorem idx_w31 : ∀ t : Fin cfg0.N, win0_31.index t (0 : Fin 2) = 0 ∧ win0_31.index t (1 : Fin 2) = 0 :=
  (by decide +kernel : ∀ t : Fin grid0.N, win0_31.index t (0 : Fin 2) = 0 ∧ win0_31.index t (1 : Fin 2) = 0)

theorem iblk_31 (c : Dev nD) (t : Fin cfg0.N) : (iblk m c 31 t : Vec Ideal S256x256 .bf16) = V m c main_v83 := by
  funext y
  show V m c main_v83 (((cfg0.win 31).blk t).view.emb y) = V m c main_v83 y
  refine congrArg _ (funext fun a => Fin.ext ?_)
  obtain ⟨e0, e1⟩ := idx_w31 t
  match a with
  | ⟨0, _⟩ => show win0_31.index t (0 : Fin 2) * 256 + 1 * (y 0).val = (y 0).val; omega
  | ⟨1, _⟩ => show win0_31.index t (1 : Fin 2) * 256 + 1 * (y 1).val = (y 1).val; omega

theorem idx_w32 : ∀ t : Fin cfg0.N, win0_32.index t (0 : Fin 2) = 0 ∧ win0_32.index t (1 : Fin 2) = 0 :=
  (by decide +kernel : ∀ t : Fin grid0.N, win0_32.index t (0 : Fin 2) = 0 ∧ win0_32.index t (1 : Fin 2) = 0)

theorem iblk_32 (c : Dev nD) (t : Fin cfg0.N) : (iblk m c 32 t : Vec Ideal S256x256 .bf16) = V m c main_v84 := by
  funext y
  show V m c main_v84 (((cfg0.win 32).blk t).view.emb y) = V m c main_v84 y
  refine congrArg _ (funext fun a => Fin.ext ?_)
  obtain ⟨e0, e1⟩ := idx_w32 t
  match a with
  | ⟨0, _⟩ => show win0_32.index t (0 : Fin 2) * 256 + 1 * (y 0).val = (y 0).val; omega
  | ⟨1, _⟩ => show win0_32.index t (1 : Fin 2) * 256 + 1 * (y 1).val = (y 1).val; omega

theorem idx_w33 : ∀ t : Fin cfg0.N, win0_33.index t (0 : Fin 2) = 0 ∧ win0_33.index t (1 : Fin 2) = 0 :=
  (by decide +kernel : ∀ t : Fin grid0.N, win0_33.index t (0 : Fin 2) = 0 ∧ win0_33.index t (1 : Fin 2) = 0)

theorem iblk_33 (c : Dev nD) (t : Fin cfg0.N) : (iblk m c 33 t : Vec Ideal S256x256 .bf16) = V m c main_v87 := by
  funext y
  show V m c main_v87 (((cfg0.win 33).blk t).view.emb y) = V m c main_v87 y
  refine congrArg _ (funext fun a => Fin.ext ?_)
  obtain ⟨e0, e1⟩ := idx_w33 t
  match a with
  | ⟨0, _⟩ => show win0_33.index t (0 : Fin 2) * 256 + 1 * (y 0).val = (y 0).val; omega
  | ⟨1, _⟩ => show win0_33.index t (1 : Fin 2) * 256 + 1 * (y 1).val = (y 1).val; omega

theorem idx_w34 : ∀ t : Fin cfg0.N, win0_34.index t (0 : Fin 2) = 0 ∧ win0_34.index t (1 : Fin 2) = 0 :=
  (by decide +kernel : ∀ t : Fin grid0.N, win0_34.index t (0 : Fin 2) = 0 ∧ win0_34.index t (1 : Fin 2) = 0)

theorem iblk_34 (c : Dev nD) (t : Fin cfg0.N) : (iblk m c 34 t : Vec Ideal S1x256 .f32) = V m c main_v89 := by
  funext y
  show V m c main_v89 (((cfg0.win 34).blk t).view.emb y) = V m c main_v89 y
  refine congrArg _ (funext fun a => Fin.ext ?_)
  obtain ⟨e0, e1⟩ := idx_w34 t
  match a with
  | ⟨0, _⟩ => show win0_34.index t (0 : Fin 2) * 1 + 1 * (y 0).val = (y 0).val; omega
  | ⟨1, _⟩ => show win0_34.index t (1 : Fin 2) * 256 + 1 * (y 1).val = (y 1).val; omega

theorem idx_w35 : ∀ t : Fin cfg0.N, win0_35.index t (0 : Fin 2) = 0 ∧ win0_35.index t (1 : Fin 2) = 0 :=
  (by decide +kernel : ∀ t : Fin grid0.N, win0_35.index t (0 : Fin 2) = 0 ∧ win0_35.index t (1 : Fin 2) = 0)

theorem iblk_35 (c : Dev nD) (t : Fin cfg0.N) : (iblk m c 35 t : Vec Ideal S1x256 .f32) = V m c main_v91 := by
  funext y
  show V m c main_v91 (((cfg0.win 35).blk t).view.emb y) = V m c main_v91 y
  refine congrArg _ (funext fun a => Fin.ext ?_)
  obtain ⟨e0, e1⟩ := idx_w35 t
  match a with
  | ⟨0, _⟩ => show win0_35.index t (0 : Fin 2) * 1 + 1 * (y 0).val = (y 0).val; omega
  | ⟨1, _⟩ => show win0_35.index t (1 : Fin 2) * 256 + 1 * (y 1).val = (y 1).val; omega

end Cert.KernelIdeal.Windows

end
-- ==== Proof.KernelWindowsD.lean ====
/-
  The result window: grid point `t` writes rows `512·t … 512·t + 511` of both planes of the result, and the 128 output blocks
  cover the result array.
-/
import proofs.«107637_j19533511262337_2_alg».proof.Proof.KernelIdealValueP
import proofs.«107637_j19533511262337_2_alg».proof.Proof.BlockVsCell

set_option maxRecDepth 16384

open Idealize.ShloMosaic Idealize.ShloMosaic.ValueIdx

noncomputable section

namespace Cert.KernelIdeal.Windows

open Cert.KernelIdeal Cert.KernelIdeal.Gen Cert.KernelIdeal.GenP Idealize.ShloMosaic.TcCoe Idealize.SL.Sem
open Cert.LibRealLift Cert.LibLayoutLift Cert.KernelIdeal.Body Cert.BlockVsCell
open Idealize.ShloMosaic.Pipeline (Dat)

variable (m : (ℓ : Loc nD τ sig) → Buf (Elt Ideal) ℓ)

/-! ## The result: rows `512·t …` of both planes, and the cover -/

theorem idx_w36 : ∀ t : Fin cfg0.N, win0_36.index t (0 : Fin 3) = 0 ∧ win0_36.index t (1 : Fin 3) = t.val ∧ win0_36.index t (2 : Fin 3) = 0 :=
  (by decide +kernel : ∀ t : Fin grid0.N, win0_36.index t (0 : Fin 3) = 0 ∧ win0_36.index t (1 : Fin 3) = t.val ∧ win0_36.index t (2 : Fin 3) = 0)

/-- Entry `(s, p, j)` of point `t`'s output block is entry `(s, 512·t + p, j)` of the result. -/
theorem emb36 (t : Fin cfg0.N) (y : S2x512x256.Idx) :
    ((cfg0.win 36).blk t).view.emb y = (ix3 (y 0) (rowOf t (y 1)) (y 2) : S2x65536x256.Idx) := by
  funext a; apply Fin.ext
  obtain ⟨e0, e1, e2⟩ := idx_w36 t
  match a with
  | ⟨0, _⟩ => show win0_36.index t (0 : Fin 3) * 2 + 1 * (y 0).val = (y 0).val; omega
  | ⟨1, _⟩ => show win0_36.index t (1 : Fin 3) * 512 + 1 * (y 1).val = 512 * t.val + (y 1).val; omega
  | ⟨2, _⟩ => show win0_36.index t (2 : Fin 3) * 256 + 1 * (y 2).val = (y 2).val; omega

theorem mem_blk36 (t : Fin cfg0.N) (i : S2x65536x256.Idx) :
    i ∈ ((cfg0.win 36).blk t).view.set ↔ ∀ a : Fin 3, win0_36.index t a * S2x512x256.size a ≤ (i a).val ∧ (i a).val < win0_36.index t a * S2x512x256.size a + S2x512x256.size a := by
  show i ∈ ((View.whole main_v92).slice (win0_36.rect t)).set ↔ _
  rw [View.set_slice_whole, Rect.mem_set_unit]
  exact Iff.rfl

/-- Every entry of the result is in the block of the point that owns its row. -/
theorem cover36 (i : S2x65536x256.Idx) : ∃ t : Fin cfg0.N, (cfg0.win 36).flush t = true ∧ i ∈ ((cfg0.win 36).blk t).view.set := by
  have h0 : (i 0).val < 2 := (i 0).isLt
  have h1 : (i 1).val < 65536 := (i 1).isLt
  have h2 : (i 2).val < 256 := (i 2).isLt
  have ht : (i 1).val / 512 < 128 := by omega
  obtain ⟨e0, e1, e2⟩ := idx_w36 ⟨(i 1).val / 512, ht⟩
  have e1' : win0_36.index ⟨(i 1).val / 512, ht⟩ (1 : Fin 3) = (i 1).val / 512 := e1
  refine ⟨⟨(i 1).val / 512, ht⟩, flush0_36 _, ?_⟩
  rw [mem_blk36]
  intro a
  match a with
  | ⟨0, _⟩ => show win0_36.index ⟨(i 1).val / 512, ht⟩ (0 : Fin 3) * 2 ≤ (i 0).val ∧ (i 0).val < win0_36.index ⟨(i 1).val / 512, ht⟩ (0 : Fin 3) * 2 + 2; omega
  | ⟨1, _⟩ => show win0_36.index ⟨(i 1).val / 512, ht⟩ (1 : Fin 3) * 512 ≤ (i 1).val ∧ (i 1).val < win0_36.index ⟨(i 1).val / 512, ht⟩ (1 : Fin 3) * 512 + 512; omega
  | ⟨2, _⟩ => show win0_36.index ⟨(i 1).val / 512, ht⟩ (2 : Fin 3) * 256 ≤ (i 2).val ∧ (i 2).val < win0_36.index ⟨(i 1).val / 512, ht⟩ (2 : Fin 3) * 256 + 256; omega

end Cert.KernelIdeal.Windows

end
-- ==== Proof.KernelWindows.lean ====
/-
  The windows of the one launch, read at a grid point: the activation blocks (rows `512·t …`), the weight and bias arrays
  (whole, at every point), the result's blocks and their cover. Collected from the four parts.
-/
import proofs.«107637_j19533511262337_2_alg».proof.Proof.KernelWindowsA
import proofs.«107637_j19533511262337_2_alg».proof.Proof.KernelWindowsB
import proofs.«107637_j19533511262337_2_alg».proof.Proof.KernelWindowsC
import proofs.«107637_j19533511262337_2_alg».proof.Proof.KernelWindowsD
-- ==== Proof.KernelBlock.lean ====
/-
  What one grid point leaves in the output block, entry by entry.

  The body stores twice into its `[2, 512, 256]` output block: plane 0 (the new state's real parts) and plane 1 (the imaginary
  parts); together the two stores tile the block. At blocks of real numbers — the four activation blocks, and per complex
  product its three weight matrices (real, imaginary, their sum), each with a zero residual, and its two bias rows — entry
  `(s, p, j)` of the block is `outRe` (for `s = 0`) or `outIm` (for `s = 1`) of the eight real pre-activations at `(p, j)` and of
  the old state's entry.
-/
import proofs.«107637_j19533511262337_2_alg».proof.Proof.KernelIdealFrameP
import proofs.«107637_j19533511262337_2_alg».proof.Proof.KernelBody

set_option maxRecDepth 16384

open Idealize.ShloMosaic Idealize.ShloMosaic.ValueIdx

noncomputable section

namespace Cert.KernelIdeal.Block

open Cert.KernelIdeal Cert.KernelIdeal.Gen Cert.KernelIdeal.GenP Cert.LibRealLift Cert.LibLayoutLift Cert.KernelIdeal.Body
open Cert.CellSpec (outRe outIm)

theorem hz2 : (![0, 0] : Fin 2 → Nat) = fun _ => 0 := funext fun a => by fin_cases a <;> rfl

/-- The block's two stores — plane 1 last, plane 0 first — read at an entry: plane `s`'s payload at `(p, j)`. -/
theorem canon_two (w1 w0 : Vec Ideal S1x512x256 .f32) (s : Fin 2) (p : Fin 512) (j : Fin 256) :
    View.canon [(⟨r0_4, w1⟩ : View.Piece (Elt Ideal) S2x512x256 .f32), ⟨r0_3, w0⟩] (ix3 s p j)
      = if s.val = 0 then w0 (ix3 (0 : Fin 1) p j) else w1 (ix3 (0 : Fin 1) p j) := by
  by_cases hs : s.val = 0
  · rw [if_pos hs]
    have e : (ix3 s p j : S2x512x256.Idx) = r0_3.emb (ix3 (0 : Fin 1) p j) := by
      funext a; apply Fin.ext
      match a with
      | ⟨0, _⟩ => show s.val = 0 + 1 * 0; omega
      | ⟨1, _⟩ => show p.val = 0 + 1 * p.val; omega
      | ⟨2, _⟩ => show j.val = 0 + 1 * j.val; omega
    have hn : (ix3 s p j : S2x512x256.Idx) ∉ r0_4.set := by
      rw [Rect.mem_set_unit]
      intro h
      have h0 := (h ⟨0, by decide⟩).1
      have h0' : (1 : Nat) ≤ s.val := h0
      omega
    rw [View.canon_cons_of_not_mem (⟨r0_4, w1⟩ : View.Piece (Elt Ideal) S2x512x256 .f32) [⟨r0_3, w0⟩] hn]
    exact (congrArg (View.canon [(⟨r0_3, w0⟩ : View.Piece (Elt Ideal) S2x512x256 .f32)]) e).trans
      (View.canon_cons_emb r0_3 w0 [] (ix3 (0 : Fin 1) p j))
  · rw [if_neg hs]
    have hs1 : s.val = 1 := by have := s.isLt; omega
    have e : (ix3 s p j : S2x512x256.Idx) = r0_4.emb (ix3 (0 : Fin 1) p j) := by
      funext a; apply Fin.ext
      match a with
      | ⟨0, _⟩ => show s.val = 1 + 1 * 0; omega
      | ⟨1, _⟩ => show p.val = 0 + 1 * p.val; omega
      | ⟨2, _⟩ => show j.val = 0 + 1 * j.val; omega
    exact (congrArg (View.canon [(⟨r0_4, w1⟩ : View.Piece (Elt Ideal) S2x512x256 .f32), ⟨r0_3, w0⟩]) e).trans
      (View.canon_cons_emb r0_4 w1 [⟨r0_3, w0⟩] (ix3 (0 : Fin 1) p j))

variable (x0 x1 x2 x3 : Arr2 512 256)
  (u1 v1 s1 : Arr2 512 256) (br1 bi1 : Arr2 1 256) (u2 v2 s2 : Arr2 512 256) (br2 bi2 : Arr2 1 256)
  (u3 v3 s3 : Arr2 256 256) (br3 bi3 : Arr2 1 256) (u4 v4 s4 : Arr2 256 256) (br4 bi4 : Arr2 1 256)

/-- The output block at blocks of reals. -/
abbrev outBlk : Vec Ideal S2x512x256 .f32 :=
  out0_36 (F := Ideal) (cf x0) (cf x1) (cf x2) (cf x3) (cb u1) (cb zA) (cb v1) (cb zA) (cb s1) (cb zA) (cf br1) (cf bi1)
    (cb u2) (cb zA) (cb v2) (cb zA) (cb s2) (cb zA) (cf br2) (cf bi2)
    (cb u3) (cb zA) (cb v3) (cb zA) (cb s3) (cb zA) (cf br3) (cf bi3)
    (cb u4) (cb zA) (cb v4) (cb zA) (cb s4) (cb zA) (cf br4) (cf bi4)

theorem outBlk_apply (s : Fin 2) (p : Fin 512) (j : Fin 256) :
    outBlk x0 x1 x2 x3 u1 v1 s1 br1 bi1 u2 v2 s2 br2 bi2 u3 v3 s3 br3 bi3 u4 v4 s4 br4 bi4 (ix3 s p j)
      = if s.val = 0 then
          outRe ((reP (catC x0 x2) (catC x1 x3) u1 v1 br1 (ix2 p j) : ℝ) : EReal)
            ((imP (catC x0 x2) (catC x1 x3) (fun q => catC x0 x2 q + catC x1 x3 q) u1 v1 s1 bi1 (ix2 p j) : ℝ) : EReal)
            ((reP (catC x0 x2) (catC x1 x3) u2 v2 br2 (ix2 p j) : ℝ) : EReal)
            ((imP (catC x0 x2) (catC x1 x3) (fun q => catC x0 x2 q + catC x1 x3 q) u2 v2 s2 bi2 (ix2 p j) : ℝ) : EReal)
            ((reP x0 x1 u3 v3 br3 (ix2 p j) : ℝ) : EReal) ((imP x0 x1 (fun q => x0 q + x1 q) u3 v3 s3 bi3 (ix2 p j) : ℝ) : EReal)
            ((reP x2 x3 u4 v4 br4 (ix2 p j) : ℝ) : EReal) ((imP x2 x3 (fun q => x2 q + x3 q) u4 v4 s4 bi4 (ix2 p j) : ℝ) : EReal)
            ((x2 (ix2 p j) : ℝ) : EReal) ((x3 (ix2 p j) : ℝ) : EReal)
        else
          outIm ((reP (catC x0 x2) (catC x1 x3) u1 v1 br1 (ix2 p j) : ℝ) : EReal)
            ((imP (catC x0 x2) (catC x1 x3) (fun q => catC x0 x2 q + catC x1 x3 q) u1 v1 s1 bi1 (ix2 p j) : ℝ) : EReal)
            ((reP (catC x0 x2) (catC x1 x3) u2 v2 br2 (ix2 p j) : ℝ) : EReal)
            ((imP (catC x0 x2) (catC x1 x3) (fun q => catC x0 x2 q + catC x1 x3 q) u2 v2 s2 bi2 (ix2 p j) : ℝ) : EReal)
            ((reP x0 x1 u3 v3 br3 (ix2 p j) : ℝ) : EReal) ((imP x0 x1 (fun q => x0 q + x1 q) u3 v3 s3 bi3 (ix2 p j) : ℝ) : EReal)
            ((reP x2 x3 u4 v4 br4 (ix2 p j) : ℝ) : EReal) ((imP x2 x3 (fun q => x2 q + x3 q) u4 v4 s4 bi4 (ix2 p j) : ℝ) : EReal)
            ((x2 (ix2 p j) : ℝ) : EReal) ((x3 (ix2 p j) : ℝ) : EReal) := by
  unfold outBlk out0_36
  rw [canon_two]
  simp only [View.ld_unit_zero (S := S512x256) hz2, View.ld_unit_zero (S := S1x256) hz2, View.ld_unit_zero (S := S256x256) hz2]
  simp only [pay12_cv, pay13_cv, pay14_cv, pay15_cv, pay16_cv, pay17_cv, pay18_cv, pay19_cv, pay20_cv, pay21_cv, pay22_cv, pay23_cv,
    pay24_cv, pay25_cv, pay30_cv, pay31_cv, pay32_cv, pay33_cv, pay34_cv, pay35_cv, pay40_cv, pay41_cv, pay42_cv, pay43_cv, pay45_cv,
    pay46_cv, pay47_cv, pay48_cv, pay53_cv, pay54_cv, pay55_cv, pay56_cv, pay58_cv, pay59_cv, pay60_cv, pay61_cv]
  simp only [pay28_cv, pay29_cv, pay38_cv, pay39_cv, pay51_cv, pay52_cv, pay62_cv, pay63_cv, pay64_cv]
  have h1 := pay1_cv br4 (mm 512 256 256 x2 u4) (mm 512 256 256 x3 v4)
  have h2 := pay2_cv s4 bi4 (mm 512 256 256 x2 u4) (mm 512 256 256 x3 v4) (mm 512 256 256 (fun i => x2 i + x3 i) s4)
  by_cases hs : s.val = 0
  · rw [if_pos hs, if_pos hs]
    exact pay7_apply x2 x3 _ _ _ _ _ _ _ _ _ _ _ _ _ _ _ h1 h2 0 p j
  · rw [if_neg hs, if_neg hs]
    exact pay8_apply x2 x3 _ _ _ _ _ _ _ _ _ _ _ _ _ _ _ h1 h2 0 p j

end Cert.KernelIdeal.Block

end
-- ==== Proof.KernelHostWinBase.lean ====
/-
  The kernel's host-prepared window arrays, when the weights and biases are real: the common part.

  Before the region, a line of 92 host operations fills the arrays the region's windows read: transposed weight matrices,
  pairs of them stacked, their sums, each of these narrowed to the 16-bit format together with the residual of that narrowing,
  and sums and differences of bias vectors cast to one row. At the ideal instance a change of float format does nothing, so
  every residual is x - x = 0 for a real x.

  Each such array is written by ONE operation of the line, which reads arrays written a few operations earlier. To say what an
  array holds after the whole line it is enough to run the operations between its earliest producer and its writer: no later
  operation writes it (`pre_known`), and the line splits at any point (`after_mid`). What the operands hold before that stretch
  is known: an argument buffer is written by no operation; an intermediate array is written by none after its own writer.
-/
import proofs.«107637_j19533511262337_2_alg».proof.Proof.KernelIdealFrameP
import proofs.«107637_j19533511262337_2_alg».proof.Proof.LibLayoutLift
import proofs.«107637_j19533511262337_2_alg».proof.Proof.CellSpec
import Idealize.ShloMosaic.Lib.StableHlo.Run
import Idealize.ShloMosaic.Lib.ValueLayout
import Idealize.ShloMosaic.Lib.ValueIdx

set_option maxRecDepth 16384

noncomputable section

namespace Cert.KernelIdeal.HostWin

open Cert.KernelIdeal Cert.KernelIdeal.Gen Cert.KernelIdeal.GenP Cert.LibRealLift Cert.LibLayoutLift
open Idealize.ShloMosaic Idealize.ShloMosaic.ValueIdx Idealize.ShloMosaic.TcCoe Idealize.SL.Sem Idealize.ShloMosaic.StableHlo

/-! ## Cutting a line of host operations around one buffer's producers -/

section Cut
variable {Val : EltTy → Type}

/-- A buffer that no operation after the first n writes holds, after the first n, what it holds after all. -/
theorem pre_known (ops : List (HloOp τ sig Val)) (n : Nat) (V0 : Valuation τ sig Val) (b : DevRef τ sig)
    (h : ∀ op ∈ ops.drop n, b ∉ op.writes) : after (ops.take n) V0 b = after ops V0 b := by
  conv_rhs => rw [← List.take_append_drop n ops, StableHlo.after_append]
  exact (after_of_forall_not_mem _ _ h).symm

/-- A buffer no operation after the first k writes: run the first s operations, then operations s+1 … k. -/
theorem after_mid (ops : List (HloOp τ sig Val)) (s k : Nat) (hsk : s ≤ k) (V0 : Valuation τ sig Val) (b : DevRef τ sig)
    (h : ∀ op ∈ ops.drop k, b ∉ op.writes) :
    after ops V0 b = after ((ops.take k).drop s) (after (ops.take s) V0) b := by
  rw [← pre_known ops k V0 b h]
  conv_lhs => rw [← List.take_append_drop s (ops.take k), StableHlo.after_append, List.take_take, Nat.min_eq_left hsk]

end Cut

/-- A vector cast to one row is real when the vector is. -/
theorem shapeCast_row_cv {φ : FTy} (a : (⟨1, ![256]⟩ : Shape).Idx → ℝ) (h : S256.ShapeCasts S1x256) :
    shapeCast S1x256 (cv a : FVec Ideal S256 φ) h = (cv (fun i => a (ix1 (i 1))) : FVec Ideal S1x256 φ) := by
  funext i
  obtain ⟨u, j, rfl⟩ : ∃ (u : Fin 1) (j : Fin 256), i = ix2 u j := ⟨i 0, i 1, eq_ix2 i⟩
  rw [shapeCast_a_1a_apply]
  rfl

/-- The hypothesis of this file: on device c, each of the 24 weight and bias buffers is (the image of) a real array. -/
structure RealWeights (m : (ℓ : Loc nD τ sig) → Buf (Elt Ideal) ℓ) (c : Dev nD) where
  X4 : Arr2 256 256
  X5 : Arr2 256 256
  X6 : (⟨1, ![256]⟩ : Shape).Idx → ℝ
  X7 : (⟨1, ![256]⟩ : Shape).Idx → ℝ
  X8 : Arr2 256 256
  X9 : Arr2 256 256
  X10 : (⟨1, ![256]⟩ : Shape).Idx → ℝ
  X11 : (⟨1, ![256]⟩ : Shape).Idx → ℝ
  X12 : Arr2 256 256
  X13 : Arr2 256 256
  X14 : (⟨1, ![256]⟩ : Shape).Idx → ℝ
  X15 : (⟨1, ![256]⟩ : Shape).Idx → ℝ
  X16 : Arr2 256 256
  X17 : Arr2 256 256
  X18 : (⟨1, ![256]⟩ : Shape).Idx → ℝ
  X19 : (⟨1, ![256]⟩ : Shape).Idx → ℝ
  X20 : Arr2 256 256
  X21 : Arr2 256 256
  X22 : (⟨1, ![256]⟩ : Shape).Idx → ℝ
  X23 : (⟨1, ![256]⟩ : Shape).Idx → ℝ
  X24 : Arr2 256 256
  X25 : Arr2 256 256
  X26 : (⟨1, ![256]⟩ : Shape).Idx → ℝ
  X27 : (⟨1, ![256]⟩ : Shape).Idx → ℝ
  h4 : m ((c : Thread nD τ).loc main_arg4) = (cv X4 : FVec Ideal S256x256 .f32)
  h5 : m ((c : Thread nD τ).loc main_arg5) = (cv X5 : FVec Ideal S256x256 .f32)
  h6 : m ((c : Thread nD τ).loc main_arg6) = (cv X6 : FVec Ideal S256 .f32)
  h7 : m ((c : Thread nD τ).loc main_arg7) = (cv X7 : FVec Ideal S256 .f32)
  h8 : m ((c : Thread nD τ).loc main_arg8) = (cv X8 : FVec Ideal S256x256 .f32)
  h9 : m ((c : Thread nD τ).loc main_arg9) = (cv X9 : FVec Ideal S256x256 .f32)
  h10 : m ((c : Thread nD τ).loc main_arg10) = (cv X10 : FVec Ideal S256 .f32)
  h11 : m ((c : Thread nD τ).loc main_arg11) = (cv X11 : FVec Ideal S256 .f32)
  h12 : m ((c : Thread nD τ).loc main_arg12) = (cv X12 : FVec Ideal S256x256 .f32)
  h13 : m ((c : Thread nD τ).loc main_arg13) = (cv X13 : FVec Ideal S256x256 .f32)
  h14 : m ((c : Thread nD τ).loc main_arg14) = (cv X14 : FVec Ideal S256 .f32)
  h15 : m ((c : Thread nD τ).loc main_arg15) = (cv X15 : FVec Ideal S256 .f32)
  h16 : m ((c : Thread nD τ).loc main_arg16) = (cv X16 : FVec Ideal S256x256 .f32)
  h17 : m ((c : Thread nD τ).loc main_arg17) = (cv X17 : FVec Ideal S256x256 .f32)
  h18 : m ((c : Thread nD τ).loc main_arg18) = (cv X18 : FVec Ideal S256 .f32)
  h19 : m ((c : Thread nD τ).loc main_arg19) = (cv X19 : FVec Ideal S256 .f32)
  h20 : m ((c : Thread nD τ).loc main_arg20) = (cv X20 : FVec Ideal S256x256 .f32)
  h21 : m ((c : Thread nD τ).loc main_arg21) = (cv X21 : FVec Ideal S256x256 .f32)
  h22 : m ((c : Thread nD τ).loc main_arg22) = (cv X22 : FVec Ideal S256 .f32)
  h23 : m ((c : Thread nD τ).loc main_arg23) = (cv X23 : FVec Ideal S256 .f32)
  h24 : m ((c : Thread nD τ).loc main_arg24) = (cv X24 : FVec Ideal S256x256 .f32)
  h25 : m ((c : Thread nD τ).loc main_arg25) = (cv X25 : FVec Ideal S256x256 .f32)
  h26 : m ((c : Thread nD τ).loc main_arg26) = (cv X26 : FVec Ideal S256 .f32)
  h27 : m ((c : Thread nD τ).loc main_arg27) = (cv X27 : FVec Ideal S256 .f32)

end Cert.KernelIdeal.HostWin

end
-- ==== Proof.KernelHostWinGates.lean ====
/-
  The window arrays of the two gates (reset, update), for real weights and biases. For each gate: the stacked transposed
  real-part weights (`catR (tr Wr_x) (tr Wr_h)`), the stacked transposed imaginary-part weights, their sum, each narrowed to 16 bits
  (the same real array) with a zero residual, and the two bias rows (br_x + br_h) ∓ (bi_x + bi_h).
-/
import proofs.«107637_j19533511262337_2_alg».proof.Proof.KernelHostWinBase

set_option maxRecDepth 16384

noncomputable section

namespace Cert.KernelIdeal.HostWin

open Cert.KernelIdeal Cert.KernelIdeal.Gen Cert.KernelIdeal.GenP Cert.LibRealLift Cert.LibLayoutLift
open Idealize.ShloMosaic Idealize.ShloMosaic.ValueIdx Idealize.ShloMosaic.TcCoe Idealize.SL.Sem Idealize.ShloMosaic.StableHlo

namespace RealWeights

variable {m : (ℓ : Loc nD τ sig) → Buf (Elt Ideal) ℓ} {c : Dev nD} (A : RealWeights m c)
include A

/-! ## Gate 1 (operations 1 … 27) -/

theorem val_v2 : (V m c main_v2 : FVec Ideal S512x256 .f32) = (cv (catR (tr A.X4) (tr A.X8)) : FVec Ideal S512x256 .f32) := by
  refine (after_mid (hostOps0 : List (HloOp τ sig (Elt Ideal))) 0 3 (by decide) (fun b => m (c, b)) (Proc.devRef .tc main_v2) (by decide)).trans ?_
  have l4 : after ((hostOps0 : List (HloOp τ sig (Elt Ideal))).take 0) (fun b => m (c, b)) (Proc.devRef .tc main_arg4) = (cv A.X4 : FVec Ideal S256x256 .f32) :=
    (after_of_forall_not_mem _ _ (by decide)).trans A.h4
  have l8 : after ((hostOps0 : List (HloOp τ sig (Elt Ideal))).take 0) (fun b => m (c, b)) (Proc.devRef .tc main_arg8) = (cv A.X8 : FVec Ideal S256x256 .f32) :=
    (after_of_forall_not_mem _ _ (by decide)).trans A.h8
  generalize after ((hostOps0 : List (HloOp τ sig (Elt Ideal))).take 0) (fun b => m (c, b)) = W at l4 l8 ⊢
  simp only [hostOps0, List.take_succ_cons, List.take_zero, List.drop_succ_cons, List.drop_zero]
  after_results
  rw [l4, l8, LibLayoutLift.transpose_cv, LibLayoutLift.transpose_cv, concat_rows_cv]

theorem val_v5 : (V m c main_v5 : FVec Ideal S512x256 .f32) = (cv (catR (tr A.X5) (tr A.X9)) : FVec Ideal S512x256 .f32) := by
  refine (after_mid (hostOps0 : List (HloOp τ sig (Elt Ideal))) 3 6 (by decide) (fun b => m (c, b)) (Proc.devRef .tc main_v5) (by decide)).trans ?_
  have l5 : after ((hostOps0 : List (HloOp τ sig (Elt Ideal))).take 3) (fun b => m (c, b)) (Proc.devRef .tc main_arg5) = (cv A.X5 : FVec Ideal S256x256 .f32) :=
    (after_of_forall_not_mem _ _ (by decide)).trans A.h5
  have l9 : after ((hostOps0 : List (HloOp τ sig (Elt Ideal))).take 3) (fun b => m (c, b)) (Proc.devRef .tc main_arg9) = (cv A.X9 : FVec Ideal S256x256 .f32) :=
    (after_of_forall_not_mem _ _ (by decide)).trans A.h9
  generalize after ((hostOps0 : List (HloOp τ sig (Elt Ideal))).take 3) (fun b => m (c, b)) = W at l5 l9 ⊢
  simp only [hostOps0, List.take_succ_cons, List.take_zero, List.drop_succ_cons, List.drop_zero]
  after_results
  rw [l5, l9, LibLayoutLift.transpose_cv, LibLayoutLift.transpose_cv, concat_rows_cv]

theorem val_v6 : (V m c main_v6 : FVec Ideal S512x256 .f32) = (cv (fun i => (catR (tr A.X4) (tr A.X8)) i + (catR (tr A.X5) (tr A.X9)) i) : FVec Ideal S512x256 .f32) := by
  refine (after_mid (hostOps0 : List (HloOp τ sig (Elt Ideal))) 6 7 (by decide) (fun b => m (c, b)) (Proc.devRef .tc main_v6) (by decide)).trans ?_
  have lv2 : after ((hostOps0 : List (HloOp τ sig (Elt Ideal))).take 6) (fun b => m (c, b)) (Proc.devRef .tc main_v2) = (cv (catR (tr A.X4) (tr A.X8)) : FVec Ideal S512x256 .f32) :=
    (pre_known (hostOps0 : List (HloOp τ sig (Elt Ideal))) 6 (fun b => m (c, b)) (Proc.devRef .tc main_v2) (by decide)).trans A.val_v2
  have lv5 : after ((hostOps0 : List (HloOp τ sig (Elt Ideal))).take 6) (fun b => m (c, b)) (Proc.devRef .tc main_v5) = (cv (catR (tr A.X5) (tr A.X9)) : FVec Ideal S512x256 .f32) :=
    (pre_known (hostOps0 : List (HloOp τ sig (Elt Ideal))) 6 (fun b => m (c, b)) (Proc.devRef .tc main_v5) (by decide)).trans A.val_v5
  generalize after ((hostOps0 : List (HloOp τ sig (Elt Ideal))).take 6) (fun b => m (c, b)) = W at lv2 lv5 ⊢
  simp only [hostOps0, List.take_succ_cons, List.take_zero, List.drop_succ_cons, List.drop_zero]
  after_results
  rw [lv2, lv5, addf_cv]

theorem win_v7 : (V m c main_v7 : FVec Ideal S512x256 .bf16) = (cv (catR (tr A.X4) (tr A.X8)) : FVec Ideal S512x256 .bf16) := by
  refine (after_mid (hostOps0 : List (HloOp τ sig (Elt Ideal))) 7 8 (by decide) (fun b => m (c, b)) (Proc.devRef .tc main_v7) (by decide)).trans ?_
  have lv2 : after ((hostOps0 : List (HloOp τ sig (Elt Ideal))).take 7) (fun b => m (c, b)) (Proc.devRef .tc main_v2) = (cv (catR (tr A.X4) (tr A.X8)) : FVec Ideal S512x256 .f32) :=
    (pre_known (hostOps0 : List (HloOp τ sig (Elt Ideal))) 7 (fun b => m (c, b)) (Proc.devRef .tc main_v2) (by decide)).trans A.val_v2
  generalize after ((hostOps0 : List (HloOp τ sig (Elt Ideal))).take 7) (fun b => m (c, b)) = W at lv2 ⊢
  simp only [hostOps0, List.take_succ_cons, List.take_zero, List.drop_succ_cons, List.drop_zero]
  after_results
  rw [lv2]
  simp only [truncf_cv]

theorem win_v10 : (V m c main_v10 : FVec Ideal S512x256 .bf16) = (cv (fun _ => (0 : ℝ)) : FVec Ideal S512x256 .bf16) := by
  refine (after_mid (hostOps0 : List (HloOp τ sig (Elt Ideal))) 7 11 (by decide) (fun b => m (c, b)) (Proc.devRef .tc main_v10) (by decide)).trans ?_
  have lv2 : after ((hostOps0 : List (HloOp τ sig (Elt Ideal))).take 7) (fun b => m (c, b)) (Proc.devRef .tc main_v2) = (cv (catR (tr A.X4) (tr A.X8)) : FVec Ideal S512x256 .f32) :=
    (pre_known (hostOps0 : List (HloOp τ sig (Elt Ideal))) 7 (fun b => m (c, b)) (Proc.devRef .tc main_v2) (by decide)).trans A.val_v2
  generalize after ((hostOps0 : List (HloOp τ sig (Elt Ideal))).take 7) (fun b => m (c, b)) = W at lv2 ⊢
  simp only [hostOps0, List.take_succ_cons, List.take_zero, List.drop_succ_cons, List.drop_zero]
  after_results
  rw [lv2]
  simp only [truncf_cv, extf_cv, subf_cv_self]

theorem win_v11 : (V m c main_v11 : FVec Ideal S512x256 .bf16) = (cv (catR (tr A.X5) (tr A.X9)) : FVec Ideal S512x256 .bf16) := by
  refine (after_mid (hostOps0 : List (HloOp τ sig (Elt Ideal))) 11 12 (by decide) (fun b => m (c, b)) (Proc.devRef .tc main_v11) (by decide)).trans ?_
  have lv5 : after ((hostOps0 : List (HloOp τ sig (Elt Ideal))).take 11) (fun b => m (c, b)) (Proc.devRef .tc main_v5) = (cv (catR (tr A.X5) (tr A.X9)) : FVec Ideal S512x256 .f32) :=
    (pre_known (hostOps0 : List (HloOp τ sig (Elt Ideal))) 11 (fun b => m (c, b)) (Proc.devRef .tc main_v5) (by decide)).trans A.val_v5
  generalize after ((hostOps0 : List (HloOp τ sig (Elt Ideal))).take 11) (fun b => m (c, b)) = W at lv5 ⊢
  simp only [hostOps0, List.take_succ_cons, List.take_zero, List.drop_succ_cons, List.drop_zero]
  after_results
  rw [lv5]
  simp only [truncf_cv]

theorem win_v14 : (V m c main_v14 : FVec Ideal S512x256 .bf16) = (cv (fun _ => (0 : ℝ)) : FVec Ideal S512x256 .bf16) := by
  refine (after_mid (hostOps0 : List (HloOp τ sig (Elt Ideal))) 11 15 (by decide) (fun b => m (c, b)) (Proc.devRef .tc main_v14) (by decide)).trans ?_
  have lv5 : after ((hostOps0 : List (HloOp τ sig (Elt Ideal))).take 11) (fun b => m (c, b)) (Proc.devRef .tc main_v5) = (cv (catR (tr A.X5) (tr A.X9)) : FVec Ideal S512x256 .f32) :=
    (pre_known (hostOps0 : List (HloOp τ sig (Elt Ideal))) 11 (fun b => m (c, b)) (Proc.devRef .tc main_v5) (by decide)).trans A.val_v5
  generalize after ((hostOps0 : List (HloOp τ sig (Elt Ideal))).take 11) (fun b => m (c, b)) = W at lv5 ⊢
  simp only [hostOps0, List.take_succ_cons, List.take_zero, List.drop_succ_cons, List.drop_zero]
  after_results
  rw [lv5]
  simp only [truncf_cv, extf_cv, subf_cv_self]

theorem win_v15 : (V m c main_v15 : FVec Ideal S512x256 .bf16) = (cv (fun i => (catR (tr A.X4) (tr A.X8)) i + (catR (tr A.X5) (tr A.X9)) i) : FVec Ideal S512x256 .bf16) := by
  refine (after_mid (hostOps0 : List (HloOp τ sig (Elt Ideal))) 15 16 (by decide) (fun b => m (c, b)) (Proc.devRef .tc main_v15) (by decide)).trans ?_
  have lv6 : after ((hostOps0 : List (HloOp τ sig (Elt Ideal))).take 15) (fun b => m (c, b)) (Proc.devRef .tc main_v6) = (cv (fun i => (catR (tr A.X4) (tr A.X8)) i + (catR (tr A.X5) (tr A.X9)) i) : FVec Ideal S512x256 .f32) :=
    (pre_known (hostOps0 : List (HloOp τ sig (Elt Ideal))) 15 (fun b => m (c, b)) (Proc.devRef .tc main_v6) (by decide)).trans A.val_v6
  generalize after ((hostOps0 : List (HloOp τ sig (Elt Ideal))).take 15) (fun b => m (c, b)) = W at lv6 ⊢
  simp only [hostOps0, List.take_succ_cons, List.take_zero, List.drop_succ_cons, List.drop_zero]
  after_results
  rw [lv6]
  simp only [truncf_cv]

theorem win_v18 : (V m c main_v18 : FVec Ideal S512x256 .bf16) = (cv (fun _ => (0 : ℝ)) : FVec Ideal S512x256 .bf16) := by
  refine (after_mid (hostOps0 : List (HloOp τ sig (Elt Ideal))) 15 19 (by decide) (fun b => m (c, b)) (Proc.devRef .tc main_v18) (by decide)).trans ?_
  have lv6 : after ((hostOps0 : List (HloOp τ sig (Elt Ideal))).take 15) (fun b => m (c, b)) (Proc.devRef .tc main_v6) = (cv (fun i => (catR (tr A.X4) (tr A.X8)) i + (catR (tr A.X5) (tr A.X9)) i) : FVec Ideal S512x256 .f32) :=
    (pre_known (hostOps0 : List (HloOp τ sig (Elt Ideal))) 15 (fun b => m (c, b)) (Proc.devRef .tc main_v6) (by decide)).trans A.val_v6
  generalize after ((hostOps0 : List (HloOp τ sig (Elt Ideal))).take 15) (fun b => m (c, b)) = W at lv6 ⊢
  simp only [hostOps0, List.take_succ_cons, List.take_zero, List.drop_succ_cons, List.drop_zero]
  after_results
  rw [lv6]
  simp only [truncf_cv, extf_cv, subf_cv_self]

theorem win_v22 : (V m c main_v22 : FVec Ideal S1x256 .f32) = (cv (fun i => (A.X6 (ix1 (i 1)) + A.X10 (ix1 (i 1))) - (A.X7 (ix1 (i 1)) + A.X11 (ix1 (i 1)))) : FVec Ideal S1x256 .f32) := by
  refine (after_mid (hostOps0 : List (HloOp τ sig (Elt Ideal))) 19 23 (by decide) (fun b => m (c, b)) (Proc.devRef .tc main_v22) (by decide)).trans ?_
  have l6 : after ((hostOps0 : List (HloOp τ sig (Elt Ideal))).take 19) (fun b => m (c, b)) (Proc.devRef .tc main_arg6) = (cv A.X6 : FVec Ideal S256 .f32) :=
    (after_of_forall_not_mem _ _ (by decide)).trans A.h6
  have l10 : after ((hostOps0 : List (HloOp τ sig (Elt Ideal))).take 19) (fun b => m (c, b)) (Proc.devRef .tc main_arg10) = (cv A.X10 : FVec Ideal S256 .f32) :=
    (after_of_forall_not_mem _ _ (by decide)).trans A.h10
  have l7 : after ((hostOps0 : List (HloOp τ sig (Elt Ideal))).take 19) (fun b => m (c, b)) (Proc.devRef .tc main_arg7) = (cv A.X7 : FVec Ideal S256 .f32) :=
    (after_of_forall_not_mem _ _ (by decide)).trans A.h7
  have l11 : after ((hostOps0 : List (HloOp τ sig (Elt Ideal))).take 19) (fun b => m (c, b)) (Proc.devRef .tc main_arg11) = (cv A.X11 : FVec Ideal S256 .f32) :=
    (after_of_forall_not_mem _ _ (by decide)).trans A.h11
  generalize after ((hostOps0 : List (HloOp τ sig (Elt Ideal))).take 19) (fun b => m (c, b)) = W at l6 l10 l7 l11 ⊢
  simp only [hostOps0, List.take_succ_cons, List.take_zero, List.drop_succ_cons, List.drop_zero]
  after_results
  rw [l6, l10, l7, l11]
  simp only [addf_cv, subf_cv]
  exact shapeCast_row_cv _ _

theorem win_v26 : (V m c main_v26 : FVec Ideal S1x256 .f32) = (cv (fun i => (A.X6 (ix1 (i 1)) + A.X10 (ix1 (i 1))) + (A.X7 (ix1 (i 1)) + A.X11 (ix1 (i 1)))) : FVec Ideal S1x256 .f32) := by
  refine (after_mid (hostOps0 : List (HloOp τ sig (Elt Ideal))) 23 27 (by decide) (fun b => m (c, b)) (Proc.devRef .tc main_v26) (by decide)).trans ?_
  have l6 : after ((hostOps0 : List (HloOp τ sig (Elt Ideal))).take 23) (fun b => m (c, b)) (Proc.devRef .tc main_arg6) = (cv A.X6 : FVec Ideal S256 .f32) :=
    (after_of_forall_not_mem _ _ (by decide)).trans A.h6
  have l10 : after ((hostOps0 : List (HloOp τ sig (Elt Ideal))).take 23) (fun b => m (c, b)) (Proc.devRef .tc main_arg10) = (cv A.X10 : FVec Ideal S256 .f32) :=
    (after_of_forall_not_mem _ _ (by decide)).trans A.h10
  have l7 : after ((hostOps0 : List (HloOp τ sig (Elt Ideal))).take 23) (fun b => m (c, b)) (Proc.devRef .tc main_arg7) = (cv A.X7 : FVec Ideal S256 .f32) :=
    (after_of_forall_not_mem _ _ (by decide)).trans A.h7
  have l11 : after ((hostOps0 : List (HloOp τ sig (Elt Ideal))).take 23) (fun b => m (c, b)) (Proc.devRef .tc main_arg11) = (cv A.X11 : FVec Ideal S256 .f32) :=
    (after_of_forall_not_mem _ _ (by decide)).trans A.h11
  generalize after ((hostOps0 : List (HloOp τ sig (Elt Ideal))).take 23) (fun b => m (c, b)) = W at l6 l10 l7 l11 ⊢
  simp only [hostOps0, List.take_succ_cons, List.take_zero, List.drop_succ_cons, List.drop_zero]
  after_results
  rw [l6, l10, l7, l11]
  simp only [addf_cv]
  exact shapeCast_row_cv _ _

/-! ## Gate 2 (operations 28 … 54) -/

theorem val_v29 : (V m c main_v29 : FVec Ideal S512x256 .f32) = (cv (catR (tr A.X12) (tr A.X16)) : FVec Ideal S512x256 .f32) := by
  refine (after_mid (hostOps0 : List (HloOp τ sig (Elt Ideal))) 27 30 (by decide) (fun b => m (c, b)) (Proc.devRef .tc main_v29) (by decide)).trans ?_
  have l12 : after ((hostOps0 : List (HloOp τ sig (Elt Ideal))).take 27) (fun b => m (c, b)) (Proc.devRef .tc main_arg12) = (cv A.X12 : FVec Ideal S256x256 .f32) :=
    (after_of_forall_not_mem _ _ (by decide)).trans A.h12
  have l16 : after ((hostOps0 : List (HloOp τ sig (Elt Ideal))).take 27) (fun b => m (c, b)) (Proc.devRef .tc main_arg16) = (cv A.X16 : FVec Ideal S256x256 .f32) :=
    (after_of_forall_not_mem _ _ (by decide)).trans A.h16
  generalize after ((hostOps0 : List (HloOp τ sig (Elt Ideal))).take 27) (fun b => m (c, b)) = W at l12 l16 ⊢
  simp only [hostOps0, List.take_succ_cons, List.take_zero, List.drop_succ_cons, List.drop_zero]
  after_results
  rw [l12, l16, LibLayoutLift.transpose_cv, LibLayoutLift.transpose_cv, concat_rows_cv]

theorem val_v32 : (V m c main_v32 : FVec Ideal S512x256 .f32) = (cv (catR (tr A.X13) (tr A.X17)) : FVec Ideal S512x256 .f32) := by
  refine (after_mid (hostOps0 : List (HloOp τ sig (Elt Ideal))) 30 33 (by decide) (fun b => m (c, b)) (Proc.devRef .tc main_v32) (by decide)).trans ?_
  have l13 : after ((hostOps0 : List (HloOp τ sig (Elt Ideal))).take 30) (fun b => m (c, b)) (Proc.devRef .tc main_arg13) = (cv A.X13 : FVec Ideal S256x256 .f32) :=
    (after_of_forall_not_mem _ _ (by decide)).trans A.h13
  have l17 : after ((hostOps0 : List (HloOp τ sig (Elt Ideal))).take 30) (fun b => m (c, b)) (Proc.devRef .tc main_arg17) = (cv A.X17 : FVec Ideal S256x256 .f32) :=
    (after_of_forall_not_mem _ _ (by decide)).trans A.h17
  generalize after ((hostOps0 : List (HloOp τ sig (Elt Ideal))).take 30) (fun b => m (c, b)) = W at l13 l17 ⊢
  simp only [hostOps0, List.take_succ_cons, List.take_zero, List.drop_succ_cons, List.drop_zero]
  after_results
  rw [l13, l17, LibLayoutLift.transpose_cv, LibLayoutLift.transpose_cv, concat_rows_cv]

theorem val_v33 : (V m c main_v33 : FVec Ideal S512x256 .f32) = (cv (fun i => (catR (tr A.X12) (tr A.X16)) i + (catR (tr A.X13) (tr A.X17)) i) : FVec Ideal S512x256 .f32) := by
  refine (after_mid (hostOps0 : List (HloOp τ sig (Elt Ideal))) 33 34 (by decide) (fun b => m (c, b)) (Proc.devRef .tc main_v33) (by decide)).trans ?_
  have lv29 : after ((hostOps0 : List (HloOp τ sig (Elt Ideal))).take 33) (fun b => m (c, b)) (Proc.devRef .tc main_v29) = (cv (catR (tr A.X12) (tr A.X16)) : FVec Ideal S512x256 .f32) :=
    (pre_known (hostOps0 : List (HloOp τ sig (Elt Ideal))) 33 (fun b => m (c, b)) (Proc.devRef .tc main_v29) (by decide)).trans A.val_v29
  have lv32 : after ((hostOps0 : List (HloOp τ sig (Elt Ideal))).take 33) (fun b => m (c, b)) (Proc.devRef .tc main_v32) = (cv (catR (tr A.X13) (tr A.X17)) : FVec Ideal S512x256 .f32) :=
    (pre_known (hostOps0 : List (HloOp τ sig (Elt Ideal))) 33 (fun b => m (c, b)) (Proc.devRef .tc main_v32) (by decide)).trans A.val_v32
  generalize after ((hostOps0 : List (HloOp τ sig (Elt Ideal))).take 33) (fun b => m (c, b)) = W at lv29 lv32 ⊢
  simp only [hostOps0, List.take_succ_cons, List.take_zero, List.drop_succ_cons, List.drop_zero]
  after_results
  rw [lv29, lv32, addf_cv]

theorem win_v34 : (V m c main_v34 : FVec Ideal S512x256 .bf16) = (cv (catR (tr A.X12) (tr A.X16)) : FVec Ideal S512x256 .bf16) := by
  refine (after_mid (hostOps0 : List (HloOp τ sig (Elt Ideal))) 34 35 (by decide) (fun b => m (c, b)) (Proc.devRef .tc main_v34) (by decide)).trans ?_
  have lv29 : after ((hostOps0 : List (HloOp τ sig (Elt Ideal))).take 34) (fun b => m (c, b)) (Proc.devRef .tc main_v29) = (cv (catR (tr A.X12) (tr A.X16)) : FVec Ideal S512x256 .f32) :=
    (pre_known (hostOps0 : List (HloOp τ sig (Elt Ideal))) 34 (fun b => m (c, b)) (Proc.devRef .tc main_v29) (by decide)).trans A.val_v29
  generalize after ((hostOps0 : List (HloOp τ sig (Elt Ideal))).take 34) (fun b => m (c, b)) = W at lv29 ⊢
  simp only [hostOps0, List.take_succ_cons, List.take_zero, List.drop_succ_cons, List.drop_zero]
  after_results
  rw [lv29]
  simp only [truncf_cv]

theorem win_v37 : (V m c main_v37 : FVec Ideal S512x256 .bf16) = (cv (fun _ => (0 : ℝ)) : FVec Ideal S512x256 .bf16) := by
  refine (after_mid (hostOps0 : List (HloOp τ sig (Elt Ideal))) 34 38 (by decide) (fun b => m (c, b)) (Proc.devRef .tc main_v37) (by decide)).trans ?_
  have lv29 : after ((hostOps0 : List (HloOp τ sig (Elt Ideal))).take 34) (fun b => m (c, b)) (Proc.devRef .tc main_v29) = (cv (catR (tr A.X12) (tr A.X16)) : FVec Ideal S512x256 .f32) :=
    (pre_known (hostOps0 : List (HloOp τ sig (Elt Ideal))) 34 (fun b => m (c, b)) (Proc.devRef .tc main_v29) (by decide)).trans A.val_v29
  generalize after ((hostOps0 : List (HloOp τ sig (Elt Ideal))).take 34) (fun b => m (c, b)) = W at lv29 ⊢
  simp only [hostOps0, List.take_succ_cons, List.take_zero, List.drop_succ_cons, List.drop_zero]
  after_results
  rw [lv29]
  simp only [truncf_cv, extf_cv, subf_cv_self]

theorem win_v38 : (V m c main_v38 : FVec Ideal S512x256 .bf16) = (cv (catR (tr A.X13) (tr A.X17)) : FVec Ideal S512x256 .bf16) := by
  refine (after_mid (hostOps0 : List (HloOp τ sig (Elt Ideal))) 38 39 (by decide) (fun b => m (c, b)) (Proc.devRef .tc main_v38) (by decide)).trans ?_
  have lv32 : after ((hostOps0 : List (HloOp τ sig (Elt Ideal))).take 38) (fun b => m (c, b)) (Proc.devRef .tc main_v32) = (cv (catR (tr A.X13) (tr A.X17)) : FVec Ideal S512x256 .f32) :=
    (pre_known (hostOps0 : List (HloOp τ sig (Elt Ideal))) 38 (fun b => m (c, b)) (Proc.devRef .tc main_v32) (by decide)).trans A.val_v32
  generalize after ((hostOps0 : List (HloOp τ sig (Elt Ideal))).take 38) (fun b => m (c, b)) = W at lv32 ⊢
  simp only [hostOps0, List.take_succ_cons, List.take_zero, List.drop_succ_cons, List.drop_zero]
  after_results
  rw [lv32]
  simp only [truncf_cv]

theorem win_v41 : (V m c main_v41 : FVec Ideal S512x256 .bf16) = (cv (fun _ => (0 : ℝ)) : FVec Ideal S512x256 .bf16) := by
  refine (after_mid (hostOps0 : List (HloOp τ sig (Elt Ideal))) 38 42 (by decide) (fun b => m (c, b)) (Proc.devRef .tc main_v41) (by decide)).trans ?_
  have lv32 : after ((hostOps0 : List (HloOp τ sig (Elt Ideal))).take 38) (fun b => m (c, b)) (Proc.devRef .tc main_v32) = (cv (catR (tr A.X13) (tr A.X17)) : FVec Ideal S512x256 .f32) :=
    (pre_known (hostOps0 : List (HloOp τ sig (Elt Ideal))) 38 (fun b => m (c, b)) (Proc.devRef .tc main_v32) (by decide)).trans A.val_v32
  generalize after ((hostOps0 : List (HloOp τ sig (Elt Ideal))).take 38) (fun b => m (c, b)) = W at lv32 ⊢
  simp only [hostOps0, List.take_succ_cons, List.take_zero, List.drop_succ_cons, List.drop_zero]
  after_results
  rw [lv32]
  simp only [truncf_cv, extf_cv, subf_cv_self]

theorem win_v42 : (V m c main_v42 : FVec Ideal S512x256 .bf16) = (cv (fun i => (catR (tr A.X12) (tr A.X16)) i + (catR (tr A.X13) (tr A.X17)) i) : FVec Ideal S512x256 .bf16) := by
  refine (after_mid (hostOps0 : List (HloOp τ sig (Elt Ideal))) 42 43 (by decide) (fun b => m (c, b)) (Proc.devRef .tc main_v42) (by decide)).trans ?_
  have lv33 : after ((hostOps0 : List (HloOp τ sig (Elt Ideal))).take 42) (fun b => m (c, b)) (Proc.devRef .tc main_v33) = (cv (fun i => (catR (tr A.X12) (tr A.X16)) i + (catR (tr A.X13) (tr A.X17)) i) : FVec Ideal S512x256 .f32) :=
    (pre_known (hostOps0 : List (HloOp τ sig (Elt Ideal))) 42 (fun b => m (c, b)) (Proc.devRef .tc main_v33) (by decide)).trans A.val_v33
  generalize after ((hostOps0 : List (HloOp τ sig (Elt Ideal))).take 42) (fun b => m (c, b)) = W at lv33 ⊢
  simp only [hostOps0, List.take_succ_cons, List.take_zero, List.drop_succ_cons, List.drop_zero]
  after_results
  rw [lv33]
  simp only [truncf_cv]

theorem win_v45 : (V m c main_v45 : FVec Ideal S512x256 .bf16) = (cv (fun _ => (0 : ℝ)) : FVec Ideal S512x256 .bf16) := by
  refine (after_mid (hostOps0 : List (HloOp τ sig (Elt Ideal))) 42 46 (by decide) (fun b => m (c, b)) (Proc.devRef .tc main_v45) (by decide)).trans ?_
  have lv33 : after ((hostOps0 : List (HloOp τ sig (Elt Ideal))).take 42) (fun b => m (c, b)) (Proc.devRef .tc main_v33) = (cv (fun i => (catR (tr A.X12) (tr A.X16)) i + (catR (tr A.X13) (tr A.X17)) i) : FVec Ideal S512x256 .f32) :=
    (pre_known (hostOps0 : List (HloOp τ sig (Elt Ideal))) 42 (fun b => m (c, b)) (Proc.devRef .tc main_v33) (by decide)).trans A.val_v33
  generalize after ((hostOps0 : List (HloOp τ sig (Elt Ideal))).take 42) (fun b => m (c, b)) = W at lv33 ⊢
  simp only [hostOps0, List.take_succ_cons, List.take_zero, List.drop_succ_cons, List.drop_zero]
  after_results
  rw [lv33]
  simp only [truncf_cv, extf_cv, subf_cv_self]

theorem win_v49 : (V m c main_v49 : FVec Ideal S1x256 .f32) = (cv (fun i => (A.X14 (ix1 (i 1)) + A.X18 (ix1 (i 1))) - (A.X15 (ix1 (i 1)) + A.X19 (ix1 (i 1)))) : FVec Ideal S1x256 .f32) := by
  refine (after_mid (hostOps0 : List (HloOp τ sig (Elt Ideal))) 46 50 (by decide) (fun b => m (c, b)) (Proc.devRef .tc main_v49) (by decide)).trans ?_
  have l14 : after ((hostOps0 : List (HloOp τ sig (Elt Ideal))).take 46) (fun b => m (c, b)) (Proc.devRef .tc main_arg14) = (cv A.X14 : FVec Ideal S256 .f32) :=
    (after_of_forall_not_mem _ _ (by decide)).trans A.h14
  have l18 : after ((hostOps0 : List (HloOp τ sig (Elt Ideal))).take 46) (fun b => m (c, b)) (Proc.devRef .tc main_arg18) = (cv A.X18 : FVec Ideal S256 .f32) :=
    (after_of_forall_not_mem _ _ (by decide)).trans A.h18
  have l15 : after ((hostOps0 : List (HloOp τ sig (Elt Ideal))).take 46) (fun b => m (c, b)) (Proc.devRef .tc main_arg15) = (cv A.X15 : FVec Ideal S256 .f32) :=
    (after_of_forall_not_mem _ _ (by decide)).trans A.h15
  have l19 : after ((hostOps0 : List (HloOp τ sig (Elt Ideal))).take 46) (fun b => m (c, b)) (Proc.devRef .tc main_arg19) = (cv A.X19 : FVec Ideal S256 .f32) :=
    (after_of_forall_not_mem _ _ (by decide)).trans A.h19
  generalize after ((hostOps0 : List (HloOp τ sig (Elt Ideal))).take 46) (fun b => m (c, b)) = W at l14 l18 l15 l19 ⊢
  simp only [hostOps0, List.take_succ_cons, List.take_zero, List.drop_succ_cons, List.drop_zero]
  after_results
  rw [l14, l18, l15, l19]
  simp only [addf_cv, subf_cv]
  exact shapeCast_row_cv _ _

theorem win_v53 : (V m c main_v53 : FVec Ideal S1x256 .f32) = (cv (fun i => (A.X14 (ix1 (i 1)) + A.X18 (ix1 (i 1))) + (A.X15 (ix1 (i 1)) + A.X19 (ix1 (i 1)))) : FVec Ideal S1x256 .f32) := by
  refine (after_mid (hostOps0 : List (HloOp τ sig (Elt Ideal))) 50 54 (by decide) (fun b => m (c, b)) (Proc.devRef .tc main_v53) (by decide)).trans ?_
  have l14 : after ((hostOps0 : List (HloOp τ sig (Elt Ideal))).take 50) (fun b => m (c, b)) (Proc.devRef .tc main_arg14) = (cv A.X14 : FVec Ideal S256 .f32) :=
    (after_of_forall_not_mem _ _ (by decide)).trans A.h14
  have l18 : after ((hostOps0 : List (HloOp τ sig (Elt Ideal))).take 50) (fun b => m (c, b)) (Proc.devRef .tc main_arg18) = (cv A.X18 : FVec Ideal S256 .f32) :=
    (after_of_forall_not_mem _ _ (by decide)).trans A.h18
  have l15 : after ((hostOps0 : List (HloOp τ sig (Elt Ideal))).take 50) (fun b => m (c, b)) (Proc.devRef .tc main_arg15) = (cv A.X15 : FVec Ideal S256 .f32) :=
    (after_of_forall_not_mem _ _ (by decide)).trans A.h15
  have l19 : after ((hostOps0 : List (HloOp τ sig (Elt Ideal))).take 50) (fun b => m (c, b)) (Proc.devRef .tc main_arg19) = (cv A.X19 : FVec Ideal S256 .f32) :=
    (after_of_forall_not_mem _ _ (by decide)).trans A.h19
  generalize after ((hostOps0 : List (HloOp τ sig (Elt Ideal))).take 50) (fun b => m (c, b)) = W at l14 l18 l15 l19 ⊢
  simp only [hostOps0, List.take_succ_cons, List.take_zero, List.drop_succ_cons, List.drop_zero]
  after_results
  rw [l14, l18, l15, l19]
  simp only [addf_cv]
  exact shapeCast_row_cv _ _

end RealWeights

end Cert.KernelIdeal.HostWin

end
-- ==== Proof.KernelHostWinCand.lean ====
/-
  The window arrays of the candidate's two affine maps (input side, state side), for real weights and biases. For each: the
  transposed real-part weights, the transposed imaginary-part weights, their sum, each narrowed to 16 bits (the same real array)
  with a zero residual, and the two bias rows br ∓ bi.
-/
import proofs.«107637_j19533511262337_2_alg».proof.Proof.KernelHostWinBase

set_option maxRecDepth 16384

noncomputable section

namespace Cert.KernelIdeal.HostWin

open Cert.KernelIdeal Cert.KernelIdeal.Gen Cert.KernelIdeal.GenP Cert.LibRealLift Cert.LibLayoutLift
open Idealize.ShloMosaic Idealize.ShloMosaic.ValueIdx Idealize.ShloMosaic.TcCoe Idealize.SL.Sem Idealize.ShloMosaic.StableHlo

namespace RealWeights

variable {m : (ℓ : Loc nD τ sig) → Buf (Elt Ideal) ℓ} {c : Dev nD} (A : RealWeights m c)
include A

/-! ## The candidate's input side (operations 55 … 73) -/

theorem val_v54 : (V m c main_v54 : FVec Ideal S256x256 .f32) = (cv (tr A.X20) : FVec Ideal S256x256 .f32) := by
  refine (after_mid (hostOps0 : List (HloOp τ sig (Elt Ideal))) 54 55 (by decide) (fun b => m (c, b)) (Proc.devRef .tc main_v54) (by decide)).trans ?_
  have l20 : after ((hostOps0 : List (HloOp τ sig (Elt Ideal))).take 54) (fun b => m (c, b)) (Proc.devRef .tc main_arg20) = (cv A.X20 : FVec Ideal S256x256 .f32) :=
    (after_of_forall_not_mem _ _ (by decide)).trans A.h20
  generalize after ((hostOps0 : List (HloOp τ sig (Elt Ideal))).take 54) (fun b => m (c, b)) = W at l20 ⊢
  simp only [hostOps0, List.take_succ_cons, List.take_zero, List.drop_succ_cons, List.drop_zero]
  after_results
  rw [l20, LibLayoutLift.transpose_cv]

theorem val_v55 : (V m c main_v55 : FVec Ideal S256x256 .f32) = (cv (tr A.X21) : FVec Ideal S256x256 .f32) := by
  refine (after_mid (hostOps0 : List (HloOp τ sig (Elt Ideal))) 55 56 (by decide) (fun b => m (c, b)) (Proc.devRef .tc main_v55) (by decide)).trans ?_
  have l21 : after ((hostOps0 : List (HloOp τ sig (Elt Ideal))).take 55) (fun b => m (c, b)) (Proc.devRef .tc main_arg21) = (cv A.X21 : FVec Ideal S256x256 .f32) :=
    (after_of_forall_not_mem _ _ (by decide)).trans A.h21
  generalize after ((hostOps0 : List (HloOp τ sig (Elt Ideal))).take 55) (fun b => m (c, b)) = W at l21 ⊢
  simp only [hostOps0, List.take_succ_cons, List.take_zero, List.drop_succ_cons, List.drop_zero]
  after_results
  rw [l21, LibLayoutLift.transpose_cv]

theorem val_v56 : (V m c main_v56 : FVec Ideal S256x256 .f32) = (cv (fun i => (tr A.X20) i + (tr A.X21) i) : FVec Ideal S256x256 .f32) := by
  refine (after_mid (hostOps0 : List (HloOp τ sig (Elt Ideal))) 56 57 (by decide) (fun b => m (c, b)) (Proc.devRef .tc main_v56) (by decide)).trans ?_
  have lv54 : after ((hostOps0 : List (HloOp τ sig (Elt Ideal))).take 56) (fun b => m (c, b)) (Proc.devRef .tc main_v54) = (cv (tr A.X20) : FVec Ideal S256x256 .f32) :=
    (pre_known (hostOps0 : List (HloOp τ sig (Elt Ideal))) 56 (fun b => m (c, b)) (Proc.devRef .tc main_v54) (by decide)).trans A.val_v54
  have lv55 : after ((hostOps0 : List (HloOp τ sig (Elt Ideal))).take 56) (fun b => m (c, b)) (Proc.devRef .tc main_v55) = (cv (tr A.X21) : FVec Ideal S256x256 .f32) :=
    (pre_known (hostOps0 : List (HloOp τ sig (Elt Ideal))) 56 (fun b => m (c, b)) (Proc.devRef .tc main_v55) (by decide)).trans A.val_v55
  generalize after ((hostOps0 : List (HloOp τ sig (Elt Ideal))).take 56) (fun b => m (c, b)) = W at lv54 lv55 ⊢
  simp only [hostOps0, List.take_succ_cons, List.take_zero, List.drop_succ_cons, List.drop_zero]
  after_results
  rw [lv54, lv55, addf_cv]

theorem win_v57 : (V m c main_v57 : FVec Ideal S256x256 .bf16) = (cv (tr A.X20) : FVec Ideal S256x256 .bf16) := by
  refine (after_mid (hostOps0 : List (HloOp τ sig (Elt Ideal))) 57 58 (by decide) (fun b => m (c, b)) (Proc.devRef .tc main_v57) (by decide)).trans ?_
  have lv54 : after ((hostOps0 : List (HloOp τ sig (Elt Ideal))).take 57) (fun b => m (c, b)) (Proc.devRef .tc main_v54) = (cv (tr A.X20) : FVec Ideal S256x256 .f32) :=
    (pre_known (hostOps0 : List (HloOp τ sig (Elt Ideal))) 57 (fun b => m (c, b)) (Proc.devRef .tc main_v54) (by decide)).trans A.val_v54
  generalize after ((hostOps0 : List (HloOp τ sig (Elt Ideal))).take 57) (fun b => m (c, b)) = W at lv54 ⊢
  simp only [hostOps0, List.take_succ_cons, List.take_zero, List.drop_succ_cons, List.drop_zero]
  after_results
  rw [lv54]
  simp only [truncf_cv]

theorem win_v60 : (V m c main_v60 : FVec Ideal S256x256 .bf16) = (cv (fun _ => (0 : ℝ)) : FVec Ideal S256x256 .bf16) := by
  refine (after_mid (hostOps0 : List (HloOp τ sig (Elt Ideal))) 57 61 (by decide) (fun b => m (c, b)) (Proc.devRef .tc main_v60) (by decide)).trans ?_
  have lv54 : after ((hostOps0 : List (HloOp τ sig (Elt Ideal))).take 57) (fun b => m (c, b)) (Proc.devRef .tc main_v54) = (cv (tr A.X20) : FVec Ideal S256x256 .f32) :=
    (pre_known (hostOps0 : List (HloOp τ sig (Elt Ideal))) 57 (fun b => m (c, b)) (Proc.devRef .tc main_v54) (by decide)).trans A.val_v54
  generalize after ((hostOps0 : List (HloOp τ sig (Elt Ideal))).take 57) (fun b => m (c, b)) = W at lv54 ⊢
  simp only [hostOps0, List.take_succ_cons, List.take_zero, List.drop_succ_cons, List.drop_zero]
  after_results
  rw [lv54]
  simp only [truncf_cv, extf_cv, subf_cv_self]

theorem win_v61 : (V m c main_v61 : FVec Ideal S256x256 .bf16) = (cv (tr A.X21) : FVec Ideal S256x256 .bf16) := by
  refine (after_mid (hostOps0 : List (HloOp τ sig (Elt Ideal))) 61 62 (by decide) (fun b => m (c, b)) (Proc.devRef .tc main_v61) (by decide)).trans ?_
  have lv55 : after ((hostOps0 : List (HloOp τ sig (Elt Ideal))).take 61) (fun b => m (c, b)) (Proc.devRef .tc main_v55) = (cv (tr A.X21) : FVec Ideal S256x256 .f32) :=
    (pre_known (hostOps0 : List (HloOp τ sig (Elt Ideal))) 61 (fun b => m (c, b)) (Proc.devRef .tc main_v55) (by decide)).trans A.val_v55
  generalize after ((hostOps0 : List (HloOp τ sig (Elt Ideal))).take 61) (fun b => m (c, b)) = W at lv55 ⊢
  simp only [hostOps0, List.take_succ_cons, List.take_zero, List.drop_succ_cons, List.drop_zero]
  after_results
  rw [lv55]
  simp only [truncf_cv]

theorem win_v64 : (V m c main_v64 : FVec Ideal S256x256 .bf16) = (cv (fun _ => (0 : ℝ)) : FVec Ideal S256x256 .bf16) := by
  refine (after_mid (hostOps0 : List (HloOp τ sig (Elt Ideal))) 61 65 (by decide) (fun b => m (c, b)) (Proc.devRef .tc main_v64) (by decide)).trans ?_
  have lv55 : after ((hostOps0 : List (HloOp τ sig (Elt Ideal))).take 61) (fun b => m (c, b)) (Proc.devRef .tc main_v55) = (cv (tr A.X21) : FVec Ideal S256x256 .f32) :=
    (pre_known (hostOps0 : List (HloOp τ sig (Elt Ideal))) 61 (fun b => m (c, b)) (Proc.devRef .tc main_v55) (by decide)).trans A.val_v55
  generalize after ((hostOps0 : List (HloOp τ sig (Elt Ideal))).take 61) (fun b => m (c, b)) = W at lv55 ⊢
  simp only [hostOps0, List.take_succ_cons, List.take_zero, List.drop_succ_cons, List.drop_zero]
  after_results
  rw [lv55]
  simp only [truncf_cv, extf_cv, subf_cv_self]

theorem win_v65 : (V m c main_v65 : FVec Ideal S256x256 .bf16) = (cv (fun i => (tr A.X20) i + (tr A.X21) i) : FVec Ideal S256x256 .bf16) := by
  refine (after_mid (hostOps0 : List (HloOp τ sig (Elt Ideal))) 65 66 (by decide) (fun b => m (c, b)) (Proc.devRef .tc main_v65) (by decide)).trans ?_
  have lv56 : after ((hostOps0 : List (HloOp τ sig (Elt Ideal))).take 65) (fun b => m (c, b)) (Proc.devRef .tc main_v56) = (cv (fun i => (tr A.X20) i + (tr A.X21) i) : FVec Ideal S256x256 .f32) :=
    (pre_known (hostOps0 : List (HloOp τ sig (Elt Ideal))) 65 (fun b => m (c, b)) (Proc.devRef .tc main_v56) (by decide)).trans A.val_v56
  generalize after ((hostOps0 : List (HloOp τ sig (Elt Ideal))).take 65) (fun b => m (c, b)) = W at lv56 ⊢
  simp only [hostOps0, List.take_succ_cons, List.take_zero, List.drop_succ_cons, List.drop_zero]
  after_results
  rw [lv56]
  simp only [truncf_cv]

theorem win_v68 : (V m c main_v68 : FVec Ideal S256x256 .bf16) = (cv (fun _ => (0 : ℝ)) : FVec Ideal S256x256 .bf16) := by
  refine (after_mid (hostOps0 : List (HloOp τ sig (Elt Ideal))) 65 69 (by decide) (fun b => m (c, b)) (Proc.devRef .tc main_v68) (by decide)).trans ?_
  have lv56 : after ((hostOps0 : List (HloOp τ sig (Elt Ideal))).take 65) (fun b => m (c, b)) (Proc.devRef .tc main_v56) = (cv (fun i => (tr A.X20) i + (tr A.X21) i) : FVec Ideal S256x256 .f32) :=
    (pre_known (hostOps0 : List (HloOp τ sig (Elt Ideal))) 65 (fun b => m (c, b)) (Proc.devRef .tc main_v56) (by decide)).trans A.val_v56
  generalize after ((hostOps0 : List (HloOp τ sig (Elt Ideal))).take 65) (fun b => m (c, b)) = W at lv56 ⊢
  simp only [hostOps0, List.take_succ_cons, List.take_zero, List.drop_succ_cons, List.drop_zero]
  after_results
  rw [lv56]
  simp only [truncf_cv, extf_cv, subf_cv_self]

theorem win_v70 : (V m c main_v70 : FVec Ideal S1x256 .f32) = (cv (fun i => A.X22 (ix1 (i 1)) - A.X23 (ix1 (i 1))) : FVec Ideal S1x256 .f32) := by
  refine (after_mid (hostOps0 : List (HloOp τ sig (Elt Ideal))) 69 71 (by decide) (fun b => m (c, b)) (Proc.devRef .tc main_v70) (by decide)).trans ?_
  have l22 : after ((hostOps0 : List (HloOp τ sig (Elt Ideal))).take 69) (fun b => m (c, b)) (Proc.devRef .tc main_arg22) = (cv A.X22 : FVec Ideal S256 .f32) :=
    (after_of_forall_not_mem _ _ (by decide)).trans A.h22
  have l23 : after ((hostOps0 : List (HloOp τ sig (Elt Ideal))).take 69) (fun b => m (c, b)) (Proc.devRef .tc main_arg23) = (cv A.X23 : FVec Ideal S256 .f32) :=
    (after_of_forall_not_mem _ _ (by decide)).trans A.h23
  generalize after ((hostOps0 : List (HloOp τ sig (Elt Ideal))).take 69) (fun b => m (c, b)) = W at l22 l23 ⊢
  simp only [hostOps0, List.take_succ_cons, List.take_zero, List.drop_succ_cons, List.drop_zero]
  after_results
  rw [l22, l23]
  simp only [subf_cv]
  exact shapeCast_row_cv _ _

theorem win_v72 : (V m c main_v72 : FVec Ideal S1x256 .f32) = (cv (fun i => A.X22 (ix1 (i 1)) + A.X23 (ix1 (i 1))) : FVec Ideal S1x256 .f32) := by
  refine (after_mid (hostOps0 : List (HloOp τ sig (Elt Ideal))) 71 73 (by decide) (fun b => m (c, b)) (Proc.devRef .tc main_v72) (by decide)).trans ?_
  have l22 : after ((hostOps0 : List (HloOp τ sig (Elt Ideal))).take 71) (fun b => m (c, b)) (Proc.devRef .tc main_arg22) = (cv A.X22 : FVec Ideal S256 .f32) :=
    (after_of_forall_not_mem _ _ (by decide)).trans A.h22
  have l23 : after ((hostOps0 : List (HloOp τ sig (Elt Ideal))).take 71) (fun b => m (c, b)) (Proc.devRef .tc main_arg23) = (cv A.X23 : FVec Ideal S256 .f32) :=
    (after_of_forall_not_mem _ _ (by decide)).trans A.h23
  generalize after ((hostOps0 : List (HloOp τ sig (Elt Ideal))).take 71) (fun b => m (c, b)) = W at l22 l23 ⊢
  simp only [hostOps0, List.take_succ_cons, List.take_zero, List.drop_succ_cons, List.drop_zero]
  after_results
  rw [l22, l23]
  simp only [addf_cv]
  exact shapeCast_row_cv _ _

/-! ## The candidate's state side (operations 74 … 92) -/

theorem val_v73 : (V m c main_v73 : FVec Ideal S256x256 .f32) = (cv (tr A.X24) : FVec Ideal S256x256 .f32) := by
  refine (after_mid (hostOps0 : List (HloOp τ sig (Elt Ideal))) 73 74 (by decide) (fun b => m (c, b)) (Proc.devRef .tc main_v73) (by decide)).trans ?_
  have l24 : after ((hostOps0 : List (HloOp τ sig (Elt Ideal))).take 73) (fun b => m (c, b)) (Proc.devRef .tc main_arg24) = (cv A.X24 : FVec Ideal S256x256 .f32) :=
    (after_of_forall_not_mem _ _ (by decide)).trans A.h24
  generalize after ((hostOps0 : List (HloOp τ sig (Elt Ideal))).take 73) (fun b => m (c, b)) = W at l24 ⊢
  simp only [hostOps0, List.take_succ_cons, List.take_zero, List.drop_succ_cons, List.drop_zero]
  after_results
  rw [l24, LibLayoutLift.transpose_cv]

theorem val_v74 : (V m c main_v74 : FVec Ideal S256x256 .f32) = (cv (tr A.X25) : FVec Ideal S256x256 .f32) := by
  refine (after_mid (hostOps0 : List (HloOp τ sig (Elt Ideal))) 74 75 (by decide) (fun b => m (c, b)) (Proc.devRef .tc main_v74) (by decide)).trans ?_
  have l25 : after ((hostOps0 : List (HloOp τ sig (Elt Ideal))).take 74) (fun b => m (c, b)) (Proc.devRef .tc main_arg25) = (cv A.X25 : FVec Ideal S256x256 .f32) :=
    (after_of_forall_not_mem _ _ (by decide)).trans A.h25
  generalize after ((hostOps0 : List (HloOp τ sig (Elt Ideal))).take 74) (fun b => m (c, b)) = W at l25 ⊢
  simp only [hostOps0, List.take_succ_cons, List.take_zero, List.drop_succ_cons, List.drop_zero]
  after_results
  rw [l25, LibLayoutLift.transpose_cv]

theorem val_v75 : (V m c main_v75 : FVec Ideal S256x256 .f32) = (cv (fun i => (tr A.X24) i + (tr A.X25) i) : FVec Ideal S256x256 .f32) := by
  refine (after_mid (hostOps0 : List (HloOp τ sig (Elt Ideal))) 75 76 (by decide) (fun b => m (c, b)) (Proc.devRef .tc main_v75) (by decide)).trans ?_
  have lv73 : after ((hostOps0 : List (HloOp τ sig (Elt Ideal))).take 75) (fun b => m (c, b)) (Proc.devRef .tc main_v73) = (cv (tr A.X24) : FVec Ideal S256x256 .f32) :=
    (pre_known (hostOps0 : List (HloOp τ sig (Elt Ideal))) 75 (fun b => m (c, b)) (Proc.devRef .tc main_v73) (by decide)).trans A.val_v73
  have lv74 : after ((hostOps0 : List (HloOp τ sig (Elt Ideal))).take 75) (fun b => m (c, b)) (Proc.devRef .tc main_v74) = (cv (tr A.X25) : FVec Ideal S256x256 .f32) :=
    (pre_known (hostOps0 : List (HloOp τ sig (Elt Ideal))) 75 (fun b => m (c, b)) (Proc.devRef .tc main_v74) (by decide)).trans A.val_v74
  generalize after ((hostOps0 : List (HloOp τ sig (Elt Ideal))).take 75) (fun b => m (c, b)) = W at lv73 lv74 ⊢
  simp only [hostOps0, List.take_succ_cons, List.take_zero, List.drop_succ_cons, List.drop_zero]
  after_results
  rw [lv73, lv74, addf_cv]

theorem win_v76 : (V m c main_v76 : FVec Ideal S256x256 .bf16) = (cv (tr A.X24) : FVec Ideal S256x256 .bf16) := by
  refine (after_mid (hostOps0 : List (HloOp τ sig (Elt Ideal))) 76 77 (by decide) (fun b => m (c, b)) (Proc.devRef .tc main_v76) (by decide)).trans ?_
  have lv73 : after ((hostOps0 : List (HloOp τ sig (Elt Ideal))).take 76) (fun b => m (c, b)) (Proc.devRef .tc main_v73) = (cv (tr A.X24) : FVec Ideal S256x256 .f32) :=
    (pre_known (hostOps0 : List (HloOp τ sig (Elt Ideal))) 76 (fun b => m (c, b)) (Proc.devRef .tc main_v73) (by decide)).trans A.val_v73
  generalize after ((hostOps0 : List (HloOp τ sig (Elt Ideal))).take 76) (fun b => m (c, b)) = W at lv73 ⊢
  simp only [hostOps0, List.take_succ_cons, List.take_zero, List.drop_succ_cons, List.drop_zero]
  after_results
  rw [lv73]
  simp only [truncf_cv]

theorem win_v79 : (V m c main_v79 : FVec Ideal S256x256 .bf16) = (cv (fun _ => (0 : ℝ)) : FVec Ideal S256x256 .bf16) := by
  refine (after_mid (hostOps0 : List (HloOp τ sig (Elt Ideal))) 76 80 (by decide) (fun b => m (c, b)) (Proc.devRef .tc main_v79) (by decide)).trans ?_
  have lv73 : after ((hostOps0 : List (HloOp τ sig (Elt Ideal))).take 76) (fun b => m (c, b)) (Proc.devRef .tc main_v73) = (cv (tr A.X24) : FVec Ideal S256x256 .f32) :=
    (pre_known (hostOps0 : List (HloOp τ sig (Elt Ideal))) 76 (fun b => m (c, b)) (Proc.devRef .tc main_v73) (by decide)).trans A.val_v73
  generalize after ((hostOps0 : List (HloOp τ sig (Elt Ideal))).take 76) (fun b => m (c, b)) = W at lv73 ⊢
  simp only [hostOps0, List.take_succ_cons, List.take_zero, List.drop_succ_cons, List.drop_zero]
  after_results
  rw [lv73]
  simp only [truncf_cv, extf_cv, subf_cv_self]

theorem win_v80 : (V m c main_v80 : FVec Ideal S256x256 .bf16) = (cv (tr A.X25) : FVec Ideal S256x256 .bf16) := by
  refine (after_mid (hostOps0 : List (HloOp τ sig (Elt Ideal))) 80 81 (by decide) (fun b => m (c, b)) (Proc.devRef .tc main_v80) (by decide)).trans ?_
  have lv74 : after ((hostOps0 : List (HloOp τ sig (Elt Ideal))).take 80) (fun b => m (c, b)) (Proc.devRef .tc main_v74) = (cv (tr A.X25) : FVec Ideal S256x256 .f32) :=
    (pre_known (hostOps0 : List (HloOp τ sig (Elt Ideal))) 80 (fun b => m (c, b)) (Proc.devRef .tc main_v74) (by decide)).trans A.val_v74
  generalize after ((hostOps0 : List (HloOp τ sig (Elt Ideal))).take 80) (fun b => m (c, b)) = W at lv74 ⊢
  simp only [hostOps0, List.take_succ_cons, List.take_zero, List.drop_succ_cons, List.drop_zero]
  after_results
  rw [lv74]
  simp only [truncf_cv]

theorem win_v83 : (V m c main_v83 : FVec Ideal S256x256 .bf16) = (cv (fun _ => (0 : ℝ)) : FVec Ideal S256x256 .bf16) := by
  refine (after_mid (hostOps0 : List (HloOp τ sig (Elt Ideal))) 80 84 (by decide) (fun b => m (c, b)) (Proc.devRef .tc main_v83) (by decide)).trans ?_
  have lv74 : after ((hostOps0 : List (HloOp τ sig (Elt Ideal))).take 80) (fun b => m (c, b)) (Proc.devRef .tc main_v74) = (cv (tr A.X25) : FVec Ideal S256x256 .f32) :=
    (pre_known (hostOps0 : List (HloOp τ sig (Elt Ideal))) 80 (fun b => m (c, b)) (Proc.devRef .tc main_v74) (by decide)).trans A.val_v74
  generalize after ((hostOps0 : List (HloOp τ sig (Elt Ideal))).take 80) (fun b => m (c, b)) = W at lv74 ⊢
  simp only [hostOps0, List.take_succ_cons, List.take_zero, List.drop_succ_cons, List.drop_zero]
  after_results
  rw [lv74]
  simp only [truncf_cv, extf_cv, subf_cv_self]

theorem win_v84 : (V m c main_v84 : FVec Ideal S256x256 .bf16) = (cv (fun i => (tr A.X24) i + (tr A.X25) i) : FVec Ideal S256x256 .bf16) := by
  refine (after_mid (hostOps0 : List (HloOp τ sig (Elt Ideal))) 84 85 (by decide) (fun b => m (c, b)) (Proc.devRef .tc main_v84) (by decide)).trans ?_
  have lv75 : after ((hostOps0 : List (HloOp τ sig (Elt Ideal))).take 84) (fun b => m (c, b)) (Proc.devRef .tc main_v75) = (cv (fun i => (tr A.X24) i + (tr A.X25) i) : FVec Ideal S256x256 .f32) :=
    (pre_known (hostOps0 : List (HloOp τ sig (Elt Ideal))) 84 (fun b => m (c, b)) (Proc.devRef .tc main_v75) (by decide)).trans A.val_v75
  generalize after ((hostOps0 : List (HloOp τ sig (Elt Ideal))).take 84) (fun b => m (c, b)) = W at lv75 ⊢
  simp only [hostOps0, List.take_succ_cons, List.take_zero, List.drop_succ_cons, List.drop_zero]
  after_results
  rw [lv75]
  simp only [truncf_cv]

theorem win_v87 : (V m c main_v87 : FVec Ideal S256x256 .bf16) = (cv (fun _ => (0 : ℝ)) : FVec Ideal S256x256 .bf16) := by
  refine (after_mid (hostOps0 : List (HloOp τ sig (Elt Ideal))) 84 88 (by decide) (fun b => m (c, b)) (Proc.devRef .tc main_v87) (by decide)).trans ?_
  have lv75 : after ((hostOps0 : List (HloOp τ sig (Elt Ideal))).take 84) (fun b => m (c, b)) (Proc.devRef .tc main_v75) = (cv (fun i => (tr A.X24) i + (tr A.X25) i) : FVec Ideal S256x256 .f32) :=
    (pre_known (hostOps0 : List (HloOp τ sig (Elt Ideal))) 84 (fun b => m (c, b)) (Proc.devRef .tc main_v75) (by decide)).trans A.val_v75
  generalize after ((hostOps0 : List (HloOp τ sig (Elt Ideal))).take 84) (fun b => m (c, b)) = W at lv75 ⊢
  simp only [hostOps0, List.take_succ_cons, List.take_zero, List.drop_succ_cons, List.drop_zero]
  after_results
  rw [lv75]
  simp only [truncf_cv, extf_cv, subf_cv_self]

theorem win_v89 : (V m c main_v89 : FVec Ideal S1x256 .f32) = (cv (fun i => A.X26 (ix1 (i 1)) - A.X27 (ix1 (i 1))) : FVec Ideal S1x256 .f32) := by
  refine (after_mid (hostOps0 : List (HloOp τ sig (Elt Ideal))) 88 90 (by decide) (fun b => m (c, b)) (Proc.devRef .tc main_v89) (by decide)).trans ?_
  have l26 : after ((hostOps0 : List (HloOp τ sig (Elt Ideal))).take 88) (fun b => m (c, b)) (Proc.devRef .tc main_arg26) = (cv A.X26 : FVec Ideal S256 .f32) :=
    (after_of_forall_not_mem _ _ (by decide)).trans A.h26
  have l27 : after ((hostOps0 : List (HloOp τ sig (Elt Ideal))).take 88) (fun b => m (c, b)) (Proc.devRef .tc main_arg27) = (cv A.X27 : FVec Ideal S256 .f32) :=
    (after_of_forall_not_mem _ _ (by decide)).trans A.h27
  generalize after ((hostOps0 : List (HloOp τ sig (Elt Ideal))).take 88) (fun b => m (c, b)) = W at l26 l27 ⊢
  simp only [hostOps0, List.take_succ_cons, List.take_zero, List.drop_succ_cons, List.drop_zero]
  after_results
  rw [l26, l27]
  simp only [subf_cv]
  exact shapeCast_row_cv _ _

theorem win_v91 : (V m c main_v91 : FVec Ideal S1x256 .f32) = (cv (fun i => A.X26 (ix1 (i 1)) + A.X27 (ix1 (i 1))) : FVec Ideal S1x256 .f32) := by
  refine (after_mid (hostOps0 : List (HloOp τ sig (Elt Ideal))) 90 92 (by decide) (fun b => m (c, b)) (Proc.devRef .tc main_v91) (by decide)).trans ?_
  have l26 : after ((hostOps0 : List (HloOp τ sig (Elt Ideal))).take 90) (fun b => m (c, b)) (Proc.devRef .tc main_arg26) = (cv A.X26 : FVec Ideal S256 .f32) :=
    (after_of_forall_not_mem _ _ (by decide)).trans A.h26
  have l27 : after ((hostOps0 : List (HloOp τ sig (Elt Ideal))).take 90) (fun b => m (c, b)) (Proc.devRef .tc main_arg27) = (cv A.X27 : FVec Ideal S256 .f32) :=
    (after_of_forall_not_mem _ _ (by decide)).trans A.h27
  generalize after ((hostOps0 : List (HloOp τ sig (Elt Ideal))).take 90) (fun b => m (c, b)) = W at l26 l27 ⊢
  simp only [hostOps0, List.take_succ_cons, List.take_zero, List.drop_succ_cons, List.drop_zero]
  after_results
  rw [l26, l27]
  simp only [addf_cv]
  exact shapeCast_row_cv _ _

end RealWeights

end Cert.KernelIdeal.HostWin

end
-- ==== Proof.KernelHostWin.lean ====
/-
  The kernel's host-prepared window arrays for real weights and biases: all 32, gathered (the gates' in
  KernelHostWinGates.lean, the candidate's in KernelHostWinCand.lean; the common lemmas and the hypothesis `RealWeights` in
  KernelHostWinBase.lean).
-/
import proofs.«107637_j19533511262337_2_alg».proof.Proof.KernelHostWinGates
import proofs.«107637_j19533511262337_2_alg».proof.Proof.KernelHostWinCand
-- ==== Proof.KernelValue.lean ====
/-
  The kernel's result array is the cell of its arguments.

  With the 28 argument arrays real: every window's block at a grid point is an array of reals (rows of the activations; the
  transposed, stacked, added weight matrices with zero residuals; the combined bias rows), so the point's output block is, entry
  by entry, `outRe` / `outIm` of real pre-activations (KernelBlock), which are the cell's pre-activations at the rows the point owns
  (BlockVsCell). The 128 blocks cover the result, so the result array is `cell` of the arguments.
-/
import proofs.«107637_j19533511262337_2_alg».proof.Proof.KernelWindows
import proofs.«107637_j19533511262337_2_alg».proof.Proof.KernelBlock
import proofs.«107637_j19533511262337_2_alg».proof.Proof.BlockVsCell
import proofs.«107637_j19533511262337_2_alg».proof.Proof.KernelHostWin

set_option maxRecDepth 16384

open Idealize.ShloMosaic Idealize.ShloMosaic.ValueIdx

noncomputable section

namespace Cert.KernelIdeal.CellValue

open Cert.KernelIdeal Cert.KernelIdeal.Gen Cert.KernelIdeal.GenP Idealize.ShloMosaic.TcCoe Idealize.SL.Sem
open Cert.LibRealLift Cert.LibLayoutLift Cert.KernelIdeal.Body Cert.BlockVsCell Cert.KernelIdeal.Block
open Cert.CellSpec (cell Arr1)

variable (X0 X1 X2 X3 : Arr2 65536 256)
  (X4 X5 : Arr2 256 256) (X6 X7 : Arr1 256) (X8 X9 : Arr2 256 256) (X10 X11 : Arr1 256)
  (X12 X13 : Arr2 256 256) (X14 X15 : Arr1 256) (X16 X17 : Arr2 256 256) (X18 X19 : Arr1 256)
  (X20 X21 : Arr2 256 256) (X22 X23 : Arr1 256) (X24 X25 : Arr2 256 256) (X26 X27 : Arr1 256)

/-- A grid point's output block, at the blocks it sees of real argument arrays, is the cell's result at the rows it owns. -/
theorem blk_cell (t : Fin 128) (s : Fin 2) (p : Fin 512) (j : Fin 256) :
    outBlk (blkR t X0) (blkR t X1) (blkR t X2) (blkR t X3)
      (catR (tr X4) (tr X8)) (catR (tr X5) (tr X9)) (fun q => catR (tr X4) (tr X8) q + catR (tr X5) (tr X9) q)
      (fun i => (X6 (ix1 (i 1)) + X10 (ix1 (i 1))) - (X7 (ix1 (i 1)) + X11 (ix1 (i 1))))
      (fun i => (X6 (ix1 (i 1)) + X10 (ix1 (i 1))) + (X7 (ix1 (i 1)) + X11 (ix1 (i 1))))
      (catR (tr X12) (tr X16)) (catR (tr X13) (tr X17)) (fun q => catR (tr X12) (tr X16) q + catR (tr X13) (tr X17) q)
      (fun i => (X14 (ix1 (i 1)) + X18 (ix1 (i 1))) - (X15 (ix1 (i 1)) + X19 (ix1 (i 1))))
      (fun i => (X14 (ix1 (i 1)) + X18 (ix1 (i 1))) + (X15 (ix1 (i 1)) + X19 (ix1 (i 1))))
      (tr X20) (tr X21) (fun q => tr X20 q + tr X21 q)
      (fun i => X22 (ix1 (i 1)) - X23 (ix1 (i 1))) (fun i => X22 (ix1 (i 1)) + X23 (ix1 (i 1)))
      (tr X24) (tr X25) (fun q => tr X24 q + tr X25 q)
      (fun i => X26 (ix1 (i 1)) - X27 (ix1 (i 1))) (fun i => X26 (ix1 (i 1)) + X27 (ix1 (i 1)))
      (ix3 s p j)
    = cell X0 X1 X2 X3 X4 X5 X6 X7 X8 X9 X10 X11 X12 X13 X14 X15 X16 X17 X18 X19 X20 X21 X22 X23 X24 X25 X26 X27
        (ix3 s (rowOf t p) j) := by
  rw [outBlk_apply]
  rw [fused_re t X0 X1 X2 X3 X4 X5 X8 X9 X6 X7 X10 X11 p j, fused_im t X0 X1 X2 X3 X4 X5 X8 X9 X6 X7 X10 X11 p j,
    fused_re t X0 X1 X2 X3 X12 X13 X16 X17 X14 X15 X18 X19 p j, fused_im t X0 X1 X2 X3 X12 X13 X16 X17 X14 X15 X18 X19 p j,
    plain_re t X0 X1 X20 X21 X22 X23 p j, plain_im t X0 X1 X20 X21 X22 X23 p j,
    plain_re t X2 X3 X24 X25 X26 X27 p j, plain_im t X2 X3 X24 X25 X26 X27 p j]
  rfl

/-- The same at any entry `y` of the block. -/
theorem blk_cell_y (t : Fin 128) (y : S2x512x256.Idx) :
    outBlk (blkR t X0) (blkR t X1) (blkR t X2) (blkR t X3)
      (catR (tr X4) (tr X8)) (catR (tr X5) (tr X9)) (fun q => catR (tr X4) (tr X8) q + catR (tr X5) (tr X9) q)
      (fun i => (X6 (ix1 (i 1)) + X10 (ix1 (i 1))) - (X7 (ix1 (i 1)) + X11 (ix1 (i 1))))
      (fun i => (X6 (ix1 (i 1)) + X10 (ix1 (i 1))) + (X7 (ix1 (i 1)) + X11 (ix1 (i 1))))
      (catR (tr X12) (tr X16)) (catR (tr X13) (tr X17)) (fun q => catR (tr X12) (tr X16) q + catR (tr X13) (tr X17) q)
      (fun i => (X14 (ix1 (i 1)) + X18 (ix1 (i 1))) - (X15 (ix1 (i 1)) + X19 (ix1 (i 1))))
      (fun i => (X14 (ix1 (i 1)) + X18 (ix1 (i 1))) + (X15 (ix1 (i 1)) + X19 (ix1 (i 1))))
      (tr X20) (tr X21) (fun q => tr X20 q + tr X21 q)
      (fun i => X22 (ix1 (i 1)) - X23 (ix1 (i 1))) (fun i => X22 (ix1 (i 1)) + X23 (ix1 (i 1)))
      (tr X24) (tr X25) (fun q => tr X24 q + tr X25 q)
      (fun i => X26 (ix1 (i 1)) - X27 (ix1 (i 1))) (fun i => X26 (ix1 (i 1)) + X27 (ix1 (i 1)))
      y
    = cell X0 X1 X2 X3 X4 X5 X6 X7 X8 X9 X10 X11 X12 X13 X14 X15 X16 X17 X18 X19 X20 X21 X22 X23 X24 X25 X26 X27
        (ix3 (y 0) (rowOf t (y 1)) (y 2)) := by
  obtain ⟨s, p, j, rfl⟩ : ∃ (s : Fin 2) (p : Fin 512) (j : Fin 256), y = ix3 s p j := ⟨y 0, y 1, y 2, eq_ix3 y⟩
  exact blk_cell X0 X1 X2 X3 X4 X5 X6 X7 X8 X9 X10 X11 X12 X13 X14 X15 X16 X17 X18 X19 X20 X21 X22 X23 X24 X25 X26 X27 t s p j

/-! ## From blocks to the array -/

section Array

variable (m : (ℓ : Loc nD τ sig) → Buf (Elt Ideal) ℓ) (c : Dev nD)

set_option maxHeartbeats 1000000 in
/-- What grid point `t` writes back is block `t` of the cell's result. -/
theorem flushed_eq
    (h0 : m ((c : Thread nD τ).loc main_arg0) = (cv X0 : FVec Ideal S65536x256 .f32))
    (h1 : m ((c : Thread nD τ).loc main_arg1) = (cv X1 : FVec Ideal S65536x256 .f32))
    (h2 : m ((c : Thread nD τ).loc main_arg2) = (cv X2 : FVec Ideal S65536x256 .f32))
    (h3 : m ((c : Thread nD τ).loc main_arg3) = (cv X3 : FVec Ideal S65536x256 .f32))
    (A : HostWin.RealWeights m c) (t : Fin cfg0.N) :
    (dats m 0 c).flushed 36 t = ((cfg0.win 36).blk t).view.read (Elt Ideal)
      (cell X0 X1 X2 X3 A.X4 A.X5 A.X6 A.X7 A.X8 A.X9 A.X10 A.X11 A.X12 A.X13 A.X14 A.X15 A.X16 A.X17 A.X18 A.X19 A.X20 A.X21 A.X22 A.X23 A.X24 A.X25 A.X26 A.X27) := by
  rw [ValueP.flushed36]
  simp only [Windows.iblk_0 m X0 c h0 t, Windows.iblk_1 m X1 c h1 t, Windows.iblk_2 m X2 c h2 t, Windows.iblk_3 m X3 c h3 t,
    Windows.iblk_4 m c t, Windows.iblk_5 m c t, Windows.iblk_6 m c t, Windows.iblk_7 m c t, Windows.iblk_8 m c t, Windows.iblk_9 m c t, Windows.iblk_10 m c t, Windows.iblk_11 m c t, Windows.iblk_12 m c t, Windows.iblk_13 m c t, Windows.iblk_14 m c t, Windows.iblk_15 m c t, Windows.iblk_16 m c t, Windows.iblk_17 m c t, Windows.iblk_18 m c t, Windows.iblk_19 m c t, Windows.iblk_20 m c t, Windows.iblk_21 m c t, Windows.iblk_22 m c t, Windows.iblk_23 m c t, Windows.iblk_24 m c t, Windows.iblk_25 m c t, Windows.iblk_26 m c t, Windows.iblk_27 m c t, Windows.iblk_28 m c t, Windows.iblk_29 m c t, Windows.iblk_30 m c t, Windows.iblk_31 m c t, Windows.iblk_32 m c t, Windows.iblk_33 m c t, Windows.iblk_34 m c t, Windows.iblk_35 m c t]
  simp only [A.win_v7, A.win_v10, A.win_v11, A.win_v14, A.win_v15, A.win_v18, A.win_v22, A.win_v26, A.win_v34, A.win_v37, A.win_v38, A.win_v41, A.win_v42, A.win_v45, A.win_v49, A.win_v53, A.win_v57, A.win_v60, A.win_v61, A.win_v64, A.win_v65, A.win_v68, A.win_v70, A.win_v72, A.win_v76, A.win_v79, A.win_v80, A.win_v83, A.win_v84, A.win_v87, A.win_v89, A.win_v91]
  funext y
  show outBlk (blkR t X0) (blkR t X1) (blkR t X2) (blkR t X3)
      (catR (tr A.X4) (tr A.X8)) (catR (tr A.X5) (tr A.X9)) (fun q => catR (tr A.X4) (tr A.X8) q + catR (tr A.X5) (tr A.X9) q)
      (fun i => (A.X6 (ix1 (i 1)) + A.X10 (ix1 (i 1))) - (A.X7 (ix1 (i 1)) + A.X11 (ix1 (i 1))))
      (fun i => (A.X6 (ix1 (i 1)) + A.X10 (ix1 (i 1))) + (A.X7 (ix1 (i 1)) + A.X11 (ix1 (i 1))))
      (catR (tr A.X12) (tr A.X16)) (catR (tr A.X13) (tr A.X17)) (fun q => catR (tr A.X12) (tr A.X16) q + catR (tr A.X13) (tr A.X17) q)
      (fun i => (A.X14 (ix1 (i 1)) + A.X18 (ix1 (i 1))) - (A.X15 (ix1 (i 1)) + A.X19 (ix1 (i 1))))
      (fun i => (A.X14 (ix1 (i 1)) + A.X18 (ix1 (i 1))) + (A.X15 (ix1 (i 1)) + A.X19 (ix1 (i 1))))
      (tr A.X20) (tr A.X21) (fun q => tr A.X20 q + tr A.X21 q)
      (fun i => A.X22 (ix1 (i 1)) - A.X23 (ix1 (i 1))) (fun i => A.X22 (ix1 (i 1)) + A.X23 (ix1 (i 1)))
      (tr A.X24) (tr A.X25) (fun q => tr A.X24 q + tr A.X25 q)
      (fun i => A.X26 (ix1 (i 1)) - A.X27 (ix1 (i 1))) (fun i => A.X26 (ix1 (i 1)) + A.X27 (ix1 (i 1)))
      y
    = cell X0 X1 X2 X3 A.X4 A.X5 A.X6 A.X7 A.X8 A.X9 A.X10 A.X11 A.X12 A.X13 A.X14 A.X15 A.X16 A.X17 A.X18 A.X19 A.X20 A.X21 A.X22 A.X23 A.X24 A.X25 A.X26 A.X27 (((cfg0.win 36).blk t).view.emb y)
  rw [Windows.emb36 t y]
  exact blk_cell_y X0 X1 X2 X3 A.X4 A.X5 A.X6 A.X7 A.X8 A.X9 A.X10 A.X11 A.X12 A.X13 A.X14 A.X15 A.X16 A.X17 A.X18 A.X19 A.X20 A.X21 A.X22 A.X23 A.X24 A.X25 A.X26 A.X27 t y

/-- The kernel's result array after the run. -/
theorem final
    (h0 : m ((c : Thread nD τ).loc main_arg0) = (cv X0 : FVec Ideal S65536x256 .f32))
    (h1 : m ((c : Thread nD τ).loc main_arg1) = (cv X1 : FVec Ideal S65536x256 .f32))
    (h2 : m ((c : Thread nD τ).loc main_arg2) = (cv X2 : FVec Ideal S65536x256 .f32))
    (h3 : m ((c : Thread nD τ).loc main_arg3) = (cv X3 : FVec Ideal S65536x256 .f32))
    (A : HostWin.RealWeights m c) :
    (dats m 0 c).arrAt 36 cfg0.N = cell X0 X1 X2 X3 A.X4 A.X5 A.X6 A.X7 A.X8 A.X9 A.X10 A.X11 A.X12 A.X13 A.X14 A.X15 A.X16 A.X17 A.X18 A.X19 A.X20 A.X21 A.X22 A.X23 A.X24 A.X25 A.X26 A.X27 :=
  (dats m 0 c).arrAt_eq_of_cover 36 _ (fun t _ => flushed_eq X0 X1 X2 X3 m c h0 h1 h2 h3 A t) Windows.cover36

end Array

end Cert.KernelIdeal.CellValue

end
-- ==== Proof.lean ====
/-
  The complex GRU cell as a Pallas kernel against its jnp reference: the proof of `Cert.Claim`.

  The kernel tiles the batch into 128 blocks of 512 rows. Per block it fuses the input-side and state-side projections of the
  reset and update gates into one `[512, 512] × [512, 256]` complex product each, keeps the candidate's two projections apart,
  computes every complex product by three real products (real part `m1 - m2`, imaginary part `m3 - m1 - m2`, where `m3` multiplies
  the sums of the real and imaginary factors) and every real product by three partial products of a split of each factor into a
  leading part and a residual. The reference computes the twelve affine maps one by one.

  At the ideal instance a float is an extended real and a change of format does nothing, so a split's leading part is the number
  itself and its residual `x - x`. Under the precondition every argument entry is a real number: then the residuals are zero,
  the three partial products collapse to the product, the three-product form of a complex product is an identity of real numbers,
  and stacking the weights is a re-indexing of a finite sum. So the eight pre-activations of the kernel and of the reference are the
  same real numbers (BlockVsCell), the logistic function and tanh are applied to equal arguments, and the closing arithmetic is the
  same on both sides; both programs end with the result array `CellSpec.cell` of the arguments (KernelValue; RefValue).
  Finiteness is used exactly there: `x - x = 0`, distributing a product over a sum, and cancelling, all fail at infinities.

  The three frames are the generated frame certificates of the two kernel programs and the reference's generated run with its
  result dropped; `preserves` is the nine instances of the rule "widening after narrowing is the identity at the
  ideal instance".
-/
import proofs.«107637_j19533511262337_2_alg».proof.Defs
import proofs.«107637_j19533511262337_2_alg».proof.Proof.Gen.Kernel
import proofs.«107637_j19533511262337_2_alg».proof.Proof.Gen.Kernel.Skeleton
import proofs.«107637_j19533511262337_2_alg».proof.Proof.Gen.Kernel.Launch
import proofs.«107637_j19533511262337_2_alg».proof.Proof.Gen.Kernel.Points
import proofs.«107637_j19533511262337_2_alg».proof.Proof.KernelFrameP
import proofs.«107637_j19533511262337_2_alg».proof.Proof.Gen.KernelIdeal
import proofs.«107637_j19533511262337_2_alg».proof.Proof.Gen.KernelIdeal.Skeleton
import proofs.«107637_j19533511262337_2_alg».proof.Proof.Gen.KernelIdeal.Launch
import proofs.«107637_j19533511262337_2_alg».proof.Proof.Gen.KernelIdeal.Points
import proofs.«107637_j19533511262337_2_alg».proof.Proof.KernelIdealFrameP
import proofs.«107637_j19533511262337_2_alg».proof.Proof.KernelIdealValueP
import proofs.«107637_j19533511262337_2_alg».proof.Proof.Gen.ReferenceIdeal
import proofs.«107637_j19533511262337_2_alg».proof.Proof.Gen.ReferenceIdeal.Run
import proofs.«107637_j19533511262337_2_alg».proof.Proof.Gen.Pre_finite_inputs
import proofs.«107637_j19533511262337_2_alg».proof.Proof.FiniteArgs
import proofs.«107637_j19533511262337_2_alg».proof.Proof.RefValue
import proofs.«107637_j19533511262337_2_alg».proof.Proof.KernelValue
import Idealize.ShloMosaic.Adequacy
import Idealize.ShloMosaic.Init

noncomputable section

namespace Cert.Proof.Claims

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nine times the same rule: the three `[512, 512]` concatenated activations and the six `[512, 256]` plain ones, each
    narrowed to 16 bits and widened back. -/
theorem preserves : Cert.preserves_Kernel_KernelIdeal :=
  ⟨IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x256 .f32 .bf16,
   IdealRules.truncf_extf.statement Cert.KernelIdeal.S512x256 .f32 .bf16,
   IdealRules.truncf_extf.statement Cert.KernelIdeal.S512x256 .f32 .bf16,
   IdealRules.truncf_extf.statement Cert.KernelIdeal.S512x256 .f32 .bf16,
   IdealRules.truncf_extf.statement Cert.KernelIdeal.S512x256 .f32 .bf16,
   IdealRules.truncf_extf.statement Cert.KernelIdeal.S512x256 .f32 .bf16⟩

/-- Both runs end with the cell of the (real) arguments in the result buffer: the kernel's array block by block, the
    reference's as its composed term. -/
theorem algebraic : Cert.algebraic_KernelIdeal_ReferenceIdeal := by
  intro m ρ m' ρ' hpre hagree
  refine ⟨fun c => Cert.ReferenceIdeal.RefValue.refTerm (StableHlo.launchContents m' c), ?_, ?_⟩
  · refine (θ_run Cert.KernelIdeal.defs _ _).mono (fun r h c => ⟨(h c).1.trans ?_, (h c).2⟩)
      (Cert.KernelIdeal.ValueP.run_blocks (F := Ideal) m ρ)
    obtain ⟨⟨X0, h0⟩, ⟨X1, h1⟩, ⟨X2, h2⟩, ⟨X3, h3⟩, ⟨X4, h4⟩, ⟨X5, h5⟩, ⟨X6, h6⟩, ⟨X7, h7⟩, ⟨X8, h8⟩, ⟨X9, h9⟩, ⟨X10, h10⟩, ⟨X11, h11⟩, ⟨X12, h12⟩, ⟨X13, h13⟩, ⟨X14, h14⟩, ⟨X15, h15⟩, ⟨X16, h16⟩, ⟨X17, h17⟩, ⟨X18, h18⟩, ⟨X19, h19⟩, ⟨X20, h20⟩, ⟨X21, h21⟩, ⟨X22, h22⟩, ⟨X23, h23⟩, ⟨X24, h24⟩, ⟨X25, h25⟩, ⟨X26, h26⟩, ⟨X27, h27⟩⟩ := Cert.Proof.Finite.args_real m hpre c
    obtain ⟨a0, a1, a2, a3, a4, a5, a6, a7, a8, a9, a10, a11, a12, a13, a14, a15, a16, a17, a18, a19, a20, a21, a22, a23, a24, a25, a26, a27⟩ := hagree c
    rw [Cert.KernelIdeal.CellValue.final X0 X1 X2 X3 m c h0 h1 h2 h3
      (Cert.KernelIdeal.HostWin.RealWeights.mk X4 X5 X6 X7 X8 X9 X10 X11 X12 X13 X14 X15 X16 X17 X18 X19 X20 X21 X22 X23 X24 X25 X26 X27 h4 h5 h6 h7 h8 h9 h10 h11 h12 h13 h14 h15 h16 h17 h18 h19 h20 h21 h22 h23 h24 h25 h26 h27)]
    exact (Cert.ReferenceIdeal.RefValue.RealArgs.refTerm_cell
      (Cert.ReferenceIdeal.RefValue.RealArgs.mk X0 X1 X2 X3 X4 X5 X6 X7 X8 X9 X10 X11 X12 X13 X14 X15 X16 X17 X18 X19 X20 X21 X22 X23 X24 X25 X26 X27 (a0.trans h0) (a1.trans h1) (a2.trans h2) (a3.trans h3) (a4.trans h4) (a5.trans h5) (a6.trans h6) (a7.trans h7) (a8.trans h8) (a9.trans h9) (a10.trans h10) (a11.trans h11) (a12.trans h12) (a13.trans h13) (a14.trans h14) (a15.trans h15) (a16.trans h16) (a17.trans h17) (a18.trans h18) (a19.trans h19) (a20.trans h20) (a21.trans h21) (a22.trans h22) (a23.trans h23) (a24.trans h24) (a25.trans h25) (a26.trans h26) (a27.trans h27))).symm
  · exact (θ_run Cert.ReferenceIdeal.defs _ _).mono
      (fun r h c => ⟨(h c).1.trans (Cert.ReferenceIdeal.RefValue.refTerm_eq _), (h c).2⟩)
      (Cert.ReferenceIdeal.Value.run (F := Ideal) m' ρ')

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
